-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32768x16 : Shape := ⟨3, ![64, 32768, 16]⟩
abbrev S_ : Shape := ⟨0, ![]⟩
abbrev S64x32768x15 : Shape := ⟨3, ![64, 32768, 15]⟩
abbrev S64x32768x1 : Shape := ⟨3, ![64, 32768, 1]⟩
abbrev S64x32768x14 : Shape := ⟨3, ![64, 32768, 14]⟩
abbrev S64x32768x2 : Shape := ⟨3, ![64, 32768, 2]⟩
abbrev S64x32768x13 : Shape := ⟨3, ![64, 32768, 13]⟩
abbrev S64x32768x3 : Shape := ⟨3, ![64, 32768, 3]⟩
abbrev S64x32768x12 : Shape := ⟨3, ![64, 32768, 12]⟩
abbrev S64x32768x4 : Shape := ⟨3, ![64, 32768, 4]⟩
abbrev S64x32768x11 : Shape := ⟨3, ![64, 32768, 11]⟩
abbrev S64x32768x5 : Shape := ⟨3, ![64, 32768, 5]⟩
abbrev S64x32768x10 : Shape := ⟨3, ![64, 32768, 10]⟩
abbrev S64x32768x6 : Shape := ⟨3, ![64, 32768, 6]⟩
abbrev S64x32768x9 : Shape := ⟨3, ![64, 32768, 9]⟩
abbrev S64x32768x7 : Shape := ⟨3, ![64, 32768, 7]⟩
abbrev S64x32768x8 : Shape := ⟨3, ![64, 32768, 8]⟩

class Facts : Prop where
  bcast_S_S64x32768x16 : S_.BroadcastsInDim S64x32768x16 (![] : Fin 0 → Fin S64x32768x16.rank)
  reducesTo_S64x32768x16_S_d0_1_2 : S64x32768x16.ReducesTo [0, 1, 2] S_
  h_S_ : 0 < S_.numel
  slices_S64x32768x16_S64x32768x15_0_0_0 : S64x32768x16.Slices ![0, 0, 0] S64x32768x15
  slices_S64x32768x16_S64x32768x1_0_0_15 : S64x32768x16.Slices ![0, 0, 15] S64x32768x1
  bcast_S_S64x32768x1 : S_.BroadcastsInDim S64x32768x1 (![] : Fin 0 → Fin S64x32768x1.rank)
  bcast_S64x32768x1_S64x32768x15_0_1_2 : S64x32768x1.BroadcastsInDim S64x32768x15 (![0, 1, 2] : Fin 3 → Fin S64x32768x15.rank)
  concatenates_S64x32768x15_S64x32768x1_S64x32768x16_d2 : Shape.Concatenates [S64x32768x15, S64x32768x1] S64x32768x16 2
  slices_S64x32768x16_S64x32768x14_0_0_0 : S64x32768x16.Slices ![0, 0, 0] S64x32768x14
  slices_S64x32768x16_S64x32768x2_0_0_14 : S64x32768x16.Slices ![0, 0, 14] S64x32768x2
  slices_S64x32768x2_S64x32768x1_0_0_0 : S64x32768x2.Slices ![0, 0, 0] S64x32768x1
  bcast_S64x32768x1_S64x32768x14_0_1_2 : S64x32768x1.BroadcastsInDim S64x32768x14 (![0, 1, 2] : Fin 3 → Fin S64x32768x14.rank)
  concatenates_S64x32768x14_S64x32768x2_S64x32768x16_d2 : Shape.Concatenates [S64x32768x14, S64x32768x2] S64x32768x16 2
  slices_S64x32768x16_S64x32768x13_0_0_0 : S64x32768x16.Slices ![0, 0, 0] S64x32768x13
  slices_S64x32768x16_S64x32768x3_0_0_13 : S64x32768x16.Slices ![0, 0, 13] S64x32768x3
  slices_S64x32768x3_S64x32768x1_0_0_0 : S64x32768x3.Slices ![0, 0, 0] S64x32768x1
  bcast_S64x32768x1_S64x32768x13_0_1_2 : S64x32768x1.BroadcastsInDim S64x32768x13 (![0, 1, 2] : Fin 3 → Fin S64x32768x13.rank)
  concatenates_S64x32768x13_S64x32768x3_S64x32768x16_d2 : Shape.Concatenates [S64x32768x13, S64x32768x3] S64x32768x16 2
  slices_S64x32768x16_S64x32768x12_0_0_0 : S64x32768x16.Slices ![0, 0, 0] S64x32768x12
  slices_S64x32768x16_S64x32768x4_0_0_12 : S64x32768x16.Slices ![0, 0, 12] S64x32768x4
  slices_S64x32768x4_S64x32768x1_0_0_0 : S64x32768x4.Slices ![0, 0, 0] S64x32768x1
  bcast_S64x32768x1_S64x32768x12_0_1_2 : S64x32768x1.BroadcastsInDim S64x32768x12 (![0, 1, 2] : Fin 3 → Fin S64x32768x12.rank)
  concatenates_S64x32768x12_S64x32768x4_S64x32768x16_d2 : Shape.Concatenates [S64x32768x12, S64x32768x4] S64x32768x16 2
  slices_S64x32768x16_S64x32768x11_0_0_0 : S64x32768x16.Slices ![0, 0, 0] S64x32768x11
  slices_S64x32768x16_S64x32768x5_0_0_11 : S64x32768x16.Slices ![0, 0, 11] S64x32768x5
  slices_S64x32768x5_S64x32768x1_0_0_0 : S64x32768x5.Slices ![0, 0, 0] S64x32768x1
  bcast_S64x32768x1_S64x32768x11_0_1_2 : S64x32768x1.BroadcastsInDim S64x32768x11 (![0, 1, 2] : Fin 3 → Fin S64x32768x11.rank)
  concatenates_S64x32768x11_S64x32768x5_S64x32768x16_d2 : Shape.Concatenates [S64x32768x11, S64x32768x5] S64x32768x16 2
  slices_S64x32768x16_S64x32768x10_0_0_0 : S64x32768x16.Slices ![0, 0, 0] S64x32768x10
  slices_S64x32768x16_S64x32768x6_0_0_10 : S64x32768x16.Slices ![0, 0, 10] S64x32768x6
  slices_S64x32768x6_S64x32768x1_0_0_0 : S64x32768x6.Slices ![0, 0, 0] S64x32768x1
  bcast_S64x32768x1_S64x32768x10_0_1_2 : S64x32768x1.BroadcastsInDim S64x32768x10 (![0, 1, 2] : Fin 3 → Fin S64x32768x10.rank)
  concatenates_S64x32768x10_S64x32768x6_S64x32768x16_d2 : Shape.Concatenates [S64x32768x10, S64x32768x6] S64x32768x16 2
  slices_S64x32768x16_S64x32768x9_0_0_0 : S64x32768x16.Slices ![0, 0, 0] S64x32768x9
  slices_S64x32768x16_S64x32768x7_0_0_9 : S64x32768x16.Slices ![0, 0, 9] S64x32768x7
  slices_S64x32768x7_S64x32768x1_0_0_0 : S64x32768x7.Slices ![0, 0, 0] S64x32768x1
  bcast_S64x32768x1_S64x32768x9_0_1_2 : S64x32768x1.BroadcastsInDim S64x32768x9 (![0, 1, 2] : Fin 3 → Fin S64x32768x9.rank)
  concatenates_S64x32768x9_S64x32768x7_S64x32768x16_d2 : Shape.Concatenates [S64x32768x9, S64x32768x7] S64x32768x16 2
  slices_S64x32768x16_S64x32768x8_0_0_0 : S64x32768x16.Slices ![0, 0, 0] S64x32768x8
  slices_S64x32768x16_S64x32768x8_0_0_8 : S64x32768x16.Slices ![0, 0, 8] S64x32768x8
  slices_S64x32768x8_S64x32768x1_0_0_0 : S64x32768x8.Slices ![0, 0, 0] S64x32768x1
  bcast_S64x32768x1_S64x32768x8_0_1_2 : S64x32768x1.BroadcastsInDim S64x32768x8 (![0, 1, 2] : Fin 3 → Fin S64x32768x8.rank)
  concatenates_S64x32768x8_S64x32768x8_S64x32768x16_d2 : Shape.Concatenates [S64x32768x8, S64x32768x8] S64x32768x16 2
  slices_S64x32768x16_S64x32768x7_0_0_0 : S64x32768x16.Slices ![0, 0, 0] S64x32768x7
  slices_S64x32768x16_S64x32768x9_0_0_7 : S64x32768x16.Slices ![0, 0, 7] S64x32768x9
  slices_S64x32768x9_S64x32768x1_0_0_0 : S64x32768x9.Slices ![0, 0, 0] S64x32768x1
  bcast_S64x32768x1_S64x32768x7_0_1_2 : S64x32768x1.BroadcastsInDim S64x32768x7 (![0, 1, 2] : Fin 3 → Fin S64x32768x7.rank)
  concatenates_S64x32768x7_S64x32768x9_S64x32768x16_d2 : Shape.Concatenates [S64x32768x7, S64x32768x9] S64x32768x16 2
  slices_S64x32768x16_S64x32768x6_0_0_0 : S64x32768x16.Slices ![0, 0, 0] S64x32768x6
  slices_S64x32768x16_S64x32768x10_0_0_6 : S64x32768x16.Slices ![0, 0, 6] S64x32768x10
  slices_S64x32768x10_S64x32768x1_0_0_0 : S64x32768x10.Slices ![0, 0, 0] S64x32768x1
  bcast_S64x32768x1_S64x32768x6_0_1_2 : S64x32768x1.BroadcastsInDim S64x32768x6 (![0, 1, 2] : Fin 3 → Fin S64x32768x6.rank)
  concatenates_S64x32768x6_S64x32768x10_S64x32768x16_d2 : Shape.Concatenates [S64x32768x6, S64x32768x10] S64x32768x16 2
  slices_S64x32768x16_S64x32768x5_0_0_0 : S64x32768x16.Slices ![0, 0, 0] S64x32768x5
  slices_S64x32768x16_S64x32768x11_0_0_5 : S64x32768x16.Slices ![0, 0, 5] S64x32768x11
  slices_S64x32768x11_S64x32768x1_0_0_0 : S64x32768x11.Slices ![0, 0, 0] S64x32768x1
  bcast_S64x32768x1_S64x32768x5_0_1_2 : S64x32768x1.BroadcastsInDim S64x32768x5 (![0, 1, 2] : Fin 3 → Fin S64x32768x5.rank)
  concatenates_S64x32768x5_S64x32768x11_S64x32768x16_d2 : Shape.Concatenates [S64x32768x5, S64x32768x11] S64x32768x16 2
  slices_S64x32768x16_S64x32768x4_0_0_0 : S64x32768x16.Slices ![0, 0, 0] S64x32768x4
  slices_S64x32768x16_S64x32768x12_0_0_4 : S64x32768x16.Slices ![0, 0, 4] S64x32768x12
  slices_S64x32768x12_S64x32768x1_0_0_0 : S64x32768x12.Slices ![0, 0, 0] S64x32768x1
  bcast_S64x32768x1_S64x32768x4_0_1_2 : S64x32768x1.BroadcastsInDim S64x32768x4 (![0, 1, 2] : Fin 3 → Fin S64x32768x4.rank)
  concatenates_S64x32768x4_S64x32768x12_S64x32768x16_d2 : Shape.Concatenates [S64x32768x4, S64x32768x12] S64x32768x16 2
  slices_S64x32768x16_S64x32768x3_0_0_0 : S64x32768x16.Slices ![0, 0, 0] S64x32768x3
  slices_S64x32768x16_S64x32768x13_0_0_3 : S64x32768x16.Slices ![0, 0, 3] S64x32768x13
  slices_S64x32768x13_S64x32768x1_0_0_0 : S64x32768x13.Slices ![0, 0, 0] S64x32768x1
  bcast_S64x32768x1_S64x32768x3_0_1_2 : S64x32768x1.BroadcastsInDim S64x32768x3 (![0, 1, 2] : Fin 3 → Fin S64x32768x3.rank)
  concatenates_S64x32768x3_S64x32768x13_S64x32768x16_d2 : Shape.Concatenates [S64x32768x3, S64x32768x13] S64x32768x16 2
  slices_S64x32768x16_S64x32768x2_0_0_0 : S64x32768x16.Slices ![0, 0, 0] S64x32768x2
  slices_S64x32768x16_S64x32768x14_0_0_2 : S64x32768x16.Slices ![0, 0, 2] S64x32768x14
  slices_S64x32768x14_S64x32768x1_0_0_0 : S64x32768x14.Slices ![0, 0, 0] S64x32768x1
  bcast_S64x32768x1_S64x32768x2_0_1_2 : S64x32768x1.BroadcastsInDim S64x32768x2 (![0, 1, 2] : Fin 3 → Fin S64x32768x2.rank)
  concatenates_S64x32768x2_S64x32768x14_S64x32768x16_d2 : Shape.Concatenates [S64x32768x2, S64x32768x14] S64x32768x16 2
  slices_S64x32768x16_S64x32768x1_0_0_0 : S64x32768x16.Slices ![0, 0, 0] S64x32768x1
  slices_S64x32768x16_S64x32768x15_0_0_1 : S64x32768x16.Slices ![0, 0, 1] S64x32768x15
  slices_S64x32768x15_S64x32768x1_0_0_0 : S64x32768x15.Slices ![0, 0, 0] S64x32768x1
  concatenates_S64x32768x1_S64x32768x15_S64x32768x16_d2 : Shape.Concatenates [S64x32768x1, S64x32768x15] S64x32768x16 2
  reducesTo_S64x32768x1_S_d0_1_2 : S64x32768x1.ReducesTo [0, 1, 2] S_

variable [Facts]

def fn_part15 {F : FTy → Type} [FloatOps F] (main_v296 : IVec S_ 1) (main_v298 : IVec S64x32768x1 1) : IVec S_ 1 :=
  let main_c_59 : IVec S_ 1 := constantI S_ 1 1#1
  let main_v299 : IVec S_ 1 := (fun x v => Host.reduce IntOp.andi x v reducesTo_S64x32768x1_S_d0_1_2 h_S_) main_v298 main_c_59
  let main_v300 : IVec S_ 1 := andi main_v296 main_v299
  main_v300

def fn_part14 {F : FTy → Type} [FloatOps F] (main_v184 : FVec F S64x32768x1 .f32) (main_v200 : FVec F S64x32768x1 .f32) (main_v216 : FVec F S64x32768x1 .f32) (main_v232 : FVec F S64x32768x1 .f32) (main_v280 : IVec S_ 1) (main_v282 : IVec S64x32768x1 1) : IVec S_ 1 :=
  let main_c_51 : IVec S_ 1 := constantI S_ 1 1#1
  let main_v283 : IVec S_ 1 := (fun x v => Host.reduce IntOp.andi x v reducesTo_S64x32768x1_S_d0_1_2 h_S_) main_v282 main_c_51
  let main_v284 : IVec S_ 1 := andi main_v280 main_v283
  let main_cst_52 : FVec F S_ .f32 := constant S_ .f32 0x00000000#32
  let main_v285 : FVec F S64x32768x1 .f32 := broadcastInDim S64x32768x1 ![] bcast_S_S64x32768x1 main_cst_52
  let main_v286 : IVec S64x32768x1 1 := cmpf .une main_v184 main_v285
  let main_c_53 : IVec S_ 1 := constantI S_ 1 1#1
  let main_v287 : IVec S_ 1 := (fun x v => Host.reduce IntOp.andi x v reducesTo_S64x32768x1_S_d0_1_2 h_S_) main_v286 main_c_53
  let main_v288 : IVec S_ 1 := andi main_v284 main_v287
  let main_cst_54 : FVec F S_ .f32 := constant S_ .f32 0x00000000#32
  let main_v289 : FVec F S64x32768x1 .f32 := broadcastInDim S64x32768x1 ![] bcast_S_S64x32768x1 main_cst_54
  let main_v290 : IVec S64x32768x1 1 := cmpf .une main_v200 main_v289
  let main_c_55 : IVec S_ 1 := constantI S_ 1 1#1
  let main_v291 : IVec S_ 1 := (fun x v => Host.reduce IntOp.andi x v reducesTo_S64x32768x1_S_d0_1_2 h_S_) main_v290 main_c_55
  let main_v292 : IVec S_ 1 := andi main_v288 main_v291
  let main_cst_56 : FVec F S_ .f32 := constant S_ .f32 0x00000000#32
  let main_v293 : FVec F S64x32768x1 .f32 := broadcastInDim S64x32768x1 ![] bcast_S_S64x32768x1 main_cst_56
  let main_v294 : IVec S64x32768x1 1 := cmpf .une main_v216 main_v293
  let main_c_57 : IVec S_ 1 := constantI S_ 1 1#1
  let main_v295 : IVec S_ 1 := (fun x v => Host.reduce IntOp.andi x v reducesTo_S64x32768x1_S_d0_1_2 h_S_) main_v294 main_c_57
  let main_v296 : IVec S_ 1 := andi main_v292 main_v295
  let main_cst_58 : FVec F S_ .f32 := constant S_ .f32 0x00000000#32
  let main_v297 : FVec F S64x32768x1 .f32 := broadcastInDim S64x32768x1 ![] bcast_S_S64x32768x1 main_cst_58
  let main_v298 : IVec S64x32768x1 1 := cmpf .une main_v232 main_v297
  fn_part15 (F := F) main_v296 main_v298

def fn_part13 {F : FTy → Type} [FloatOps F] (main_v120 : FVec F S64x32768x1 .f32) (main_v136 : FVec F S64x32768x1 .f32) (main_v152 : FVec F S64x32768x1 .f32) (main_v168 : FVec F S64x32768x1 .f32) (main_v184 : FVec F S64x32768x1 .f32) (main_v200 : FVec F S64x32768x1 .f32) (main_v216 : FVec F S64x32768x1 .f32) (main_v232 : FVec F S64x32768x1 .f32) (main_v264 : IVec S_ 1) (main_v266 : IVec S64x32768x1 1) : IVec S_ 1 :=
  let main_c_43 : IVec S_ 1 := constantI S_ 1 1#1
  let main_v267 : IVec S_ 1 := (fun x v => Host.reduce IntOp.andi x v reducesTo_S64x32768x1_S_d0_1_2 h_S_) main_v266 main_c_43
  let main_v268 : IVec S_ 1 := andi main_v264 main_v267
  let main_cst_44 : FVec F S_ .f32 := constant S_ .f32 0x00000000#32
  let main_v269 : FVec F S64x32768x1 .f32 := broadcastInDim S64x32768x1 ![] bcast_S_S64x32768x1 main_cst_44
  let main_v270 : IVec S64x32768x1 1 := cmpf .une main_v120 main_v269
  let main_c_45 : IVec S_ 1 := constantI S_ 1 1#1
  let main_v271 : IVec S_ 1 := (fun x v => Host.reduce IntOp.andi x v reducesTo_S64x32768x1_S_d0_1_2 h_S_) main_v270 main_c_45
  let main_v272 : IVec S_ 1 := andi main_v268 main_v271
  let main_cst_46 : FVec F S_ .f32 := constant S_ .f32 0x00000000#32
  let main_v273 : FVec F S64x32768x1 .f32 := broadcastInDim S64x32768x1 ![] bcast_S_S64x32768x1 main_cst_46
  let main_v274 : IVec S64x32768x1 1 := cmpf .une main_v136 main_v273
  let main_c_47 : IVec S_ 1 := constantI S_ 1 1#1
  let main_v275 : IVec S_ 1 := (fun x v => Host.reduce IntOp.andi x v reducesTo_S64x32768x1_S_d0_1_2 h_S_) main_v274 main_c_47
  let main_v276 : IVec S_ 1 := andi main_v272 main_v275
  let main_cst_48 : FVec F S_ .f32 := constant S_ .f32 0x00000000#32
  let main_v277 : FVec F S64x32768x1 .f32 := broadcastInDim S64x32768x1 ![] bcast_S_S64x32768x1 main_cst_48
  let main_v278 : IVec S64x32768x1 1 := cmpf .une main_v152 main_v277
  let main_c_49 : IVec S_ 1 := constantI S_ 1 1#1
  let main_v279 : IVec S_ 1 := (fun x v => Host.reduce IntOp.andi x v reducesTo_S64x32768x1_S_d0_1_2 h_S_) main_v278 main_c_49
  let main_v280 : IVec S_ 1 := andi main_v276 main_v279
  let main_cst_50 : FVec F S_ .f32 := constant S_ .f32 0x00000000#32
  let main_v281 : FVec F S64x32768x1 .f32 := broadcastInDim S64x32768x1 ![] bcast_S_S64x32768x1 main_cst_50
  let main_v282 : IVec S64x32768x1 1 := cmpf .une main_v168 main_v281
  fn_part14 (F := F) main_v184 main_v200 main_v216 main_v232 main_v280 main_v282

def fn_part12 {F : FTy → Type} [FloatOps F] (main_v56 : FVec F S64x32768x1 .f32) (main_v72 : FVec F S64x32768x1 .f32) (main_v88 : FVec F S64x32768x1 .f32) (main_v104 : FVec F S64x32768x1 .f32) (main_v120 : FVec F S64x32768x1 .f32) (main_v136 : FVec F S64x32768x1 .f32) (main_v152 : FVec F S64x32768x1 .f32) (main_v168 : FVec F S64x32768x1 .f32) (main_v184 : FVec F S64x32768x1 .f32) (main_v200 : FVec F S64x32768x1 .f32) (main_v216 : FVec F S64x32768x1 .f32) (main_v232 : FVec F S64x32768x1 .f32) (main_v248 : IVec S_ 1) (main_v250 : IVec S64x32768x1 1) : IVec S_ 1 :=
  let main_c_35 : IVec S_ 1 := constantI S_ 1 1#1
  let main_v251 : IVec S_ 1 := (fun x v => Host.reduce IntOp.andi x v reducesTo_S64x32768x1_S_d0_1_2 h_S_) main_v250 main_c_35
  let main_v252 : IVec S_ 1 := andi main_v248 main_v251
  let main_cst_36 : FVec F S_ .f32 := constant S_ .f32 0x00000000#32
  let main_v253 : FVec F S64x32768x1 .f32 := broadcastInDim S64x32768x1 ![] bcast_S_S64x32768x1 main_cst_36
  let main_v254 : IVec S64x32768x1 1 := cmpf .une main_v56 main_v253
  let main_c_37 : IVec S_ 1 := constantI S_ 1 1#1
  let main_v255 : IVec S_ 1 := (fun x v => Host.reduce IntOp.andi x v reducesTo_S64x32768x1_S_d0_1_2 h_S_) main_v254 main_c_37
  let main_v256 : IVec S_ 1 := andi main_v252 main_v255
  let main_cst_38 : FVec F S_ .f32 := constant S_ .f32 0x00000000#32
  let main_v257 : FVec F S64x32768x1 .f32 := broadcastInDim S64x32768x1 ![] bcast_S_S64x32768x1 main_cst_38
  let main_v258 : IVec S64x32768x1 1 := cmpf .une main_v72 main_v257
  let main_c_39 : IVec S_ 1 := constantI S_ 1 1#1
  let main_v259 : IVec S_ 1 := (fun x v => Host.reduce IntOp.andi x v reducesTo_S64x32768x1_S_d0_1_2 h_S_) main_v258 main_c_39
  let main_v260 : IVec S_ 1 := andi main_v256 main_v259
  let main_cst_40 : FVec F S_ .f32 := constant S_ .f32 0x00000000#32
  let main_v261 : FVec F S64x32768x1 .f32 := broadcastInDim S64x32768x1 ![] bcast_S_S64x32768x1 main_cst_40
  let main_v262 : IVec S64x32768x1 1 := cmpf .une main_v88 main_v261
  let main_c_41 : IVec S_ 1 := constantI S_ 1 1#1
  let main_v263 : IVec S_ 1 := (fun x v => Host.reduce IntOp.andi x v reducesTo_S64x32768x1_S_d0_1_2 h_S_) main_v262 main_c_41
  let main_v264 : IVec S_ 1 := andi main_v260 main_v263
  let main_cst_42 : FVec F S_ .f32 := constant S_ .f32 0x00000000#32
  let main_v265 : FVec F S64x32768x1 .f32 := broadcastInDim S64x32768x1 ![] bcast_S_S64x32768x1 main_cst_42
  let main_v266 : IVec S64x32768x1 1 := cmpf .une main_v104 main_v265
  fn_part13 (F := F) main_v120 main_v136 main_v152 main_v168 main_v184 main_v200 main_v216 main_v232 main_v264 main_v266

def fn_part11 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v88 : FVec F S64x32768x1 .f32) (main_v104 : FVec F S64x32768x1 .f32) (main_v120 : FVec F S64x32768x1 .f32) (main_v136 : FVec F S64x32768x1 .f32) (main_v152 : FVec F S64x32768x1 .f32) (main_v168 : FVec F S64x32768x1 .f32) (main_v184 : FVec F S64x32768x1 .f32) (main_v200 : FVec F S64x32768x1 .f32) (main_v216 : FVec F S64x32768x1 .f32) (main_v227 : FVec F S64x32768x1 .f32) (main_v228 : FVec F S64x32768x15 .f32) (main_v229 : FVec F S64x32768x1 .f32) (main_v232 : FVec F S64x32768x1 .f32) : IVec S_ 1 :=
  let main_v233 : FVec F S64x32768x1 .f32 := Host.reverse [2] main_v227
  let main_v234 : FVec F S64x32768x1 .f32 := mulf main_v229 main_v233
  let main_v235 : FVec F S64x32768x1 .f32 := subf main_v227 main_v234
  let main_v236 : FVec F S64x32768x1 .f32 := mulf main_v229 main_v229
  let main_cst_29 : FVec F S_ .f32 := constant S_ .f32 0x3F800000#32
  let main_v237 : FVec F S64x32768x1 .f32 := broadcastInDim S64x32768x1 ![] bcast_S_S64x32768x1 main_cst_29
  let main_v238 : FVec F S64x32768x1 .f32 := subf main_v237 main_v236
  let main_v239 : FVec F S64x32768x1 .f32 := Host.divf main_v235 main_v238
  let main_v240 : FVec F S64x32768x16 .f32 := (fun a b => concatenate S64x32768x16 2 [⟨S64x32768x1, a⟩, ⟨S64x32768x15, b⟩] concatenates_S64x32768x1_S64x32768x15_S64x32768x16_d2) main_v239 main_v228
  let main_cst_30 : FVec F S_ .f32 := constant S_ .f32 0x00000000#32
  let main_v241 : FVec F S64x32768x1 .f32 := broadcastInDim S64x32768x1 ![] bcast_S_S64x32768x1 main_cst_30
  let main_v242 : IVec S64x32768x1 1 := cmpf .une main_v8 main_v241
  let main_c_31 : IVec S_ 1 := constantI S_ 1 1#1
  let main_v243 : IVec S_ 1 := (fun x v => Host.reduce IntOp.andi x v reducesTo_S64x32768x1_S_d0_1_2 h_S_) main_v242 main_c_31
  let main_v244 : IVec S_ 1 := andi main_v3 main_v243
  let main_cst_32 : FVec F S_ .f32 := constant S_ .f32 0x00000000#32
  let main_v245 : FVec F S64x32768x1 .f32 := broadcastInDim S64x32768x1 ![] bcast_S_S64x32768x1 main_cst_32
  let main_v246 : IVec S64x32768x1 1 := cmpf .une main_v24 main_v245
  let main_c_33 : IVec S_ 1 := constantI S_ 1 1#1
  let main_v247 : IVec S_ 1 := (fun x v => Host.reduce IntOp.andi x v reducesTo_S64x32768x1_S_d0_1_2 h_S_) main_v246 main_c_33
  let main_v248 : IVec S_ 1 := andi main_v244 main_v247
  let main_cst_34 : FVec F S_ .f32 := constant S_ .f32 0x00000000#32
  let main_v249 : FVec F S64x32768x1 .f32 := broadcastInDim S64x32768x1 ![] bcast_S_S64x32768x1 main_cst_34
  let main_v250 : IVec S64x32768x1 1 := cmpf .une main_v40 main_v249
  fn_part12 (F := F) main_v56 main_v72 main_v88 main_v104 main_v120 main_v136 main_v152 main_v168 main_v184 main_v200 main_v216 main_v232 main_v248 main_v250

def fn_part10 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v88 : FVec F S64x32768x1 .f32) (main_v104 : FVec F S64x32768x1 .f32) (main_v120 : FVec F S64x32768x1 .f32) (main_v136 : FVec F S64x32768x1 .f32) (main_v152 : FVec F S64x32768x1 .f32) (main_v168 : FVec F S64x32768x1 .f32) (main_v184 : FVec F S64x32768x1 .f32) (main_v200 : FVec F S64x32768x1 .f32) (main_v210 : FVec F S64x32768x16 .f32) (main_v211 : FVec F S64x32768x2 .f32) : IVec S_ 1 :=
  let main_v212 : FVec F S64x32768x14 .f32 := (extractStridedSlice S64x32768x14 ![0, 0, 2] · slices_S64x32768x16_S64x32768x14_0_0_2) main_v210
  let main_v213 : FVec F S64x32768x1 .f32 := (extractStridedSlice S64x32768x1 ![0, 0, 0] · slices_S64x32768x14_S64x32768x1_0_0_0) main_v212
  let main_v214 : FVec F S64x32768x1 .f32 := mulf main_v213 main_v213
  let main_cst_26 : FVec F S_ .f32 := constant S_ .f32 0x3F800000#32
  let main_v215 : FVec F S64x32768x1 .f32 := broadcastInDim S64x32768x1 ![] bcast_S_S64x32768x1 main_cst_26
  let main_v216 : FVec F S64x32768x1 .f32 := subf main_v215 main_v214
  let main_v217 : FVec F S64x32768x2 .f32 := Host.reverse [2] main_v211
  let main_v218 : FVec F S64x32768x2 .f32 := broadcastInDim S64x32768x2 ![0, 1, 2] bcast_S64x32768x1_S64x32768x2_0_1_2 main_v213
  let main_v219 : FVec F S64x32768x2 .f32 := mulf main_v218 main_v217
  let main_v220 : FVec F S64x32768x2 .f32 := subf main_v211 main_v219
  let main_v221 : FVec F S64x32768x1 .f32 := mulf main_v213 main_v213
  let main_cst_27 : FVec F S_ .f32 := constant S_ .f32 0x3F800000#32
  let main_v222 : FVec F S64x32768x1 .f32 := broadcastInDim S64x32768x1 ![] bcast_S_S64x32768x1 main_cst_27
  let main_v223 : FVec F S64x32768x1 .f32 := subf main_v222 main_v221
  let main_v224 : FVec F S64x32768x2 .f32 := broadcastInDim S64x32768x2 ![0, 1, 2] bcast_S64x32768x1_S64x32768x2_0_1_2 main_v223
  let main_v225 : FVec F S64x32768x2 .f32 := Host.divf main_v220 main_v224
  let main_v226 : FVec F S64x32768x16 .f32 := (fun a b => concatenate S64x32768x16 2 [⟨S64x32768x2, a⟩, ⟨S64x32768x14, b⟩] concatenates_S64x32768x2_S64x32768x14_S64x32768x16_d2) main_v225 main_v212
  let main_v227 : FVec F S64x32768x1 .f32 := (extractStridedSlice S64x32768x1 ![0, 0, 0] · slices_S64x32768x16_S64x32768x1_0_0_0) main_v226
  let main_v228 : FVec F S64x32768x15 .f32 := (extractStridedSlice S64x32768x15 ![0, 0, 1] · slices_S64x32768x16_S64x32768x15_0_0_1) main_v226
  let main_v229 : FVec F S64x32768x1 .f32 := (extractStridedSlice S64x32768x1 ![0, 0, 0] · slices_S64x32768x15_S64x32768x1_0_0_0) main_v228
  let main_v230 : FVec F S64x32768x1 .f32 := mulf main_v229 main_v229
  let main_cst_28 : FVec F S_ .f32 := constant S_ .f32 0x3F800000#32
  let main_v231 : FVec F S64x32768x1 .f32 := broadcastInDim S64x32768x1 ![] bcast_S_S64x32768x1 main_cst_28
  let main_v232 : FVec F S64x32768x1 .f32 := subf main_v231 main_v230
  fn_part11 (F := F) main_v3 main_v8 main_v24 main_v40 main_v56 main_v72 main_v88 main_v104 main_v120 main_v136 main_v152 main_v168 main_v184 main_v200 main_v216 main_v227 main_v228 main_v229 main_v232

def fn_part9 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v88 : FVec F S64x32768x1 .f32) (main_v104 : FVec F S64x32768x1 .f32) (main_v120 : FVec F S64x32768x1 .f32) (main_v136 : FVec F S64x32768x1 .f32) (main_v152 : FVec F S64x32768x1 .f32) (main_v168 : FVec F S64x32768x1 .f32) (main_v180 : FVec F S64x32768x12 .f32) (main_v184 : FVec F S64x32768x1 .f32) (main_v188 : FVec F S64x32768x4 .f32) (main_v189 : FVec F S64x32768x1 .f32) (main_cst_23 : FVec F S_ .f32) : IVec S_ 1 :=
  let main_v190 : FVec F S64x32768x1 .f32 := broadcastInDim S64x32768x1 ![] bcast_S_S64x32768x1 main_cst_23
  let main_v191 : FVec F S64x32768x1 .f32 := subf main_v190 main_v189
  let main_v192 : FVec F S64x32768x4 .f32 := broadcastInDim S64x32768x4 ![0, 1, 2] bcast_S64x32768x1_S64x32768x4_0_1_2 main_v191
  let main_v193 : FVec F S64x32768x4 .f32 := Host.divf main_v188 main_v192
  let main_v194 : FVec F S64x32768x16 .f32 := (fun a b => concatenate S64x32768x16 2 [⟨S64x32768x4, a⟩, ⟨S64x32768x12, b⟩] concatenates_S64x32768x4_S64x32768x12_S64x32768x16_d2) main_v193 main_v180
  let main_v195 : FVec F S64x32768x3 .f32 := (extractStridedSlice S64x32768x3 ![0, 0, 0] · slices_S64x32768x16_S64x32768x3_0_0_0) main_v194
  let main_v196 : FVec F S64x32768x13 .f32 := (extractStridedSlice S64x32768x13 ![0, 0, 3] · slices_S64x32768x16_S64x32768x13_0_0_3) main_v194
  let main_v197 : FVec F S64x32768x1 .f32 := (extractStridedSlice S64x32768x1 ![0, 0, 0] · slices_S64x32768x13_S64x32768x1_0_0_0) main_v196
  let main_v198 : FVec F S64x32768x1 .f32 := mulf main_v197 main_v197
  let main_cst_24 : FVec F S_ .f32 := constant S_ .f32 0x3F800000#32
  let main_v199 : FVec F S64x32768x1 .f32 := broadcastInDim S64x32768x1 ![] bcast_S_S64x32768x1 main_cst_24
  let main_v200 : FVec F S64x32768x1 .f32 := subf main_v199 main_v198
  let main_v201 : FVec F S64x32768x3 .f32 := Host.reverse [2] main_v195
  let main_v202 : FVec F S64x32768x3 .f32 := broadcastInDim S64x32768x3 ![0, 1, 2] bcast_S64x32768x1_S64x32768x3_0_1_2 main_v197
  let main_v203 : FVec F S64x32768x3 .f32 := mulf main_v202 main_v201
  let main_v204 : FVec F S64x32768x3 .f32 := subf main_v195 main_v203
  let main_v205 : FVec F S64x32768x1 .f32 := mulf main_v197 main_v197
  let main_cst_25 : FVec F S_ .f32 := constant S_ .f32 0x3F800000#32
  let main_v206 : FVec F S64x32768x1 .f32 := broadcastInDim S64x32768x1 ![] bcast_S_S64x32768x1 main_cst_25
  let main_v207 : FVec F S64x32768x1 .f32 := subf main_v206 main_v205
  let main_v208 : FVec F S64x32768x3 .f32 := broadcastInDim S64x32768x3 ![0, 1, 2] bcast_S64x32768x1_S64x32768x3_0_1_2 main_v207
  let main_v209 : FVec F S64x32768x3 .f32 := Host.divf main_v204 main_v208
  let main_v210 : FVec F S64x32768x16 .f32 := (fun a b => concatenate S64x32768x16 2 [⟨S64x32768x3, a⟩, ⟨S64x32768x13, b⟩] concatenates_S64x32768x3_S64x32768x13_S64x32768x16_d2) main_v209 main_v196
  let main_v211 : FVec F S64x32768x2 .f32 := (extractStridedSlice S64x32768x2 ![0, 0, 0] · slices_S64x32768x16_S64x32768x2_0_0_0) main_v210
  fn_part10 (F := F) main_v3 main_v8 main_v24 main_v40 main_v56 main_v72 main_v88 main_v104 main_v120 main_v136 main_v152 main_v168 main_v184 main_v200 main_v210 main_v211

def fn_part8 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v88 : FVec F S64x32768x1 .f32) (main_v104 : FVec F S64x32768x1 .f32) (main_v120 : FVec F S64x32768x1 .f32) (main_v136 : FVec F S64x32768x1 .f32) (main_v152 : FVec F S64x32768x1 .f32) (main_v163 : FVec F S64x32768x5 .f32) (main_v164 : FVec F S64x32768x11 .f32) (main_v165 : FVec F S64x32768x1 .f32) (main_v168 : FVec F S64x32768x1 .f32) : IVec S_ 1 :=
  let main_v169 : FVec F S64x32768x5 .f32 := Host.reverse [2] main_v163
  let main_v170 : FVec F S64x32768x5 .f32 := broadcastInDim S64x32768x5 ![0, 1, 2] bcast_S64x32768x1_S64x32768x5_0_1_2 main_v165
  let main_v171 : FVec F S64x32768x5 .f32 := mulf main_v170 main_v169
  let main_v172 : FVec F S64x32768x5 .f32 := subf main_v163 main_v171
  let main_v173 : FVec F S64x32768x1 .f32 := mulf main_v165 main_v165
  let main_cst_21 : FVec F S_ .f32 := constant S_ .f32 0x3F800000#32
  let main_v174 : FVec F S64x32768x1 .f32 := broadcastInDim S64x32768x1 ![] bcast_S_S64x32768x1 main_cst_21
  let main_v175 : FVec F S64x32768x1 .f32 := subf main_v174 main_v173
  let main_v176 : FVec F S64x32768x5 .f32 := broadcastInDim S64x32768x5 ![0, 1, 2] bcast_S64x32768x1_S64x32768x5_0_1_2 main_v175
  let main_v177 : FVec F S64x32768x5 .f32 := Host.divf main_v172 main_v176
  let main_v178 : FVec F S64x32768x16 .f32 := (fun a b => concatenate S64x32768x16 2 [⟨S64x32768x5, a⟩, ⟨S64x32768x11, b⟩] concatenates_S64x32768x5_S64x32768x11_S64x32768x16_d2) main_v177 main_v164
  let main_v179 : FVec F S64x32768x4 .f32 := (extractStridedSlice S64x32768x4 ![0, 0, 0] · slices_S64x32768x16_S64x32768x4_0_0_0) main_v178
  let main_v180 : FVec F S64x32768x12 .f32 := (extractStridedSlice S64x32768x12 ![0, 0, 4] · slices_S64x32768x16_S64x32768x12_0_0_4) main_v178
  let main_v181 : FVec F S64x32768x1 .f32 := (extractStridedSlice S64x32768x1 ![0, 0, 0] · slices_S64x32768x12_S64x32768x1_0_0_0) main_v180
  let main_v182 : FVec F S64x32768x1 .f32 := mulf main_v181 main_v181
  let main_cst_22 : FVec F S_ .f32 := constant S_ .f32 0x3F800000#32
  let main_v183 : FVec F S64x32768x1 .f32 := broadcastInDim S64x32768x1 ![] bcast_S_S64x32768x1 main_cst_22
  let main_v184 : FVec F S64x32768x1 .f32 := subf main_v183 main_v182
  let main_v185 : FVec F S64x32768x4 .f32 := Host.reverse [2] main_v179
  let main_v186 : FVec F S64x32768x4 .f32 := broadcastInDim S64x32768x4 ![0, 1, 2] bcast_S64x32768x1_S64x32768x4_0_1_2 main_v181
  let main_v187 : FVec F S64x32768x4 .f32 := mulf main_v186 main_v185
  let main_v188 : FVec F S64x32768x4 .f32 := subf main_v179 main_v187
  let main_v189 : FVec F S64x32768x1 .f32 := mulf main_v181 main_v181
  let main_cst_23 : FVec F S_ .f32 := constant S_ .f32 0x3F800000#32
  fn_part9 (F := F) main_v3 main_v8 main_v24 main_v40 main_v56 main_v72 main_v88 main_v104 main_v120 main_v136 main_v152 main_v168 main_v180 main_v184 main_v188 main_v189 main_cst_23

def fn_part7 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v88 : FVec F S64x32768x1 .f32) (main_v104 : FVec F S64x32768x1 .f32) (main_v120 : FVec F S64x32768x1 .f32) (main_v136 : FVec F S64x32768x1 .f32) (main_v146 : FVec F S64x32768x16 .f32) (main_v147 : FVec F S64x32768x6 .f32) : IVec S_ 1 :=
  let main_v148 : FVec F S64x32768x10 .f32 := (extractStridedSlice S64x32768x10 ![0, 0, 6] · slices_S64x32768x16_S64x32768x10_0_0_6) main_v146
  let main_v149 : FVec F S64x32768x1 .f32 := (extractStridedSlice S64x32768x1 ![0, 0, 0] · slices_S64x32768x10_S64x32768x1_0_0_0) main_v148
  let main_v150 : FVec F S64x32768x1 .f32 := mulf main_v149 main_v149
  let main_cst_18 : FVec F S_ .f32 := constant S_ .f32 0x3F800000#32
  let main_v151 : FVec F S64x32768x1 .f32 := broadcastInDim S64x32768x1 ![] bcast_S_S64x32768x1 main_cst_18
  let main_v152 : FVec F S64x32768x1 .f32 := subf main_v151 main_v150
  let main_v153 : FVec F S64x32768x6 .f32 := Host.reverse [2] main_v147
  let main_v154 : FVec F S64x32768x6 .f32 := broadcastInDim S64x32768x6 ![0, 1, 2] bcast_S64x32768x1_S64x32768x6_0_1_2 main_v149
  let main_v155 : FVec F S64x32768x6 .f32 := mulf main_v154 main_v153
  let main_v156 : FVec F S64x32768x6 .f32 := subf main_v147 main_v155
  let main_v157 : FVec F S64x32768x1 .f32 := mulf main_v149 main_v149
  let main_cst_19 : FVec F S_ .f32 := constant S_ .f32 0x3F800000#32
  let main_v158 : FVec F S64x32768x1 .f32 := broadcastInDim S64x32768x1 ![] bcast_S_S64x32768x1 main_cst_19
  let main_v159 : FVec F S64x32768x1 .f32 := subf main_v158 main_v157
  let main_v160 : FVec F S64x32768x6 .f32 := broadcastInDim S64x32768x6 ![0, 1, 2] bcast_S64x32768x1_S64x32768x6_0_1_2 main_v159
  let main_v161 : FVec F S64x32768x6 .f32 := Host.divf main_v156 main_v160
  let main_v162 : FVec F S64x32768x16 .f32 := (fun a b => concatenate S64x32768x16 2 [⟨S64x32768x6, a⟩, ⟨S64x32768x10, b⟩] concatenates_S64x32768x6_S64x32768x10_S64x32768x16_d2) main_v161 main_v148
  let main_v163 : FVec F S64x32768x5 .f32 := (extractStridedSlice S64x32768x5 ![0, 0, 0] · slices_S64x32768x16_S64x32768x5_0_0_0) main_v162
  let main_v164 : FVec F S64x32768x11 .f32 := (extractStridedSlice S64x32768x11 ![0, 0, 5] · slices_S64x32768x16_S64x32768x11_0_0_5) main_v162
  let main_v165 : FVec F S64x32768x1 .f32 := (extractStridedSlice S64x32768x1 ![0, 0, 0] · slices_S64x32768x11_S64x32768x1_0_0_0) main_v164
  let main_v166 : FVec F S64x32768x1 .f32 := mulf main_v165 main_v165
  let main_cst_20 : FVec F S_ .f32 := constant S_ .f32 0x3F800000#32
  let main_v167 : FVec F S64x32768x1 .f32 := broadcastInDim S64x32768x1 ![] bcast_S_S64x32768x1 main_cst_20
  let main_v168 : FVec F S64x32768x1 .f32 := subf main_v167 main_v166
  fn_part8 (F := F) main_v3 main_v8 main_v24 main_v40 main_v56 main_v72 main_v88 main_v104 main_v120 main_v136 main_v152 main_v163 main_v164 main_v165 main_v168

def fn_part6 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v88 : FVec F S64x32768x1 .f32) (main_v104 : FVec F S64x32768x1 .f32) (main_v116 : FVec F S64x32768x8 .f32) (main_v120 : FVec F S64x32768x1 .f32) (main_v124 : FVec F S64x32768x8 .f32) (main_v125 : FVec F S64x32768x1 .f32) (main_cst_15 : FVec F S_ .f32) : IVec S_ 1 :=
  let main_v126 : FVec F S64x32768x1 .f32 := broadcastInDim S64x32768x1 ![] bcast_S_S64x32768x1 main_cst_15
  let main_v127 : FVec F S64x32768x1 .f32 := subf main_v126 main_v125
  let main_v128 : FVec F S64x32768x8 .f32 := broadcastInDim S64x32768x8 ![0, 1, 2] bcast_S64x32768x1_S64x32768x8_0_1_2 main_v127
  let main_v129 : FVec F S64x32768x8 .f32 := Host.divf main_v124 main_v128
  let main_v130 : FVec F S64x32768x16 .f32 := (fun a b => concatenate S64x32768x16 2 [⟨S64x32768x8, a⟩, ⟨S64x32768x8, b⟩] concatenates_S64x32768x8_S64x32768x8_S64x32768x16_d2) main_v129 main_v116
  let main_v131 : FVec F S64x32768x7 .f32 := (extractStridedSlice S64x32768x7 ![0, 0, 0] · slices_S64x32768x16_S64x32768x7_0_0_0) main_v130
  let main_v132 : FVec F S64x32768x9 .f32 := (extractStridedSlice S64x32768x9 ![0, 0, 7] · slices_S64x32768x16_S64x32768x9_0_0_7) main_v130
  let main_v133 : FVec F S64x32768x1 .f32 := (extractStridedSlice S64x32768x1 ![0, 0, 0] · slices_S64x32768x9_S64x32768x1_0_0_0) main_v132
  let main_v134 : FVec F S64x32768x1 .f32 := mulf main_v133 main_v133
  let main_cst_16 : FVec F S_ .f32 := constant S_ .f32 0x3F800000#32
  let main_v135 : FVec F S64x32768x1 .f32 := broadcastInDim S64x32768x1 ![] bcast_S_S64x32768x1 main_cst_16
  let main_v136 : FVec F S64x32768x1 .f32 := subf main_v135 main_v134
  let main_v137 : FVec F S64x32768x7 .f32 := Host.reverse [2] main_v131
  let main_v138 : FVec F S64x32768x7 .f32 := broadcastInDim S64x32768x7 ![0, 1, 2] bcast_S64x32768x1_S64x32768x7_0_1_2 main_v133
  let main_v139 : FVec F S64x32768x7 .f32 := mulf main_v138 main_v137
  let main_v140 : FVec F S64x32768x7 .f32 := subf main_v131 main_v139
  let main_v141 : FVec F S64x32768x1 .f32 := mulf main_v133 main_v133
  let main_cst_17 : FVec F S_ .f32 := constant S_ .f32 0x3F800000#32
  let main_v142 : FVec F S64x32768x1 .f32 := broadcastInDim S64x32768x1 ![] bcast_S_S64x32768x1 main_cst_17
  let main_v143 : FVec F S64x32768x1 .f32 := subf main_v142 main_v141
  let main_v144 : FVec F S64x32768x7 .f32 := broadcastInDim S64x32768x7 ![0, 1, 2] bcast_S64x32768x1_S64x32768x7_0_1_2 main_v143
  let main_v145 : FVec F S64x32768x7 .f32 := Host.divf main_v140 main_v144
  let main_v146 : FVec F S64x32768x16 .f32 := (fun a b => concatenate S64x32768x16 2 [⟨S64x32768x7, a⟩, ⟨S64x32768x9, b⟩] concatenates_S64x32768x7_S64x32768x9_S64x32768x16_d2) main_v145 main_v132
  let main_v147 : FVec F S64x32768x6 .f32 := (extractStridedSlice S64x32768x6 ![0, 0, 0] · slices_S64x32768x16_S64x32768x6_0_0_0) main_v146
  fn_part7 (F := F) main_v3 main_v8 main_v24 main_v40 main_v56 main_v72 main_v88 main_v104 main_v120 main_v136 main_v146 main_v147

def fn_part5 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v88 : FVec F S64x32768x1 .f32) (main_v99 : FVec F S64x32768x9 .f32) (main_v100 : FVec F S64x32768x7 .f32) (main_v101 : FVec F S64x32768x1 .f32) (main_v104 : FVec F S64x32768x1 .f32) : IVec S_ 1 :=
  let main_v105 : FVec F S64x32768x9 .f32 := Host.reverse [2] main_v99
  let main_v106 : FVec F S64x32768x9 .f32 := broadcastInDim S64x32768x9 ![0, 1, 2] bcast_S64x32768x1_S64x32768x9_0_1_2 main_v101
  let main_v107 : FVec F S64x32768x9 .f32 := mulf main_v106 main_v105
  let main_v108 : FVec F S64x32768x9 .f32 := subf main_v99 main_v107
  let main_v109 : FVec F S64x32768x1 .f32 := mulf main_v101 main_v101
  let main_cst_13 : FVec F S_ .f32 := constant S_ .f32 0x3F800000#32
  let main_v110 : FVec F S64x32768x1 .f32 := broadcastInDim S64x32768x1 ![] bcast_S_S64x32768x1 main_cst_13
  let main_v111 : FVec F S64x32768x1 .f32 := subf main_v110 main_v109
  let main_v112 : FVec F S64x32768x9 .f32 := broadcastInDim S64x32768x9 ![0, 1, 2] bcast_S64x32768x1_S64x32768x9_0_1_2 main_v111
  let main_v113 : FVec F S64x32768x9 .f32 := Host.divf main_v108 main_v112
  let main_v114 : FVec F S64x32768x16 .f32 := (fun a b => concatenate S64x32768x16 2 [⟨S64x32768x9, a⟩, ⟨S64x32768x7, b⟩] concatenates_S64x32768x9_S64x32768x7_S64x32768x16_d2) main_v113 main_v100
  let main_v115 : FVec F S64x32768x8 .f32 := (extractStridedSlice S64x32768x8 ![0, 0, 0] · slices_S64x32768x16_S64x32768x8_0_0_0) main_v114
  let main_v116 : FVec F S64x32768x8 .f32 := (extractStridedSlice S64x32768x8 ![0, 0, 8] · slices_S64x32768x16_S64x32768x8_0_0_8) main_v114
  let main_v117 : FVec F S64x32768x1 .f32 := (extractStridedSlice S64x32768x1 ![0, 0, 0] · slices_S64x32768x8_S64x32768x1_0_0_0) main_v116
  let main_v118 : FVec F S64x32768x1 .f32 := mulf main_v117 main_v117
  let main_cst_14 : FVec F S_ .f32 := constant S_ .f32 0x3F800000#32
  let main_v119 : FVec F S64x32768x1 .f32 := broadcastInDim S64x32768x1 ![] bcast_S_S64x32768x1 main_cst_14
  let main_v120 : FVec F S64x32768x1 .f32 := subf main_v119 main_v118
  let main_v121 : FVec F S64x32768x8 .f32 := Host.reverse [2] main_v115
  let main_v122 : FVec F S64x32768x8 .f32 := broadcastInDim S64x32768x8 ![0, 1, 2] bcast_S64x32768x1_S64x32768x8_0_1_2 main_v117
  let main_v123 : FVec F S64x32768x8 .f32 := mulf main_v122 main_v121
  let main_v124 : FVec F S64x32768x8 .f32 := subf main_v115 main_v123
  let main_v125 : FVec F S64x32768x1 .f32 := mulf main_v117 main_v117
  let main_cst_15 : FVec F S_ .f32 := constant S_ .f32 0x3F800000#32
  fn_part6 (F := F) main_v3 main_v8 main_v24 main_v40 main_v56 main_v72 main_v88 main_v104 main_v116 main_v120 main_v124 main_v125 main_cst_15

def fn_part4 {F : FTy → Type} [FloatOps F] (main_v3 : IVec S_ 1) (main_v8 : FVec F S64x32768x1 .f32) (main_v24 : FVec F S64x32768x1 .f32) (main_v40 : FVec F S64x32768x1 .f32) (main_v56 : FVec F S64x32768x1 .f32) (main_v72 : FVec F S64x32768x1 .f32) (main_v82 : FVec F S64x32768x16 .f32) (main_v83 : FVec F S64x32768x10 .f32) : IVec S_ 1 :=
  let main_v84 : FVec F S64x32768x6 .f32 := (extractStridedSlice S64x32768x6 ![0, 0, 10] · slices_S64x32768x16_S64x32768x6_0_0_10) main_v82
  let main_v85 : FVec F S64x32768x1 .f32 := (extractStridedSlice S64x32768x1 ![0, 0, 0] · slices_S64x32768x6_S64x32768x1_0_0_0) main_v84
  let main_v86 : FVec F S64x32768x1 .f32 := mulf main_v85 main_v85
  let main_cst_10 : FVec F S_ .f32 := constant S_ .f32 0x3F800000#32
  let main_v87 : FVec F S64x32768x1 .f32 := broadcastInDim S64x32768x1 ![] bcast_S_S64x32768x1 main_cst_10
  let main_v88 : FVec F S64x32768x1 .f32 := subf main_v87 main_v86
  let main_v89 : FVec F S64x32768x10 .f32 := Host.reverse [2] main_v83
  let main_v90 : FVec F S64x32768x10 .f32 := broadcastInDim S64x32768x10 ![0, 1, 2] bcast_S64x32768x1_S64x32768x10_0_1_2 main_v85
  let main_v91 : FVec F S64x32768x10 .f32 := mulf main_v90 main_v89
  let main_v92 : FVec F S64x32768x10 .f32 := subf main_v83 main_v91
  let main_v93 : FVec F S64x32768x1 .f32 := mulf main_v85 main_v85
  let main_cst_11 : FVec F S_ .f32 := constant S_ .f32 0x3F800000#32
  let main_v94 : FVec F S64x32768x1 .f32 := broadcastInDim S64x32768x1 ![] bcast_S_S64x32768x1 main_cst_11
  let main_v95 : FVec F S64x32768x1 .f32 := subf main_v94 main_v93
  let main_v96 : FVec F S64x32768x10 .f32 := broadcastInDim S64x32768x10 ![0, 1, 2] bcast_S64x32768x1_S64x32768x10_0_1_2 main_v95
  let main_v97 : FVec F S64x32768x10 .f32 := Host.divf main_v92 main_v96
  let main_v98 : FVec F S64x32768x16 .f32 := (fun a b => concatenate S64x32768x16 2 [⟨S64x32768x10, a⟩, ⟨S64x32768x6, b⟩] concatenates_S64x32768x10_S64x32768x6_S64x32768x16_d2) main_v97 main_v84
  let main_v99 : FVec F S64x32768x9 .f32 := (extractStridedSlice S64x32768x9 ![0, 0, 0] · slices_S64x32768x16_S64x32768x9_0_0_0) main_v98
  let main_v100 : FVec F S64x32768x7 .f32 := (extractStridedSlice S64x32768x7 ![0, 0, 9] · slices_S64x32768x16_S64x32768x7_0_0_9) main_v98
  let main_v101 : FVec F S64x32768x1 .f32 := (extractStridedSlice S64x32768x1 ![0, 0, 0] · slices_S64x32768x7_S64x32768x1_0_0_0) main_v100
  let main_v102 : FVec F S64x32768x1 .f32 := mulf main_v101 main_v101
  let main_cst_12 : FVec F S_ .f32 := constant S_ .f32 0x3F800000#32
  let main_v103 : FVec F S64x32768x1 .f32 := broadcastInDim S64x32768x1 ![] bcast_S_S64x32768x1 main_cst_12
  let main_v104 : FVec F S64x32768x1 .f32 := subf main_v103 main_v102
  fn_part5 (F := F) main_v3 main_v8 main_v24 main_v40 main_v56 main_v72 main_v88 main_v99 main_v100 main_v101 main_v104

def fn_part3 {F : FTy → Type} [FloatOps F] (main_v3 : IVec S_ 1) (main_v8 : FVec F S64x32768x1 .f32) (main_v24 : FVec F S64x32768x1 .f32) (main_v40 : FVec F S64x32768x1 .f32) (main_v52 : FVec F S64x32768x4 .f32) (main_v56 : FVec F S64x32768x1 .f32) (main_v60 : FVec F S64x32768x12 .f32) (main_v61 : FVec F S64x32768x1 .f32) (main_cst_7 : FVec F S_ .f32) : IVec S_ 1 :=
  let main_v62 : FVec F S64x32768x1 .f32 := broadcastInDim S64x32768x1 ![] bcast_S_S64x32768x1 main_cst_7
  let main_v63 : FVec F S64x32768x1 .f32 := subf main_v62 main_v61
  let main_v64 : FVec F S64x32768x12 .f32 := broadcastInDim S64x32768x12 ![0, 1, 2] bcast_S64x32768x1_S64x32768x12_0_1_2 main_v63
  let main_v65 : FVec F S64x32768x12 .f32 := Host.divf main_v60 main_v64
  let main_v66 : FVec F S64x32768x16 .f32 := (fun a b => concatenate S64x32768x16 2 [⟨S64x32768x12, a⟩, ⟨S64x32768x4, b⟩] concatenates_S64x32768x12_S64x32768x4_S64x32768x16_d2) main_v65 main_v52
  let main_v67 : FVec F S64x32768x11 .f32 := (extractStridedSlice S64x32768x11 ![0, 0, 0] · slices_S64x32768x16_S64x32768x11_0_0_0) main_v66
  let main_v68 : FVec F S64x32768x5 .f32 := (extractStridedSlice S64x32768x5 ![0, 0, 11] · slices_S64x32768x16_S64x32768x5_0_0_11) main_v66
  let main_v69 : FVec F S64x32768x1 .f32 := (extractStridedSlice S64x32768x1 ![0, 0, 0] · slices_S64x32768x5_S64x32768x1_0_0_0) main_v68
  let main_v70 : FVec F S64x32768x1 .f32 := mulf main_v69 main_v69
  let main_cst_8 : FVec F S_ .f32 := constant S_ .f32 0x3F800000#32
  let main_v71 : FVec F S64x32768x1 .f32 := broadcastInDim S64x32768x1 ![] bcast_S_S64x32768x1 main_cst_8
  let main_v72 : FVec F S64x32768x1 .f32 := subf main_v71 main_v70
  let main_v73 : FVec F S64x32768x11 .f32 := Host.reverse [2] main_v67
  let main_v74 : FVec F S64x32768x11 .f32 := broadcastInDim S64x32768x11 ![0, 1, 2] bcast_S64x32768x1_S64x32768x11_0_1_2 main_v69
  let main_v75 : FVec F S64x32768x11 .f32 := mulf main_v74 main_v73
  let main_v76 : FVec F S64x32768x11 .f32 := subf main_v67 main_v75
  let main_v77 : FVec F S64x32768x1 .f32 := mulf main_v69 main_v69
  let main_cst_9 : FVec F S_ .f32 := constant S_ .f32 0x3F800000#32
  let main_v78 : FVec F S64x32768x1 .f32 := broadcastInDim S64x32768x1 ![] bcast_S_S64x32768x1 main_cst_9
  let main_v79 : FVec F S64x32768x1 .f32 := subf main_v78 main_v77
  let main_v80 : FVec F S64x32768x11 .f32 := broadcastInDim S64x32768x11 ![0, 1, 2] bcast_S64x32768x1_S64x32768x11_0_1_2 main_v79
  let main_v81 : FVec F S64x32768x11 .f32 := Host.divf main_v76 main_v80
  let main_v82 : FVec F S64x32768x16 .f32 := (fun a b => concatenate S64x32768x16 2 [⟨S64x32768x11, a⟩, ⟨S64x32768x5, b⟩] concatenates_S64x32768x11_S64x32768x5_S64x32768x16_d2) main_v81 main_v68
  let main_v83 : FVec F S64x32768x10 .f32 := (extractStridedSlice S64x32768x10 ![0, 0, 0] · slices_S64x32768x16_S64x32768x10_0_0_0) main_v82
  fn_part4 (F := F) main_v3 main_v8 main_v24 main_v40 main_v56 main_v72 main_v82 main_v83

def fn_part2 {F : FTy → Type} [FloatOps F] (main_v3 : IVec S_ 1) (main_v8 : FVec F S64x32768x1 .f32) (main_v24 : FVec F S64x32768x1 .f32) (main_v35 : FVec F S64x32768x13 .f32) (main_v36 : FVec F S64x32768x3 .f32) (main_v37 : FVec F S64x32768x1 .f32) (main_v40 : FVec F S64x32768x1 .f32) : IVec S_ 1 :=
  let main_v41 : FVec F S64x32768x13 .f32 := Host.reverse [2] main_v35
  let main_v42 : FVec F S64x32768x13 .f32 := broadcastInDim S64x32768x13 ![0, 1, 2] bcast_S64x32768x1_S64x32768x13_0_1_2 main_v37
  let main_v43 : FVec F S64x32768x13 .f32 := mulf main_v42 main_v41
  let main_v44 : FVec F S64x32768x13 .f32 := subf main_v35 main_v43
  let main_v45 : FVec F S64x32768x1 .f32 := mulf main_v37 main_v37
  let main_cst_5 : FVec F S_ .f32 := constant S_ .f32 0x3F800000#32
  let main_v46 : FVec F S64x32768x1 .f32 := broadcastInDim S64x32768x1 ![] bcast_S_S64x32768x1 main_cst_5
  let main_v47 : FVec F S64x32768x1 .f32 := subf main_v46 main_v45
  let main_v48 : FVec F S64x32768x13 .f32 := broadcastInDim S64x32768x13 ![0, 1, 2] bcast_S64x32768x1_S64x32768x13_0_1_2 main_v47
  let main_v49 : FVec F S64x32768x13 .f32 := Host.divf main_v44 main_v48
  let main_v50 : FVec F S64x32768x16 .f32 := (fun a b => concatenate S64x32768x16 2 [⟨S64x32768x13, a⟩, ⟨S64x32768x3, b⟩] concatenates_S64x32768x13_S64x32768x3_S64x32768x16_d2) main_v49 main_v36
  let main_v51 : FVec F S64x32768x12 .f32 := (extractStridedSlice S64x32768x12 ![0, 0, 0] · slices_S64x32768x16_S64x32768x12_0_0_0) main_v50
  let main_v52 : FVec F S64x32768x4 .f32 := (extractStridedSlice S64x32768x4 ![0, 0, 12] · slices_S64x32768x16_S64x32768x4_0_0_12) main_v50
  let main_v53 : FVec F S64x32768x1 .f32 := (extractStridedSlice S64x32768x1 ![0, 0, 0] · slices_S64x32768x4_S64x32768x1_0_0_0) main_v52
  let main_v54 : FVec F S64x32768x1 .f32 := mulf main_v53 main_v53
  let main_cst_6 : FVec F S_ .f32 := constant S_ .f32 0x3F800000#32
  let main_v55 : FVec F S64x32768x1 .f32 := broadcastInDim S64x32768x1 ![] bcast_S_S64x32768x1 main_cst_6
  let main_v56 : FVec F S64x32768x1 .f32 := subf main_v55 main_v54
  let main_v57 : FVec F S64x32768x12 .f32 := Host.reverse [2] main_v51
  let main_v58 : FVec F S64x32768x12 .f32 := broadcastInDim S64x32768x12 ![0, 1, 2] bcast_S64x32768x1_S64x32768x12_0_1_2 main_v53
  let main_v59 : FVec F S64x32768x12 .f32 := mulf main_v58 main_v57
  let main_v60 : FVec F S64x32768x12 .f32 := subf main_v51 main_v59
  let main_v61 : FVec F S64x32768x1 .f32 := mulf main_v53 main_v53
  let main_cst_7 : FVec F S_ .f32 := constant S_ .f32 0x3F800000#32
  fn_part3 (F := F) main_v3 main_v8 main_v24 main_v40 main_v52 main_v56 main_v60 main_v61 main_cst_7

def fn_part1 {F : FTy → Type} [FloatOps F] (main_v3 : IVec S_ 1) (main_v8 : FVec F S64x32768x1 .f32) (main_v18 : FVec F S64x32768x16 .f32) (main_v19 : FVec F S64x32768x14 .f32) : IVec S_ 1 :=
  let main_v20 : FVec F S64x32768x2 .f32 := (extractStridedSlice S64x32768x2 ![0, 0, 14] · slices_S64x32768x16_S64x32768x2_0_0_14) main_v18
  let main_v21 : FVec F S64x32768x1 .f32 := (extractStridedSlice S64x32768x1 ![0, 0, 0] · slices_S64x32768x2_S64x32768x1_0_0_0) main_v20
  let main_v22 : FVec F S64x32768x1 .f32 := mulf main_v21 main_v21
  let main_cst_2 : FVec F S_ .f32 := constant S_ .f32 0x3F800000#32
  let main_v23 : FVec F S64x32768x1 .f32 := broadcastInDim S64x32768x1 ![] bcast_S_S64x32768x1 main_cst_2
  let main_v24 : FVec F S64x32768x1 .f32 := subf main_v23 main_v22
  let main_v25 : FVec F S64x32768x14 .f32 := Host.reverse [2] main_v19
  let main_v26 : FVec F S64x32768x14 .f32 := broadcastInDim S64x32768x14 ![0, 1, 2] bcast_S64x32768x1_S64x32768x14_0_1_2 main_v21
  let main_v27 : FVec F S64x32768x14 .f32 := mulf main_v26 main_v25
  let main_v28 : FVec F S64x32768x14 .f32 := subf main_v19 main_v27
  let main_v29 : FVec F S64x32768x1 .f32 := mulf main_v21 main_v21
  let main_cst_3 : FVec F S_ .f32 := constant S_ .f32 0x3F800000#32
  let main_v30 : FVec F S64x32768x1 .f32 := broadcastInDim S64x32768x1 ![] bcast_S_S64x32768x1 main_cst_3
  let main_v31 : FVec F S64x32768x1 .f32 := subf main_v30 main_v29
  let main_v32 : FVec F S64x32768x14 .f32 := broadcastInDim S64x32768x14 ![0, 1, 2] bcast_S64x32768x1_S64x32768x14_0_1_2 main_v31
  let main_v33 : FVec F S64x32768x14 .f32 := Host.divf main_v28 main_v32
  let main_v34 : FVec F S64x32768x16 .f32 := (fun a b => concatenate S64x32768x16 2 [⟨S64x32768x14, a⟩, ⟨S64x32768x2, b⟩] concatenates_S64x32768x14_S64x32768x2_S64x32768x16_d2) main_v33 main_v20
  let main_v35 : FVec F S64x32768x13 .f32 := (extractStridedSlice S64x32768x13 ![0, 0, 0] · slices_S64x32768x16_S64x32768x13_0_0_0) main_v34
  let main_v36 : FVec F S64x32768x3 .f32 := (extractStridedSlice S64x32768x3 ![0, 0, 13] · slices_S64x32768x16_S64x32768x3_0_0_13) main_v34
  let main_v37 : FVec F S64x32768x1 .f32 := (extractStridedSlice S64x32768x1 ![0, 0, 0] · slices_S64x32768x3_S64x32768x1_0_0_0) main_v36
  let main_v38 : FVec F S64x32768x1 .f32 := mulf main_v37 main_v37
  let main_cst_4 : FVec F S_ .f32 := constant S_ .f32 0x3F800000#32
  let main_v39 : FVec F S64x32768x1 .f32 := broadcastInDim S64x32768x1 ![] bcast_S_S64x32768x1 main_cst_4
  let main_v40 : FVec F S64x32768x1 .f32 := subf main_v39 main_v38
  fn_part2 (F := F) main_v3 main_v8 main_v24 main_v35 main_v36 main_v37 main_v40

def fn {F : FTy → Type} [FloatOps F] (main_arg0 : FVec F S64x32768x16 .f32) : IVec S_ 1 :=
  let main_v0 : FVec F S64x32768x16 .f32 := Host.absf main_arg0
  let main_cst : FVec F S_ .f32 := constant S_ .f32 0x7F800000#32
  let main_v1 : FVec F S64x32768x16 .f32 := broadcastInDim S64x32768x16 ![] bcast_S_S64x32768x16 main_cst
  let main_v2 : IVec S64x32768x16 1 := cmpf .olt main_v0 main_v1
  let main_c : IVec S_ 1 := constantI S_ 1 1#1
  let main_v3 : IVec S_ 1 := (fun x v => Host.reduce IntOp.andi x v reducesTo_S64x32768x16_S_d0_1_2 h_S_) main_v2 main_c
  let main_v4 : FVec F S64x32768x15 .f32 := (extractStridedSlice S64x32768x15 ![0, 0, 0] · slices_S64x32768x16_S64x32768x15_0_0_0) main_arg0
  let main_v5 : FVec F S64x32768x1 .f32 := (extractStridedSlice S64x32768x1 ![0, 0, 15] · slices_S64x32768x16_S64x32768x1_0_0_15) main_arg0
  let main_v6 : FVec F S64x32768x1 .f32 := mulf main_v5 main_v5
  let main_cst_0 : FVec F S_ .f32 := constant S_ .f32 0x3F800000#32
  let main_v7 : FVec F S64x32768x1 .f32 := broadcastInDim S64x32768x1 ![] bcast_S_S64x32768x1 main_cst_0
  let main_v8 : FVec F S64x32768x1 .f32 := subf main_v7 main_v6
  let main_v9 : FVec F S64x32768x15 .f32 := Host.reverse [2] main_v4
  let main_v10 : FVec F S64x32768x15 .f32 := broadcastInDim S64x32768x15 ![0, 1, 2] bcast_S64x32768x1_S64x32768x15_0_1_2 main_v5
  let main_v11 : FVec F S64x32768x15 .f32 := mulf main_v10 main_v9
  let main_v12 : FVec F S64x32768x15 .f32 := subf main_v4 main_v11
  let main_v13 : FVec F S64x32768x1 .f32 := mulf main_v5 main_v5
  let main_cst_1 : FVec F S_ .f32 := constant S_ .f32 0x3F800000#32
  let main_v14 : FVec F S64x32768x1 .f32 := broadcastInDim S64x32768x1 ![] bcast_S_S64x32768x1 main_cst_1
  let main_v15 : FVec F S64x32768x1 .f32 := subf main_v14 main_v13
  let main_v16 : FVec F S64x32768x15 .f32 := broadcastInDim S64x32768x15 ![0, 1, 2] bcast_S64x32768x1_S64x32768x15_0_1_2 main_v15
  let main_v17 : FVec F S64x32768x15 .f32 := Host.divf main_v12 main_v16
  let main_v18 : FVec F S64x32768x16 .f32 := (fun a b => concatenate S64x32768x16 2 [⟨S64x32768x15, a⟩, ⟨S64x32768x1, b⟩] concatenates_S64x32768x15_S64x32768x1_S64x32768x16_d2) main_v17 main_v5
  let main_v19 : FVec F S64x32768x14 .f32 := (extractStridedSlice S64x32768x14 ![0, 0, 0] · slices_S64x32768x16_S64x32768x14_0_0_0) main_v18
  fn_part1 (F := F) main_v3 main_v8 main_v18 main_v19
-- ==== Kernel.lean ====
abbrev S64x32768x16 : Shape := ⟨3, ![64, 32768, 16]⟩
abbrev S64x256x16 : Shape := ⟨3, ![64, 256, 16]⟩
abbrev S64x16x256 : Shape := ⟨3, ![64, 16, 256]⟩
abbrev S64x15x256 : Shape := ⟨3, ![64, 15, 256]⟩
abbrev S64x1x256 : Shape := ⟨3, ![64, 1, 256]⟩
abbrev S64x14x256 : Shape := ⟨3, ![64, 14, 256]⟩
abbrev S64x2x256 : Shape := ⟨3, ![64, 2, 256]⟩
abbrev S64x13x256 : Shape := ⟨3, ![64, 13, 256]⟩
abbrev S64x3x256 : Shape := ⟨3, ![64, 3, 256]⟩
abbrev S64x12x256 : Shape := ⟨3, ![64, 12, 256]⟩
abbrev S64x4x256 : Shape := ⟨3, ![64, 4, 256]⟩
abbrev S64x11x256 : Shape := ⟨3, ![64, 11, 256]⟩
abbrev S64x5x256 : Shape := ⟨3, ![64, 5, 256]⟩
abbrev S64x10x256 : Shape := ⟨3, ![64, 10, 256]⟩
abbrev S64x6x256 : Shape := ⟨3, ![64, 6, 256]⟩
abbrev S64x9x256 : Shape := ⟨3, ![64, 9, 256]⟩
abbrev S64x7x256 : Shape := ⟨3, ![64, 7, 256]⟩
abbrev S64x8x256 : Shape := ⟨3, ![64, 8, 256]⟩

abbrev nBuf : Space → Nat
  | .hbm => 2
  | .vmem => 5
  | .smem => 0
  | _ => 0

abbrev bufTy : (tb : Table) → Fin (tcTables nBuf tb) → BufTy
  | .hbm, ⟨0, _⟩ => ⟨S64x32768x16, .f32⟩
  | .hbm, ⟨1, _⟩ => ⟨S64x32768x16, .f32⟩
  | .local _ .vmem, ⟨0, _⟩ => ⟨S64x256x16, .f32⟩
  | .local _ .vmem, ⟨1, _⟩ => ⟨S64x256x16, .f32⟩
  | .local _ .vmem, ⟨2, _⟩ => ⟨S64x256x16, .f32⟩
  | .local _ .vmem, ⟨3, _⟩ => ⟨S64x256x16, .f32⟩
  | .local _ .vmem, ⟨4, _⟩ => ⟨S64x16x256, .f32⟩
  | _, _ => ⟨S64x32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x256x16_S64x256x16_0_0_0 : ∀ a, (![0, 0, 0] : Fin 3 → Nat) a + S64x256x16.size a ≤ S64x256x16.size a
  h_S64x256x16 : 0 < S64x256x16.numel
  transposes_S64x256x16_p0_2_1_S64x16x256 : S64x256x16.Transposes [0, 2, 1] S64x16x256
  inb_S64x16x256_S64x16x256_0_0_0 : ∀ a, (![0, 0, 0] : Fin 3 → Nat) a + S64x16x256.size a ≤ S64x16x256.size a
  h_S64x16x256 : 0 < S64x16x256.numel
  shapeCasts_S64x16x256_S64x16x256 : S64x16x256.ShapeCasts S64x16x256
  inb_S64x16x256_S64x15x256_0_0_0 : ∀ a, (![0, 0, 0] : Fin 3 → Nat) a + S64x15x256.size a ≤ S64x16x256.size a
  h_S64x15x256 : 0 < S64x15x256.numel
  inb_S64x16x256_S64x1x256_0_15_0 : ∀ a, (![0, 15, 0] : Fin 3 → Nat) a + S64x1x256.size a ≤ S64x16x256.size a
  h_S64x1x256 : 0 < S64x1x256.numel
  slices_S64x15x256_o0_14_0_S64x1x256 : S64x15x256.Slices ![0, 14, 0] S64x1x256
  slices_S64x15x256_o0_13_0_S64x1x256 : S64x15x256.Slices ![0, 13, 0] S64x1x256
  slices_S64x15x256_o0_12_0_S64x1x256 : S64x15x256.Slices ![0, 12, 0] S64x1x256
  slices_S64x15x256_o0_11_0_S64x1x256 : S64x15x256.Slices ![0, 11, 0] S64x1x256
  slices_S64x15x256_o0_10_0_S64x1x256 : S64x15x256.Slices ![0, 10, 0] S64x1x256
  slices_S64x15x256_o0_9_0_S64x1x256 : S64x15x256.Slices ![0, 9, 0] S64x1x256
  slices_S64x15x256_o0_8_0_S64x1x256 : S64x15x256.Slices ![0, 8, 0] S64x1x256
  slices_S64x15x256_o0_7_0_S64x1x256 : S64x15x256.Slices ![0, 7, 0] S64x1x256
  slices_S64x15x256_o0_6_0_S64x1x256 : S64x15x256.Slices ![0, 6, 0] S64x1x256
  slices_S64x15x256_o0_5_0_S64x1x256 : S64x15x256.Slices ![0, 5, 0] S64x1x256
  slices_S64x15x256_o0_4_0_S64x1x256 : S64x15x256.Slices ![0, 4, 0] S64x1x256
  slices_S64x15x256_o0_3_0_S64x1x256 : S64x15x256.Slices ![0, 3, 0] S64x1x256
  slices_S64x15x256_o0_2_0_S64x1x256 : S64x15x256.Slices ![0, 2, 0] S64x1x256
  slices_S64x15x256_o0_1_0_S64x1x256 : S64x15x256.Slices ![0, 1, 0] S64x1x256
  slices_S64x15x256_o0_0_0_S64x1x256 : S64x15x256.Slices ![0, 0, 0] S64x1x256
  concatenates_S64x1x256_S64x1x256_S64x1x256_S64x1x256_S64x1x256_S64x1x256_S64x1x256_S64x1x256_S64x1x256_S64x1x256_S64x1x256_S64x1x256_S64x1x256_S64x1x256_S64x1x256_S64x15x256_d1 : Shape.Concatenates [S64x1x256, S64x1x256, S64x1x256, S64x1x256, S64x1x256, S64x1x256, S64x1x256, S64x1x256, S64x1x256, S64x1x256, S64x1x256, S64x1x256, S64x1x256, S64x1x256, S64x1x256] S64x15x256 1
  broadcasts_S64x1x256_S64x15x256 : S64x1x256.Broadcasts S64x15x256
  shapeCasts_S64x15x256_S64x15x256 : S64x15x256.ShapeCasts S64x15x256
  inb_S64x16x256_S64x14x256_0_0_0 : ∀ a, (![0, 0, 0] : Fin 3 → Nat) a + S64x14x256.size a ≤ S64x16x256.size a
  h_S64x14x256 : 0 < S64x14x256.numel
  inb_S64x16x256_S64x2x256_0_14_0 : ∀ a, (![0, 14, 0] : Fin 3 → Nat) a + S64x2x256.size a ≤ S64x16x256.size a
  h_S64x2x256 : 0 < S64x2x256.numel
  slices_S64x2x256_o0_0_0_S64x1x256 : S64x2x256.Slices ![0, 0, 0] S64x1x256
  slices_S64x14x256_o0_13_0_S64x1x256 : S64x14x256.Slices ![0, 13, 0] S64x1x256
  slices_S64x14x256_o0_12_0_S64x1x256 : S64x14x256.Slices ![0, 12, 0] S64x1x256
  slices_S64x14x256_o0_11_0_S64x1x256 : S64x14x256.Slices ![0, 11, 0] S64x1x256
  slices_S64x14x256_o0_10_0_S64x1x256 : S64x14x256.Slices ![0, 10, 0] S64x1x256
  slices_S64x14x256_o0_9_0_S64x1x256 : S64x14x256.Slices ![0, 9, 0] S64x1x256
  slices_S64x14x256_o0_8_0_S64x1x256 : S64x14x256.Slices ![0, 8, 0] S64x1x256
  slices_S64x14x256_o0_7_0_S64x1x256 : S64x14x256.Slices ![0, 7, 0] S64x1x256
  slices_S64x14x256_o0_6_0_S64x1x256 : S64x14x256.Slices ![0, 6, 0] S64x1x256
  slices_S64x14x256_o0_5_0_S64x1x256 : S64x14x256.Slices ![0, 5, 0] S64x1x256
  slices_S64x14x256_o0_4_0_S64x1x256 : S64x14x256.Slices ![0, 4, 0] S64x1x256
  slices_S64x14x256_o0_3_0_S64x1x256 : S64x14x256.Slices ![0, 3, 0] S64x1x256
  slices_S64x14x256_o0_2_0_S64x1x256 : S64x14x256.Slices ![0, 2, 0] S64x1x256
  slices_S64x14x256_o0_1_0_S64x1x256 : S64x14x256.Slices ![0, 1, 0] S64x1x256
  slices_S64x14x256_o0_0_0_S64x1x256 : S64x14x256.Slices ![0, 0, 0] S64x1x256
  concatenates_S64x1x256_S64x1x256_S64x1x256_S64x1x256_S64x1x256_S64x1x256_S64x1x256_S64x1x256_S64x1x256_S64x1x256_S64x1x256_S64x1x256_S64x1x256_S64x1x256_S64x14x256_d1 : Shape.Concatenates [S64x1x256, S64x1x256, S64x1x256, S64x1x256, S64x1x256, S64x1x256, S64x1x256, S64x1x256, S64x1x256, S64x1x256, S64x1x256, S64x1x256, S64x1x256, S64x1x256] S64x14x256 1
  broadcasts_S64x1x256_S64x14x256 : S64x1x256.Broadcasts S64x14x256
  shapeCasts_S64x14x256_S64x14x256 : S64x14x256.ShapeCasts S64x14x256
  inb_S64x16x256_S64x13x256_0_0_0 : ∀ a, (![0, 0, 0] : Fin 3 → Nat) a + S64x13x256.size a ≤ S64x16x256.size a
  h_S64x13x256 : 0 < S64x13x256.numel
  inb_S64x16x256_S64x3x256_0_13_0 : ∀ a, (![0, 13, 0] : Fin 3 → Nat) a + S64x3x256.size a ≤ S64x16x256.size a
  h_S64x3x256 : 0 < S64x3x256.numel
  slices_S64x3x256_o0_0_0_S64x1x256 : S64x3x256.Slices ![0, 0, 0] S64x1x256
  slices_S64x13x256_o0_12_0_S64x1x256 : S64x13x256.Slices ![0, 12, 0] S64x1x256
  slices_S64x13x256_o0_11_0_S64x1x256 : S64x13x256.Slices ![0, 11, 0] S64x1x256
  slices_S64x13x256_o0_10_0_S64x1x256 : S64x13x256.Slices ![0, 10, 0] S64x1x256
  slices_S64x13x256_o0_9_0_S64x1x256 : S64x13x256.Slices ![0, 9, 0] S64x1x256
  slices_S64x13x256_o0_8_0_S64x1x256 : S64x13x256.Slices ![0, 8, 0] S64x1x256
  slices_S64x13x256_o0_7_0_S64x1x256 : S64x13x256.Slices ![0, 7, 0] S64x1x256
  slices_S64x13x256_o0_6_0_S64x1x256 : S64x13x256.Slices ![0, 6, 0] S64x1x256
  slices_S64x13x256_o0_5_0_S64x1x256 : S64x13x256.Slices ![0, 5, 0] S64x1x256
  slices_S64x13x256_o0_4_0_S64x1x256 : S64x13x256.Slices ![0, 4, 0] S64x1x256
  slices_S64x13x256_o0_3_0_S64x1x256 : S64x13x256.Slices ![0, 3, 0] S64x1x256
  slices_S64x13x256_o0_2_0_S64x1x256 : S64x13x256.Slices ![0, 2, 0] S64x1x256
  slices_S64x13x256_o0_1_0_S64x1x256 : S64x13x256.Slices ![0, 1, 0] S64x1x256
  slices_S64x13x256_o0_0_0_S64x1x256 : S64x13x256.Slices ![0, 0, 0] S64x1x256
  concatenates_S64x1x256_S64x1x256_S64x1x256_S64x1x256_S64x1x256_S64x1x256_S64x1x256_S64x1x256_S64x1x256_S64x1x256_S64x1x256_S64x1x256_S64x1x256_S64x13x256_d1 : Shape.Concatenates [S64x1x256, S64x1x256, S64x1x256, S64x1x256, S64x1x256, S64x1x256, S64x1x256, S64x1x256, S64x1x256, S64x1x256, S64x1x256, S64x1x256, S64x1x256] S64x13x256 1
  broadcasts_S64x1x256_S64x13x256 : S64x1x256.Broadcasts S64x13x256
  shapeCasts_S64x13x256_S64x13x256 : S64x13x256.ShapeCasts S64x13x256
  inb_S64x16x256_S64x12x256_0_0_0 : ∀ a, (![0, 0, 0] : Fin 3 → Nat) a + S64x12x256.size a ≤ S64x16x256.size a
  h_S64x12x256 : 0 < S64x12x256.numel
  inb_S64x16x256_S64x4x256_0_12_0 : ∀ a, (![0, 12, 0] : Fin 3 → Nat) a + S64x4x256.size a ≤ S64x16x256.size a
  h_S64x4x256 : 0 < S64x4x256.numel
  slices_S64x4x256_o0_0_0_S64x1x256 : S64x4x256.Slices ![0, 0, 0] S64x1x256
  slices_S64x12x256_o0_11_0_S64x1x256 : S64x12x256.Slices ![0, 11, 0] S64x1x256
  slices_S64x12x256_o0_10_0_S64x1x256 : S64x12x256.Slices ![0, 10, 0] S64x1x256
  slices_S64x12x256_o0_9_0_S64x1x256 : S64x12x256.Slices ![0, 9, 0] S64x1x256
  slices_S64x12x256_o0_8_0_S64x1x256 : S64x12x256.Slices ![0, 8, 0] S64x1x256
  slices_S64x12x256_o0_7_0_S64x1x256 : S64x12x256.Slices ![0, 7, 0] S64x1x256
  slices_S64x12x256_o0_6_0_S64x1x256 : S64x12x256.Slices ![0, 6, 0] S64x1x256
  slices_S64x12x256_o0_5_0_S64x1x256 : S64x12x256.Slices ![0, 5, 0] S64x1x256
  slices_S64x12x256_o0_4_0_S64x1x256 : S64x12x256.Slices ![0, 4, 0] S64x1x256
  slices_S64x12x256_o0_3_0_S64x1x256 : S64x12x256.Slices ![0, 3, 0] S64x1x256
  slices_S64x12x256_o0_2_0_S64x1x256 : S64x12x256.Slices ![0, 2, 0] S64x1x256
  slices_S64x12x256_o0_1_0_S64x1x256 : S64x12x256.Slices ![0, 1, 0] S64x1x256
  slices_S64x12x256_o0_0_0_S64x1x256 : S64x12x256.Slices ![0, 0, 0] S64x1x256
  concatenates_S64x1x256_S64x1x256_S64x1x256_S64x1x256_S64x1x256_S64x1x256_S64x1x256_S64x1x256_S64x1x256_S64x1x256_S64x1x256_S64x1x256_S64x12x256_d1 : Shape.Concatenates [S64x1x256, S64x1x256, S64x1x256, S64x1x256, S64x1x256, S64x1x256, S64x1x256, S64x1x256, S64x1x256, S64x1x256, S64x1x256, S64x1x256] S64x12x256 1
  broadcasts_S64x1x256_S64x12x256 : S64x1x256.Broadcasts S64x12x256
  shapeCasts_S64x12x256_S64x12x256 : S64x12x256.ShapeCasts S64x12x256
  inb_S64x16x256_S64x11x256_0_0_0 : ∀ a, (![0, 0, 0] : Fin 3 → Nat) a + S64x11x256.size a ≤ S64x16x256.size a
  h_S64x11x256 : 0 < S64x11x256.numel
  inb_S64x16x256_S64x5x256_0_11_0 : ∀ a, (![0, 11, 0] : Fin 3 → Nat) a + S64x5x256.size a ≤ S64x16x256.size a
  h_S64x5x256 : 0 < S64x5x256.numel
  slices_S64x5x256_o0_0_0_S64x1x256 : S64x5x256.Slices ![0, 0, 0] S64x1x256
  slices_S64x11x256_o0_10_0_S64x1x256 : S64x11x256.Slices ![0, 10, 0] S64x1x256
  slices_S64x11x256_o0_9_0_S64x1x256 : S64x11x256.Slices ![0, 9, 0] S64x1x256
  slices_S64x11x256_o0_8_0_S64x1x256 : S64x11x256.Slices ![0, 8, 0] S64x1x256
  slices_S64x11x256_o0_7_0_S64x1x256 : S64x11x256.Slices ![0, 7, 0] S64x1x256
  slices_S64x11x256_o0_6_0_S64x1x256 : S64x11x256.Slices ![0, 6, 0] S64x1x256
  slices_S64x11x256_o0_5_0_S64x1x256 : S64x11x256.Slices ![0, 5, 0] S64x1x256
  slices_S64x11x256_o0_4_0_S64x1x256 : S64x11x256.Slices ![0, 4, 0] S64x1x256
  slices_S64x11x256_o0_3_0_S64x1x256 : S64x11x256.Slices ![0, 3, 0] S64x1x256
  slices_S64x11x256_o0_2_0_S64x1x256 : S64x11x256.Slices ![0, 2, 0] S64x1x256
  slices_S64x11x256_o0_1_0_S64x1x256 : S64x11x256.Slices ![0, 1, 0] S64x1x256
  slices_S64x11x256_o0_0_0_S64x1x256 : S64x11x256.Slices ![0, 0, 0] S64x1x256
  concatenates_S64x1x256_S64x1x256_S64x1x256_S64x1x256_S64x1x256_S64x1x256_S64x1x256_S64x1x256_S64x1x256_S64x1x256_S64x1x256_S64x11x256_d1 : Shape.Concatenates [S64x1x256, S64x1x256, S64x1x256, S64x1x256, S64x1x256, S64x1x256, S64x1x256, S64x1x256, S64x1x256, S64x1x256, S64x1x256] S64x11x256 1
  broadcasts_S64x1x256_S64x11x256 : S64x1x256.Broadcasts S64x11x256
  shapeCasts_S64x11x256_S64x11x256 : S64x11x256.ShapeCasts S64x11x256
  inb_S64x16x256_S64x10x256_0_0_0 : ∀ a, (![0, 0, 0] : Fin 3 → Nat) a + S64x10x256.size a ≤ S64x16x256.size a
  h_S64x10x256 : 0 < S64x10x256.numel
  inb_S64x16x256_S64x6x256_0_10_0 : ∀ a, (![0, 10, 0] : Fin 3 → Nat) a + S64x6x256.size a ≤ S64x16x256.size a
  h_S64x6x256 : 0 < S64x6x256.numel
  slices_S64x6x256_o0_0_0_S64x1x256 : S64x6x256.Slices ![0, 0, 0] S64x1x256
  slices_S64x10x256_o0_9_0_S64x1x256 : S64x10x256.Slices ![0, 9, 0] S64x1x256
  slices_S64x10x256_o0_8_0_S64x1x256 : S64x10x256.Slices ![0, 8, 0] S64x1x256
  slices_S64x10x256_o0_7_0_S64x1x256 : S64x10x256.Slices ![0, 7, 0] S64x1x256
  slices_S64x10x256_o0_6_0_S64x1x256 : S64x10x256.Slices ![0, 6, 0] S64x1x256
  slices_S64x10x256_o0_5_0_S64x1x256 : S64x10x256.Slices ![0, 5, 0] S64x1x256
  slices_S64x10x256_o0_4_0_S64x1x256 : S64x10x256.Slices ![0, 4, 0] S64x1x256
  slices_S64x10x256_o0_3_0_S64x1x256 : S64x10x256.Slices ![0, 3, 0] S64x1x256
  slices_S64x10x256_o0_2_0_S64x1x256 : S64x10x256.Slices ![0, 2, 0] S64x1x256
  slices_S64x10x256_o0_1_0_S64x1x256 : S64x10x256.Slices ![0, 1, 0] S64x1x256
  slices_S64x10x256_o0_0_0_S64x1x256 : S64x10x256.Slices ![0, 0, 0] S64x1x256
  concatenates_S64x1x256_S64x1x256_S64x1x256_S64x1x256_S64x1x256_S64x1x256_S64x1x256_S64x1x256_S64x1x256_S64x1x256_S64x10x256_d1 : Shape.Concatenates [S64x1x256, S64x1x256, S64x1x256, S64x1x256, S64x1x256, S64x1x256, S64x1x256, S64x1x256, S64x1x256, S64x1x256] S64x10x256 1
  broadcasts_S64x1x256_S64x10x256 : S64x1x256.Broadcasts S64x10x256
  shapeCasts_S64x10x256_S64x10x256 : S64x10x256.ShapeCasts S64x10x256
  inb_S64x16x256_S64x9x256_0_0_0 : ∀ a, (![0, 0, 0] : Fin 3 → Nat) a + S64x9x256.size a ≤ S64x16x256.size a
  h_S64x9x256 : 0 < S64x9x256.numel
  inb_S64x16x256_S64x7x256_0_9_0 : ∀ a, (![0, 9, 0] : Fin 3 → Nat) a + S64x7x256.size a ≤ S64x16x256.size a
  h_S64x7x256 : 0 < S64x7x256.numel
  slices_S64x7x256_o0_0_0_S64x1x256 : S64x7x256.Slices ![0, 0, 0] S64x1x256
  slices_S64x9x256_o0_8_0_S64x1x256 : S64x9x256.Slices ![0, 8, 0] S64x1x256
  slices_S64x9x256_o0_7_0_S64x1x256 : S64x9x256.Slices ![0, 7, 0] S64x1x256
  slices_S64x9x256_o0_6_0_S64x1x256 : S64x9x256.Slices ![0, 6, 0] S64x1x256
  slices_S64x9x256_o0_5_0_S64x1x256 : S64x9x256.Slices ![0, 5, 0] S64x1x256
  slices_S64x9x256_o0_4_0_S64x1x256 : S64x9x256.Slices ![0, 4, 0] S64x1x256
  slices_S64x9x256_o0_3_0_S64x1x256 : S64x9x256.Slices ![0, 3, 0] S64x1x256
  slices_S64x9x256_o0_2_0_S64x1x256 : S64x9x256.Slices ![0, 2, 0] S64x1x256
  slices_S64x9x256_o0_1_0_S64x1x256 : S64x9x256.Slices ![0, 1, 0] S64x1x256
  slices_S64x9x256_o0_0_0_S64x1x256 : S64x9x256.Slices ![0, 0, 0] S64x1x256
  concatenates_S64x1x256_S64x1x256_S64x1x256_S64x1x256_S64x1x256_S64x1x256_S64x1x256_S64x1x256_S64x1x256_S64x9x256_d1 : Shape.Concatenates [S64x1x256, S64x1x256, S64x1x256, S64x1x256, S64x1x256, S64x1x256, S64x1x256, S64x1x256, S64x1x256] S64x9x256 1
  broadcasts_S64x1x256_S64x9x256 : S64x1x256.Broadcasts S64x9x256
  shapeCasts_S64x9x256_S64x9x256 : S64x9x256.ShapeCasts S64x9x256
  inb_S64x16x256_S64x8x256_0_0_0 : ∀ a, (![0, 0, 0] : Fin 3 → Nat) a + S64x8x256.size a ≤ S64x16x256.size a
  h_S64x8x256 : 0 < S64x8x256.numel
  inb_S64x16x256_S64x8x256_0_8_0 : ∀ a, (![0, 8, 0] : Fin 3 → Nat) a + S64x8x256.size a ≤ S64x16x256.size a
  slices_S64x8x256_o0_0_0_S64x1x256 : S64x8x256.Slices ![0, 0, 0] S64x1x256
  slices_S64x8x256_o0_7_0_S64x1x256 : S64x8x256.Slices ![0, 7, 0] S64x1x256
  slices_S64x8x256_o0_6_0_S64x1x256 : S64x8x256.Slices ![0, 6, 0] S64x1x256
  slices_S64x8x256_o0_5_0_S64x1x256 : S64x8x256.Slices ![0, 5, 0] S64x1x256
  slices_S64x8x256_o0_4_0_S64x1x256 : S64x8x256.Slices ![0, 4, 0] S64x1x256
  slices_S64x8x256_o0_3_0_S64x1x256 : S64x8x256.Slices ![0, 3, 0] S64x1x256
  slices_S64x8x256_o0_2_0_S64x1x256 : S64x8x256.Slices ![0, 2, 0] S64x1x256
  slices_S64x8x256_o0_1_0_S64x1x256 : S64x8x256.Slices ![0, 1, 0] S64x1x256
  concatenates_S64x1x256_S64x1x256_S64x1x256_S64x1x256_S64x1x256_S64x1x256_S64x1x256_S64x1x256_S64x8x256_d1 : Shape.Concatenates [S64x1x256, S64x1x256, S64x1x256, S64x1x256, S64x1x256, S64x1x256, S64x1x256, S64x1x256] S64x8x256 1
  broadcasts_S64x1x256_S64x8x256 : S64x1x256.Broadcasts S64x8x256
  shapeCasts_S64x8x256_S64x8x256 : S64x8x256.ShapeCasts S64x8x256
  inb_S64x16x256_S64x7x256_0_0_0 : ∀ a, (![0, 0, 0] : Fin 3 → Nat) a + S64x7x256.size a ≤ S64x16x256.size a
  inb_S64x16x256_S64x9x256_0_7_0 : ∀ a, (![0, 7, 0] : Fin 3 → Nat) a + S64x9x256.size a ≤ S64x16x256.size a
  slices_S64x7x256_o0_6_0_S64x1x256 : S64x7x256.Slices ![0, 6, 0] S64x1x256
  slices_S64x7x256_o0_5_0_S64x1x256 : S64x7x256.Slices ![0, 5, 0] S64x1x256
  slices_S64x7x256_o0_4_0_S64x1x256 : S64x7x256.Slices ![0, 4, 0] S64x1x256
  slices_S64x7x256_o0_3_0_S64x1x256 : S64x7x256.Slices ![0, 3, 0] S64x1x256
  slices_S64x7x256_o0_2_0_S64x1x256 : S64x7x256.Slices ![0, 2, 0] S64x1x256
  slices_S64x7x256_o0_1_0_S64x1x256 : S64x7x256.Slices ![0, 1, 0] S64x1x256
  concatenates_S64x1x256_S64x1x256_S64x1x256_S64x1x256_S64x1x256_S64x1x256_S64x1x256_S64x7x256_d1 : Shape.Concatenates [S64x1x256, S64x1x256, S64x1x256, S64x1x256, S64x1x256, S64x1x256, S64x1x256] S64x7x256 1
  broadcasts_S64x1x256_S64x7x256 : S64x1x256.Broadcasts S64x7x256
  shapeCasts_S64x7x256_S64x7x256 : S64x7x256.ShapeCasts S64x7x256
  inb_S64x16x256_S64x6x256_0_0_0 : ∀ a, (![0, 0, 0] : Fin 3 → Nat) a + S64x6x256.size a ≤ S64x16x256.size a
  inb_S64x16x256_S64x10x256_0_6_0 : ∀ a, (![0, 6, 0] : Fin 3 → Nat) a + S64x10x256.size a ≤ S64x16x256.size a
  slices_S64x6x256_o0_5_0_S64x1x256 : S64x6x256.Slices ![0, 5, 0] S64x1x256
  slices_S64x6x256_o0_4_0_S64x1x256 : S64x6x256.Slices ![0, 4, 0] S64x1x256
  slices_S64x6x256_o0_3_0_S64x1x256 : S64x6x256.Slices ![0, 3, 0] S64x1x256
  slices_S64x6x256_o0_2_0_S64x1x256 : S64x6x256.Slices ![0, 2, 0] S64x1x256
  slices_S64x6x256_o0_1_0_S64x1x256 : S64x6x256.Slices ![0, 1, 0] S64x1x256
  concatenates_S64x1x256_S64x1x256_S64x1x256_S64x1x256_S64x1x256_S64x1x256_S64x6x256_d1 : Shape.Concatenates [S64x1x256, S64x1x256, S64x1x256, S64x1x256, S64x1x256, S64x1x256] S64x6x256 1
  broadcasts_S64x1x256_S64x6x256 : S64x1x256.Broadcasts S64x6x256
  shapeCasts_S64x6x256_S64x6x256 : S64x6x256.ShapeCasts S64x6x256
  inb_S64x16x256_S64x5x256_0_0_0 : ∀ a, (![0, 0, 0] : Fin 3 → Nat) a + S64x5x256.size a ≤ S64x16x256.size a
  inb_S64x16x256_S64x11x256_0_5_0 : ∀ a, (![0, 5, 0] : Fin 3 → Nat) a + S64x11x256.size a ≤ S64x16x256.size a
  slices_S64x5x256_o0_4_0_S64x1x256 : S64x5x256.Slices ![0, 4, 0] S64x1x256
  slices_S64x5x256_o0_3_0_S64x1x256 : S64x5x256.Slices ![0, 3, 0] S64x1x256
  slices_S64x5x256_o0_2_0_S64x1x256 : S64x5x256.Slices ![0, 2, 0] S64x1x256
  slices_S64x5x256_o0_1_0_S64x1x256 : S64x5x256.Slices ![0, 1, 0] S64x1x256
  concatenates_S64x1x256_S64x1x256_S64x1x256_S64x1x256_S64x1x256_S64x5x256_d1 : Shape.Concatenates [S64x1x256, S64x1x256, S64x1x256, S64x1x256, S64x1x256] S64x5x256 1
  broadcasts_S64x1x256_S64x5x256 : S64x1x256.Broadcasts S64x5x256
  shapeCasts_S64x5x256_S64x5x256 : S64x5x256.ShapeCasts S64x5x256
  inb_S64x16x256_S64x4x256_0_0_0 : ∀ a, (![0, 0, 0] : Fin 3 → Nat) a + S64x4x256.size a ≤ S64x16x256.size a
  inb_S64x16x256_S64x12x256_0_4_0 : ∀ a, (![0, 4, 0] : Fin 3 → Nat) a + S64x12x256.size a ≤ S64x16x256.size a
  slices_S64x4x256_o0_3_0_S64x1x256 : S64x4x256.Slices ![0, 3, 0] S64x1x256
  slices_S64x4x256_o0_2_0_S64x1x256 : S64x4x256.Slices ![0, 2, 0] S64x1x256
  slices_S64x4x256_o0_1_0_S64x1x256 : S64x4x256.Slices ![0, 1, 0] S64x1x256
  concatenates_S64x1x256_S64x1x256_S64x1x256_S64x1x256_S64x4x256_d1 : Shape.Concatenates [S64x1x256, S64x1x256, S64x1x256, S64x1x256] S64x4x256 1
  broadcasts_S64x1x256_S64x4x256 : S64x1x256.Broadcasts S64x4x256
  shapeCasts_S64x4x256_S64x4x256 : S64x4x256.ShapeCasts S64x4x256
  inb_S64x16x256_S64x3x256_0_0_0 : ∀ a, (![0, 0, 0] : Fin 3 → Nat) a + S64x3x256.size a ≤ S64x16x256.size a
  inb_S64x16x256_S64x13x256_0_3_0 : ∀ a, (![0, 3, 0] : Fin 3 → Nat) a + S64x13x256.size a ≤ S64x16x256.size a
  slices_S64x3x256_o0_2_0_S64x1x256 : S64x3x256.Slices ![0, 2, 0] S64x1x256
  slices_S64x3x256_o0_1_0_S64x1x256 : S64x3x256.Slices ![0, 1, 0] S64x1x256
  concatenates_S64x1x256_S64x1x256_S64x1x256_S64x3x256_d1 : Shape.Concatenates [S64x1x256, S64x1x256, S64x1x256] S64x3x256 1
  broadcasts_S64x1x256_S64x3x256 : S64x1x256.Broadcasts S64x3x256
  shapeCasts_S64x3x256_S64x3x256 : S64x3x256.ShapeCasts S64x3x256
  inb_S64x16x256_S64x2x256_0_0_0 : ∀ a, (![0, 0, 0] : Fin 3 → Nat) a + S64x2x256.size a ≤ S64x16x256.size a
  inb_S64x16x256_S64x14x256_0_2_0 : ∀ a, (![0, 2, 0] : Fin 3 → Nat) a + S64x14x256.size a ≤ S64x16x256.size a
  slices_S64x2x256_o0_1_0_S64x1x256 : S64x2x256.Slices ![0, 1, 0] S64x1x256
  concatenates_S64x1x256_S64x1x256_S64x2x256_d1 : Shape.Concatenates [S64x1x256, S64x1x256] S64x2x256 1
  broadcasts_S64x1x256_S64x2x256 : S64x1x256.Broadcasts S64x2x256
  shapeCasts_S64x2x256_S64x2x256 : S64x2x256.ShapeCasts S64x2x256
  inb_S64x16x256_S64x1x256_0_0_0 : ∀ a, (![0, 0, 0] : Fin 3 → Nat) a + S64x1x256.size a ≤ S64x16x256.size a
  inb_S64x16x256_S64x15x256_0_1_0 : ∀ a, (![0, 1, 0] : Fin 3 → Nat) a + S64x15x256.size a ≤ S64x16x256.size a
  shapeCasts_S64x1x256_S64x1x256 : S64x1x256.ShapeCasts S64x1x256
  transposes_S64x16x256_p0_2_1_S64x256x16 : S64x16x256.Transposes [0, 2, 1] S64x256x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x16.size a ≤ S64x32768x16.size a
  hwx0_0 : ∀ i : grid0.Coords, EltTy.bits .f32 = 32 ∨ (Rect.block (s := S64x32768x16) S64x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256x16.size a ≤ S64x32768x16.size a
  hwx0_1 : ∀ i : grid0.Coords, EltTy.bits .f32 = 32 ∨ (Rect.block (s := S64x32768x16) S64x256x16.size (cc0_transform_1 i) (hinb0_1 i)).WholeWords (EltTy.packing .f32)

variable [Facts₀]

abbrev win0_0 : Pipeline.Window sig grid0 :=
  Pipeline.Window.ofSpec (Memref.whole main_arg0) S64x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x32768x16 : Shape := ⟨3, ![64, 32768, 16]⟩
abbrev S64x32768x15 : Shape := ⟨3, ![64, 32768, 15]⟩
abbrev S64x32768x1 : Shape := ⟨3, ![64, 32768, 1]⟩
abbrev S_ : Shape := ⟨0, ![]⟩
abbrev S64x32768x14 : Shape := ⟨3, ![64, 32768, 14]⟩
abbrev S64x32768x2 : Shape := ⟨3, ![64, 32768, 2]⟩
abbrev S64x32768x13 : Shape := ⟨3, ![64, 32768, 13]⟩
abbrev S64x32768x3 : Shape := ⟨3, ![64, 32768, 3]⟩
abbrev S64x32768x12 : Shape := ⟨3, ![64, 32768, 12]⟩
abbrev S64x32768x4 : Shape := ⟨3, ![64, 32768, 4]⟩
abbrev S64x32768x11 : Shape := ⟨3, ![64, 32768, 11]⟩
abbrev S64x32768x5 : Shape := ⟨3, ![64, 32768, 5]⟩
abbrev S64x32768x10 : Shape := ⟨3, ![64, 32768, 10]⟩
abbrev S64x32768x6 : Shape := ⟨3, ![64, 32768, 6]⟩
abbrev S64x32768x9 : Shape := ⟨3, ![64, 32768, 9]⟩
abbrev S64x32768x7 : Shape := ⟨3, ![64, 32768, 7]⟩
abbrev S64x32768x8 : Shape := ⟨3, ![64, 32768, 8]⟩

abbrev nBuf : Space → Nat
  | .hbm => 208
  | .vmem => 0
  | .smem => 0
  | _ => 0

abbrev hbmTy0_0 (i : Nat) : BufTy := match i % 128 with
  | 0 => ⟨S64x32768x16, .f32⟩
  | 1 => ⟨S64x32768x15, .f32⟩
  | 2 => ⟨S64x32768x1, .f32⟩
  | 3 => ⟨S64x32768x15, .f32⟩
  | 4 => ⟨S64x32768x15, .f32⟩
  | 5 => ⟨S64x32768x15, .f32⟩
  | 6 => ⟨S64x32768x15, .f32⟩
  | 7 => ⟨S64x32768x1, .f32⟩
  | 8 => ⟨S_, .f32⟩
  | 9 => ⟨S64x32768x1, .f32⟩
  | 10 => ⟨S64x32768x1, .f32⟩
  | 11 => ⟨S64x32768x15, .f32⟩
  | 12 => ⟨S64x32768x15, .f32⟩
  | 13 => ⟨S64x32768x16, .f32⟩
  | 14 => ⟨S64x32768x14, .f32⟩
  | 15 => ⟨S64x32768x2, .f32⟩
  | 16 => ⟨S64x32768x1, .f32⟩
  | 17 => ⟨S64x32768x14, .f32⟩
  | 18 => ⟨S64x32768x14, .f32⟩
  | 19 => ⟨S64x32768x14, .f32⟩
  | 20 => ⟨S64x32768x14, .f32⟩
  | 21 => ⟨S64x32768x1, .f32⟩
  | 22 => ⟨S_, .f32⟩
  | 23 => ⟨S64x32768x1, .f32⟩
  | 24 => ⟨S64x32768x1, .f32⟩
  | 25 => ⟨S64x32768x14, .f32⟩
  | 26 => ⟨S64x32768x14, .f32⟩
  | 27 => ⟨S64x32768x16, .f32⟩
  | 28 => ⟨S64x32768x13, .f32⟩
  | 29 => ⟨S64x32768x3, .f32⟩
  | 30 => ⟨S64x32768x1, .f32⟩
  | 31 => ⟨S64x32768x13, .f32⟩
  | 32 => ⟨S64x32768x13, .f32⟩
  | 33 => ⟨S64x32768x13, .f32⟩
  | 34 => ⟨S64x32768x13, .f32⟩
  | 35 => ⟨S64x32768x1, .f32⟩
  | 36 => ⟨S_, .f32⟩
  | 37 => ⟨S64x32768x1, .f32⟩
  | 38 => ⟨S64x32768x1, .f32⟩
  | 39 => ⟨S64x32768x13, .f32⟩
  | 40 => ⟨S64x32768x13, .f32⟩
  | 41 => ⟨S64x32768x16, .f32⟩
  | 42 => ⟨S64x32768x12, .f32⟩
  | 43 => ⟨S64x32768x4, .f32⟩
  | 44 => ⟨S64x32768x1, .f32⟩
  | 45 => ⟨S64x32768x12, .f32⟩
  | 46 => ⟨S64x32768x12, .f32⟩
  | 47 => ⟨S64x32768x12, .f32⟩
  | 48 => ⟨S64x32768x12, .f32⟩
  | 49 => ⟨S64x32768x1, .f32⟩
  | 50 => ⟨S_, .f32⟩
  | 51 => ⟨S64x32768x1, .f32⟩
  | 52 => ⟨S64x32768x1, .f32⟩
  | 53 => ⟨S64x32768x12, .f32⟩
  | 54 => ⟨S64x32768x12, .f32⟩
  | 55 => ⟨S64x32768x16, .f32⟩
  | 56 => ⟨S64x32768x11, .f32⟩
  | 57 => ⟨S64x32768x5, .f32⟩
  | 58 => ⟨S64x32768x1, .f32⟩
  | 59 => ⟨S64x32768x11, .f32⟩
  | 60 => ⟨S64x32768x11, .f32⟩
  | 61 => ⟨S64x32768x11, .f32⟩
  | 62 => ⟨S64x32768x11, .f32⟩
  | 63 => ⟨S64x32768x1, .f32⟩
  | 64 => ⟨S_, .f32⟩
  | 65 => ⟨S64x32768x1, .f32⟩
  | 66 => ⟨S64x32768x1, .f32⟩
  | 67 => ⟨S64x32768x11, .f32⟩
  | 68 => ⟨S64x32768x11, .f32⟩
  | 69 => ⟨S64x32768x16, .f32⟩
  | 70 => ⟨S64x32768x10, .f32⟩
  | 71 => ⟨S64x32768x6, .f32⟩
  | 72 => ⟨S64x32768x1, .f32⟩
  | 73 => ⟨S64x32768x10, .f32⟩
  | 74 => ⟨S64x32768x10, .f32⟩
  | 75 => ⟨S64x32768x10, .f32⟩
  | 76 => ⟨S64x32768x10, .f32⟩
  | 77 => ⟨S64x32768x1, .f32⟩
  | 78 => ⟨S_, .f32⟩
  | 79 => ⟨S64x32768x1, .f32⟩
  | 80 => ⟨S64x32768x1, .f32⟩
  | 81 => ⟨S64x32768x10, .f32⟩
  | 82 => ⟨S64x32768x10, .f32⟩
  | 83 => ⟨S64x32768x16, .f32⟩
  | 84 => ⟨S64x32768x9, .f32⟩
  | 85 => ⟨S64x32768x7, .f32⟩
  | 86 => ⟨S64x32768x1, .f32⟩
  | 87 => ⟨S64x32768x9, .f32⟩
  | 88 => ⟨S64x32768x9, .f32⟩
  | 89 => ⟨S64x32768x9, .f32⟩
  | 90 => ⟨S64x32768x9, .f32⟩
  | 91 => ⟨S64x32768x1, .f32⟩
  | 92 => ⟨S_, .f32⟩
  | 93 => ⟨S64x32768x1, .f32⟩
  | 94 => ⟨S64x32768x1, .f32⟩
  | 95 => ⟨S64x32768x9, .f32⟩
  | 96 => ⟨S64x32768x9, .f32⟩
  | 97 => ⟨S64x32768x16, .f32⟩
  | 98 => ⟨S64x32768x8, .f32⟩
  | 99 => ⟨S64x32768x8, .f32⟩
  | 100 => ⟨S64x32768x1, .f32⟩
  | 101 => ⟨S64x32768x8, .f32⟩
  | 102 => ⟨S64x32768x8, .f32⟩
  | 103 => ⟨S64x32768x8, .f32⟩
  | 104 => ⟨S64x32768x8, .f32⟩
  | 105 => ⟨S64x32768x1, .f32⟩
  | 106 => ⟨S_, .f32⟩
  | 107 => ⟨S64x32768x1, .f32⟩
  | 108 => ⟨S64x32768x1, .f32⟩
  | 109 => ⟨S64x32768x8, .f32⟩
  | 110 => ⟨S64x32768x8, .f32⟩
  | 111 => ⟨S64x32768x16, .f32⟩
  | 112 => ⟨S64x32768x7, .f32⟩
  | 113 => ⟨S64x32768x9, .f32⟩
  | 114 => ⟨S64x32768x1, .f32⟩
  | 115 => ⟨S64x32768x7, .f32⟩
  | 116 => ⟨S64x32768x7, .f32⟩
  | 117 => ⟨S64x32768x7, .f32⟩
  | 118 => ⟨S64x32768x7, .f32⟩
  | 119 => ⟨S64x32768x1, .f32⟩
  | 120 => ⟨S_, .f32⟩
  | 121 => ⟨S64x32768x1, .f32⟩
  | 122 => ⟨S64x32768x1, .f32⟩
  | 123 => ⟨S64x32768x7, .f32⟩
  | 124 => ⟨S64x32768x7, .f32⟩
  | 125 => ⟨S64x32768x16, .f32⟩
  | 126 => ⟨S64x32768x6, .f32⟩
  | 127 => ⟨S64x32768x10, .f32⟩
  | _ => ⟨S64x32768x16, .f32⟩

abbrev hbmTy0_1 (i : Nat) : BufTy := match i % 128 with
  | 0 => ⟨S64x32768x1, .f32⟩
  | 1 => ⟨S64x32768x6, .f32⟩
  | 2 => ⟨S64x32768x6, .f32⟩
  | 3 => ⟨S64x32768x6, .f32⟩
  | 4 => ⟨S64x32768x6, .f32⟩
  | 5 => ⟨S64x32768x1, .f32⟩
  | 6 => ⟨S_, .f32⟩
  | 7 => ⟨S64x32768x1, .f32⟩
  | 8 => ⟨S64x32768x1, .f32⟩
  | 9 => ⟨S64x32768x6, .f32⟩
  | 10 => ⟨S64x32768x6, .f32⟩
  | 11 => ⟨S64x32768x16, .f32⟩
  | 12 => ⟨S64x32768x5, .f32⟩
  | 13 => ⟨S64x32768x11, .f32⟩
  | 14 => ⟨S64x32768x1, .f32⟩
  | 15 => ⟨S64x32768x5, .f32⟩
  | 16 => ⟨S64x32768x5, .f32⟩
  | 17 => ⟨S64x32768x5, .f32⟩
  | 18 => ⟨S64x32768x5, .f32⟩
  | 19 => ⟨S64x32768x1, .f32⟩
  | 20 => ⟨S_, .f32⟩
  | 21 => ⟨S64x32768x1, .f32⟩
  | 22 => ⟨S64x32768x1, .f32⟩
  | 23 => ⟨S64x32768x5, .f32⟩
  | 24 => ⟨S64x32768x5, .f32⟩
  | 25 => ⟨S64x32768x16, .f32⟩
  | 26 => ⟨S64x32768x4, .f32⟩
  | 27 => ⟨S64x32768x12, .f32⟩
  | 28 => ⟨S64x32768x1, .f32⟩
  | 29 => ⟨S64x32768x4, .f32⟩
  | 30 => ⟨S64x32768x4, .f32⟩
  | 31 => ⟨S64x32768x4, .f32⟩
  | 32 => ⟨S64x32768x4, .f32⟩
  | 33 => ⟨S64x32768x1, .f32⟩
  | 34 => ⟨S_, .f32⟩
  | 35 => ⟨S64x32768x1, .f32⟩
  | 36 => ⟨S64x32768x1, .f32⟩
  | 37 => ⟨S64x32768x4, .f32⟩
  | 38 => ⟨S64x32768x4, .f32⟩
  | 39 => ⟨S64x32768x16, .f32⟩
  | 40 => ⟨S64x32768x3, .f32⟩
  | 41 => ⟨S64x32768x13, .f32⟩
  | 42 => ⟨S64x32768x1, .f32⟩
  | 43 => ⟨S64x32768x3, .f32⟩
  | 44 => ⟨S64x32768x3, .f32⟩
  | 45 => ⟨S64x32768x3, .f32⟩
  | 46 => ⟨S64x32768x3, .f32⟩
  | 47 => ⟨S64x32768x1, .f32⟩
  | 48 => ⟨S_, .f32⟩
  | 49 => ⟨S64x32768x1, .f32⟩
  | 50 => ⟨S64x32768x1, .f32⟩
  | 51 => ⟨S64x32768x3, .f32⟩
  | 52 => ⟨S64x32768x3, .f32⟩
  | 53 => ⟨S64x32768x16, .f32⟩
  | 54 => ⟨S64x32768x2, .f32⟩
  | 55 => ⟨S64x32768x14, .f32⟩
  | 56 => ⟨S64x32768x1, .f32⟩
  | 57 => ⟨S64x32768x2, .f32⟩
  | 58 => ⟨S64x32768x2, .f32⟩
  | 59 => ⟨S64x32768x2, .f32⟩
  | 60 => ⟨S64x32768x2, .f32⟩
  | 61 => ⟨S64x32768x1, .f32⟩
  | 62 => ⟨S_, .f32⟩
  | 63 => ⟨S64x32768x1, .f32⟩
  | 64 => ⟨S64x32768x1, .f32⟩
  | 65 => ⟨S64x32768x2, .f32⟩
  | 66 => ⟨S64x32768x2, .f32⟩
  | 67 => ⟨S64x32768x16, .f32⟩
  | 68 => ⟨S64x32768x1, .f32⟩
  | 69 => ⟨S64x32768x15, .f32⟩
  | 70 => ⟨S64x32768x1, .f32⟩
  | 71 => ⟨S64x32768x1, .f32⟩
  | 72 => ⟨S64x32768x1, .f32⟩
  | 73 => ⟨S64x32768x1, .f32⟩
  | 74 => ⟨S64x32768x1, .f32⟩
  | 75 => ⟨S_, .f32⟩
  | 76 => ⟨S64x32768x1, .f32⟩
  | 77 => ⟨S64x32768x1, .f32⟩
  | 78 => ⟨S64x32768x1, .f32⟩
  | 79 => ⟨S64x32768x16, .f32⟩
  | _ => ⟨S64x32768x16, .f32⟩

abbrev hbmTy (i : Nat) : BufTy := match i / 128 with
  | 0 => hbmTy0_0 i
  | 1 => hbmTy0_1 i
  | _ => ⟨S64x32768x16, .f32⟩

abbrev bufTy : (tb : Table) → Fin (tcTables nBuf tb) → BufTy
  | .hbm, ⟨i, _⟩ => hbmTy i
  | _, _ => ⟨S64x32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_2 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_3 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_5 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_cst_6 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_cst_7 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_cst_8 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_cst_9 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_cst_10 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_cst_11 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_cst_12 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_cst_13 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩

abbrev nD : Nat := 1
abbrev τ : Topo := Topo.v7x

variable {F : FTy → Type} [FloatOps F]

class Facts₀ : Prop where
  slices_S64x32768x16_S64x32768x15_0_0_0 : S64x32768x16.Slices ![0, 0, 0] S64x32768x15
  slices_S64x32768x16_S64x32768x1_0_0_15 : S64x32768x16.Slices ![0, 0, 15] S64x32768x1
  bcast_S64x32768x1_S64x32768x15_0_1_2 : S64x32768x1.BroadcastsInDim S64x32768x15 (![0, 1, 2] : Fin 3 → Fin S64x32768x15.rank)
  bcast_S_S64x32768x1 : S_.BroadcastsInDim S64x32768x1 (![] : Fin 0 → Fin S64x32768x1.rank)
  concatenates_S64x32768x15_S64x32768x1_S64x32768x16_d2 : Shape.Concatenates [S64x32768x15, S64x32768x1] S64x32768x16 2
  slices_S64x32768x16_S64x32768x14_0_0_0 : S64x32768x16.Slices ![0, 0, 0] S64x32768x14
  slices_S64x32768x16_S64x32768x2_0_0_14 : S64x32768x16.Slices ![0, 0, 14] S64x32768x2
  slices_S64x32768x2_S64x32768x1_0_0_0 : S64x32768x2.Slices ![0, 0, 0] S64x32768x1
  bcast_S64x32768x1_S64x32768x14_0_1_2 : S64x32768x1.BroadcastsInDim S64x32768x14 (![0, 1, 2] : Fin 3 → Fin S64x32768x14.rank)
  concatenates_S64x32768x14_S64x32768x2_S64x32768x16_d2 : Shape.Concatenates [S64x32768x14, S64x32768x2] S64x32768x16 2
  slices_S64x32768x16_S64x32768x13_0_0_0 : S64x32768x16.Slices ![0, 0, 0] S64x32768x13
  slices_S64x32768x16_S64x32768x3_0_0_13 : S64x32768x16.Slices ![0, 0, 13] S64x32768x3
  slices_S64x32768x3_S64x32768x1_0_0_0 : S64x32768x3.Slices ![0, 0, 0] S64x32768x1
  bcast_S64x32768x1_S64x32768x13_0_1_2 : S64x32768x1.BroadcastsInDim S64x32768x13 (![0, 1, 2] : Fin 3 → Fin S64x32768x13.rank)
  concatenates_S64x32768x13_S64x32768x3_S64x32768x16_d2 : Shape.Concatenates [S64x32768x13, S64x32768x3] S64x32768x16 2
  slices_S64x32768x16_S64x32768x12_0_0_0 : S64x32768x16.Slices ![0, 0, 0] S64x32768x12
  slices_S64x32768x16_S64x32768x4_0_0_12 : S64x32768x16.Slices ![0, 0, 12] S64x32768x4
  slices_S64x32768x4_S64x32768x1_0_0_0 : S64x32768x4.Slices ![0, 0, 0] S64x32768x1
  bcast_S64x32768x1_S64x32768x12_0_1_2 : S64x32768x1.BroadcastsInDim S64x32768x12 (![0, 1, 2] : Fin 3 → Fin S64x32768x12.rank)
  concatenates_S64x32768x12_S64x32768x4_S64x32768x16_d2 : Shape.Concatenates [S64x32768x12, S64x32768x4] S64x32768x16 2
  slices_S64x32768x16_S64x32768x11_0_0_0 : S64x32768x16.Slices ![0, 0, 0] S64x32768x11
  slices_S64x32768x16_S64x32768x5_0_0_11 : S64x32768x16.Slices ![0, 0, 11] S64x32768x5
  slices_S64x32768x5_S64x32768x1_0_0_0 : S64x32768x5.Slices ![0, 0, 0] S64x32768x1
  bcast_S64x32768x1_S64x32768x11_0_1_2 : S64x32768x1.BroadcastsInDim S64x32768x11 (![0, 1, 2] : Fin 3 → Fin S64x32768x11.rank)
  concatenates_S64x32768x11_S64x32768x5_S64x32768x16_d2 : Shape.Concatenates [S64x32768x11, S64x32768x5] S64x32768x16 2
  slices_S64x32768x16_S64x32768x10_0_0_0 : S64x32768x16.Slices ![0, 0, 0] S64x32768x10
  slices_S64x32768x16_S64x32768x6_0_0_10 : S64x32768x16.Slices ![0, 0, 10] S64x32768x6
  slices_S64x32768x6_S64x32768x1_0_0_0 : S64x32768x6.Slices ![0, 0, 0] S64x32768x1
  bcast_S64x32768x1_S64x32768x10_0_1_2 : S64x32768x1.BroadcastsInDim S64x32768x10 (![0, 1, 2] : Fin 3 → Fin S64x32768x10.rank)
  concatenates_S64x32768x10_S64x32768x6_S64x32768x16_d2 : Shape.Concatenates [S64x32768x10, S64x32768x6] S64x32768x16 2
  slices_S64x32768x16_S64x32768x9_0_0_0 : S64x32768x16.Slices ![0, 0, 0] S64x32768x9
  slices_S64x32768x16_S64x32768x7_0_0_9 : S64x32768x16.Slices ![0, 0, 9] S64x32768x7
  slices_S64x32768x7_S64x32768x1_0_0_0 : S64x32768x7.Slices ![0, 0, 0] S64x32768x1
  bcast_S64x32768x1_S64x32768x9_0_1_2 : S64x32768x1.BroadcastsInDim S64x32768x9 (![0, 1, 2] : Fin 3 → Fin S64x32768x9.rank)
  concatenates_S64x32768x9_S64x32768x7_S64x32768x16_d2 : Shape.Concatenates [S64x32768x9, S64x32768x7] S64x32768x16 2
  slices_S64x32768x16_S64x32768x8_0_0_0 : S64x32768x16.Slices ![0, 0, 0] S64x32768x8
  slices_S64x32768x16_S64x32768x8_0_0_8 : S64x32768x16.Slices ![0, 0, 8] S64x32768x8
  slices_S64x32768x8_S64x32768x1_0_0_0 : S64x32768x8.Slices ![0, 0, 0] S64x32768x1
  bcast_S64x32768x1_S64x32768x8_0_1_2 : S64x32768x1.BroadcastsInDim S64x32768x8 (![0, 1, 2] : Fin 3 → Fin S64x32768x8.rank)
  concatenates_S64x32768x8_S64x32768x8_S64x32768x16_d2 : Shape.Concatenates [S64x32768x8, S64x32768x8] S64x32768x16 2
  slices_S64x32768x16_S64x32768x7_0_0_0 : S64x32768x16.Slices ![0, 0, 0] S64x32768x7
  slices_S64x32768x16_S64x32768x9_0_0_7 : S64x32768x16.Slices ![0, 0, 7] S64x32768x9
  slices_S64x32768x9_S64x32768x1_0_0_0 : S64x32768x9.Slices ![0, 0, 0] S64x32768x1
  bcast_S64x32768x1_S64x32768x7_0_1_2 : S64x32768x1.BroadcastsInDim S64x32768x7 (![0, 1, 2] : Fin 3 → Fin S64x32768x7.rank)
  concatenates_S64x32768x7_S64x32768x9_S64x32768x16_d2 : Shape.Concatenates [S64x32768x7, S64x32768x9] S64x32768x16 2
  slices_S64x32768x16_S64x32768x6_0_0_0 : S64x32768x16.Slices ![0, 0, 0] S64x32768x6
  slices_S64x32768x16_S64x32768x10_0_0_6 : S64x32768x16.Slices ![0, 0, 6] S64x32768x10
  slices_S64x32768x10_S64x32768x1_0_0_0 : S64x32768x10.Slices ![0, 0, 0] S64x32768x1
  bcast_S64x32768x1_S64x32768x6_0_1_2 : S64x32768x1.BroadcastsInDim S64x32768x6 (![0, 1, 2] : Fin 3 → Fin S64x32768x6.rank)
  concatenates_S64x32768x6_S64x32768x10_S64x32768x16_d2 : Shape.Concatenates [S64x32768x6, S64x32768x10] S64x32768x16 2
  slices_S64x32768x16_S64x32768x5_0_0_0 : S64x32768x16.Slices ![0, 0, 0] S64x32768x5
  slices_S64x32768x16_S64x32768x11_0_0_5 : S64x32768x16.Slices ![0, 0, 5] S64x32768x11
  slices_S64x32768x11_S64x32768x1_0_0_0 : S64x32768x11.Slices ![0, 0, 0] S64x32768x1
  bcast_S64x32768x1_S64x32768x5_0_1_2 : S64x32768x1.BroadcastsInDim S64x32768x5 (![0, 1, 2] : Fin 3 → Fin S64x32768x5.rank)
  concatenates_S64x32768x5_S64x32768x11_S64x32768x16_d2 : Shape.Concatenates [S64x32768x5, S64x32768x11] S64x32768x16 2
  slices_S64x32768x16_S64x32768x4_0_0_0 : S64x32768x16.Slices ![0, 0, 0] S64x32768x4
  slices_S64x32768x16_S64x32768x12_0_0_4 : S64x32768x16.Slices ![0, 0, 4] S64x32768x12
  slices_S64x32768x12_S64x32768x1_0_0_0 : S64x32768x12.Slices ![0, 0, 0] S64x32768x1
  bcast_S64x32768x1_S64x32768x4_0_1_2 : S64x32768x1.BroadcastsInDim S64x32768x4 (![0, 1, 2] : Fin 3 → Fin S64x32768x4.rank)
  concatenates_S64x32768x4_S64x32768x12_S64x32768x16_d2 : Shape.Concatenates [S64x32768x4, S64x32768x12] S64x32768x16 2
  slices_S64x32768x16_S64x32768x3_0_0_0 : S64x32768x16.Slices ![0, 0, 0] S64x32768x3
  slices_S64x32768x16_S64x32768x13_0_0_3 : S64x32768x16.Slices ![0, 0, 3] S64x32768x13
  slices_S64x32768x13_S64x32768x1_0_0_0 : S64x32768x13.Slices ![0, 0, 0] S64x32768x1
  bcast_S64x32768x1_S64x32768x3_0_1_2 : S64x32768x1.BroadcastsInDim S64x32768x3 (![0, 1, 2] : Fin 3 → Fin S64x32768x3.rank)
  concatenates_S64x32768x3_S64x32768x13_S64x32768x16_d2 : Shape.Concatenates [S64x32768x3, S64x32768x13] S64x32768x16 2
  slices_S64x32768x16_S64x32768x2_0_0_0 : S64x32768x16.Slices ![0, 0, 0] S64x32768x2
  slices_S64x32768x16_S64x32768x14_0_0_2 : S64x32768x16.Slices ![0, 0, 2] S64x32768x14
  slices_S64x32768x14_S64x32768x1_0_0_0 : S64x32768x14.Slices ![0, 0, 0] S64x32768x1
  bcast_S64x32768x1_S64x32768x2_0_1_2 : S64x32768x1.BroadcastsInDim S64x32768x2 (![0, 1, 2] : Fin 3 → Fin S64x32768x2.rank)
  concatenates_S64x32768x2_S64x32768x14_S64x32768x16_d2 : Shape.Concatenates [S64x32768x2, S64x32768x14] S64x32768x16 2
  slices_S64x32768x16_S64x32768x1_0_0_0 : S64x32768x16.Slices ![0, 0, 0] S64x32768x1
  slices_S64x32768x16_S64x32768x15_0_0_1 : S64x32768x16.Slices ![0, 0, 1] S64x32768x15
  slices_S64x32768x15_S64x32768x1_0_0_0 : S64x32768x15.Slices ![0, 0, 0] S64x32768x1
  concatenates_S64x32768x1_S64x32768x15_S64x32768x16_d2 : Shape.Concatenates [S64x32768x1, S64x32768x15] S64x32768x16 2

variable [Facts₀]

class Facts : Prop extends Facts₀ where

variable [Facts]
-- ==== Proof.Spec.lean ====
/-
  The Levinson step-down recursion on one row of sixteen coefficients, as a pure function on the extended reals,
  in the two forms the two programs compute: the quotient form `(a_c - k a_{w-1-c}) / (1 - k²)` and the
  reciprocal form `(a_c - k a_{w-1-c}) · (1 / (1 - k²))`, where `k = a_w` is the current reflection coefficient and
  `w` the number of leading entries the step rewrites.  Off a zero divisor the two forms agree on every extended
  real (the quotient is the product with the inverse, and `1 · d⁻¹ = d⁻¹`); at a zero divisor they differ
  (`0 · (1/0) = 0` while `0 / 0` is the bottom element), which is why the divisors are assumed nonzero.
-/
import Idealize.ShloMosaic.Lib.ValueIdx
import Idealize.ShloMosaic.Lib.IdealHost

noncomputable section

namespace Lpc

open Idealize.ShloMosaic Idealize.ShloMosaic.ValueIdx

/-- A row of coefficients, indexed by the naturals (entries past the fifteenth are never read). -/
abbrev Row := ℕ → EReal

/-- The literal one both programs carry. -/
def one : EReal := Ideal.ofBits .f32 0x3F800000#32

theorem one_eq : one = 1 := Idealize.ShloMosaic.Ideal.ofBits_one_f32

/-- One step in the quotient form: the `w` leading entries are rewritten, the entry `w` is the reflection coefficient. -/
def stepR (w : ℕ) (r : Row) : Row := fun c =>
  if c < w then Ideal.div (r c - r w * r (w - 1 - c)) (one - r w * r w) else r c

/-- One step in the reciprocal form. -/
def stepK (w : ℕ) (r : Row) : Row := fun c =>
  if c < w then (r c - r w * r (w - 1 - c)) * Ideal.div one (one - r w * r w) else r c

/-- `n` steps in the quotient form: step `n + 1` rewrites the `15 - n` leading entries. -/
def iterR : ℕ → Row → Row
  | 0, r => r
  | n + 1, r => stepR (15 - n) (iterR n r)

/-- `n` steps in the reciprocal form. -/
def iterK : ℕ → Row → Row
  | 0, r => r
  | n + 1, r => stepK (15 - n) (iterK n r)

/-- The divisor of step `n + 1`. -/
def den (n : ℕ) (r : Row) : EReal := one - iterR n r (15 - n) * iterR n r (15 - n)

/-- The row at batch `b` and time `t` of a whole array. -/
def rowOf (X : (⟨3, ![64, 32768, 16]⟩ : Shape).Idx → EReal) (b : Fin 64) (t : Fin 32768) : Row :=
  fun c => if h : c < 16 then X (ix3 b t ⟨c, h⟩) else 0

/-- The row at batch `b` and local time `s` of one block of 256 time steps. -/
def rowOfBlk (x : (⟨3, ![64, 256, 16]⟩ : Shape).Idx → EReal) (b : Fin 64) (s : Fin 256) : Row :=
  fun c => if h : c < 16 then x (ix3 b s ⟨c, h⟩) else 0

/-- Off a zero divisor, multiplying by the reciprocal is dividing, on every extended real. -/
theorem mul_div_one {x d : EReal} (hd : d ≠ 0) : x * Ideal.div one d = Ideal.div x d := by
  unfold Ideal.div
  rw [if_neg hd, if_neg hd, one_eq, one_mul]

theorem stepK_eq_stepR (w : ℕ) (r : Row) (h : one - r w * r w ≠ 0) : stepK w r = stepR w r := by
  funext c
  unfold stepK stepR
  split_ifs
  · exact mul_div_one h
  · rfl

/-- With all fifteen divisors nonzero the two recursions agree after every number of steps. -/
theorem iterK_eq_iterR (r : Row) (h : ∀ n, n < 15 → den n r ≠ 0) : ∀ n, n ≤ 15 → iterK n r = iterR n r
  | 0, _ => rfl
  | n + 1, hn => by
    rw [iterK, iterR, iterK_eq_iterR r h n (by omega)]
    exact stepK_eq_stepR _ _ (h n (by omega))

end Lpc

end
-- ==== Proof.KerStep.lean ====
/-
  Reading the scratch tile of the step-down body one row at a time.  The tile has shape [64, 16, 256]: batch, coefficient,
  time.  A step of width `w` overwrites the coefficient rows `0 … w-1` and leaves the others; what a later load sees is
  therefore the newest write where it reaches and the older contents elsewhere.  This file holds the layout facts used
  for every width: a unit row sliced out of a stack of rows, a unit row broadcast over `w` rows, `w` unit rows laid
  end to end, and the contents after one more write on the leading rows.
-/
import Idealize.ShloMosaic.Lib.Pipeline.Value
import Idealize.ShloMosaic.Lib.Pipeline.FrameBody
import Idealize.ShloMosaic.Lib.ValueIdx
import Idealize.ShloMosaic.Lib.ValueLayout
import proofs.«112433_j52664888984120_2_alg».proof.Proof.Spec

noncomputable section

namespace Lpc

open Idealize.ShloMosaic Idealize.ShloMosaic.ValueIdx

variable {α : Type}

theorem hz3 : (![0, 0, 0] : Fin 3 → Nat) = fun _ => 0 := funext fun a => by fin_cases a <;> rfl

/-- One row broadcast over `w` rows reads, at row `n`, that one row. -/
theorem bcast_mid_apply {w : ℕ} (v : (⟨3, ![64, 1, 256]⟩ : Shape).Idx → α)
    (h : (⟨3, ![64, 1, 256]⟩ : Shape).Broadcasts ⟨3, ![64, w, 256]⟩) (b : Fin 64) (n : Fin w) (l : Fin 256) :
    broadcastTo ⟨3, ![64, w, 256]⟩ v h (ix3 b n l) = v (ix3 b (0 : Fin 1) l) := by
  refine broadcastTo_apply v h (ix3 b n l) (ix3 b (0 : Fin 1) l) fun ax => ?_
  match ax with
  | ⟨0, _⟩ => rfl
  | ⟨1, _⟩ => rfl
  | ⟨2, _⟩ => rfl

/-- `w` unit rows laid end to end along the row axis read, at row `n`, the `n`-th of them. -/
theorem concat_rows_apply {w : ℕ} (f : Fin w → ((⟨3, ![64, 1, 256]⟩ : Shape).Idx → α))
    (h : Shape.Concatenates ((List.ofFn fun n : Fin w => (⟨⟨3, ![64, 1, 256]⟩, f n⟩ : (s : Shape) × (s.Idx → α))).map (·.1))
      ⟨3, ![64, w, 256]⟩ 1)
    (b : Fin 64) (n : Fin w) (l : Fin 256) :
    concatenate ⟨3, ![64, w, 256]⟩ 1 (List.ofFn fun n : Fin w => (⟨⟨3, ![64, 1, 256]⟩, f n⟩ : (s : Shape) × (s.Idx → α))) h (ix3 b n l)
      = f n (ix3 b (0 : Fin 1) l) :=
  concatenate_ofFn_unit_apply 1 f h rfl rfl (ix3 b n l) n rfl (ix3 b (0 : Fin 1) l) (fun a ha => by
    match a with
    | ⟨0, _⟩ => rfl
    | ⟨1, _⟩ => exact absurd rfl ha
    | ⟨2, _⟩ => rfl)

/-- Row `o` of a stack of `w` rows is a unit slice of it. -/
theorem slices_row (w o : ℕ) (ho : o < w) : (⟨3, ![64, w, 256]⟩ : Shape).Slices ![0, o, 0] ⟨3, ![64, 1, 256]⟩ :=
  ⟨rfl, fun a => by
    match a with
    | ⟨0, _⟩ => exact Nat.le_refl _
    | ⟨1, _⟩ => exact ho
    | ⟨2, _⟩ => exact Nat.le_refl _⟩

/-- The rows of a stack laid end to end in the opposite order read, at row `n`, the stack's row `w - 1 - n`. -/
theorem rev_concat_apply {w : ℕ} (A : (⟨3, ![64, w, 256]⟩ : Shape).Idx → α) (xs : List ((s : Shape) × (s.Idx → α)))
    (hc : Shape.Concatenates (xs.map (·.1)) ⟨3, ![64, w, 256]⟩ 1)
    (hxs : xs = List.ofFn fun k : Fin w => (⟨⟨3, ![64, 1, 256]⟩,
      extractStridedSlice ⟨3, ![64, 1, 256]⟩ ![0, w - 1 - k.val, 0] A (slices_row w (w - 1 - k.val) (by have := k.isLt; omega))⟩ :
        (s : Shape) × (s.Idx → α)))
    (b : Fin 64) (n : Fin w) (l : Fin 256) :
    concatenate ⟨3, ![64, w, 256]⟩ 1 xs hc (ix3 b n l) = A (ix3 b ⟨w - 1 - n.val, by have := n.isLt; omega⟩ l) := by
  subst hxs
  rw [concat_rows_apply _ hc b n l]
  exact slice3_axis1_apply _ A _ b (0 : Fin 1) l ⟨w - 1 - n.val, by have := n.isLt; omega⟩ rfl

/-- The first row of a stack of rows is a unit slice of it at offset zero. -/
theorem slice_row0 {t : ℕ} (T : (⟨3, ![64, t + 1, 256]⟩ : Shape).Idx → α)
    (h : (⟨3, ![64, t + 1, 256]⟩ : Shape).Slices ![0, 0, 0] ⟨3, ![64, 1, 256]⟩) (b : Fin 64) (l : Fin 256) :
    extractStridedSlice ⟨3, ![64, 1, 256]⟩ ![0, 0, 0] T h (ix3 b (0 : Fin 1) l) = T (ix3 b (0 : Fin (t + 1)) l) :=
  slice3_axis1_apply 0 T h b (0 : Fin 1) l (0 : Fin (t + 1)) (by simp)

/-- A load of `w` rows from row `o` on, after the writes `L`, reads the contents they leave at row `o + n`. -/
theorem readCov_rows {sig : RefSig} {κ : Kind} {sp : Space} (v : View sig κ sp (⟨3, ![64, 16, 256]⟩ : Shape) EltTy.f32)
    (L : List (View.Piece (Elt Ideal) (⟨3, ![64, 16, 256]⟩ : Shape) EltTy.f32)) {o w : ℕ}
    (inb : ∀ a, (![0, o, 0] : Fin 3 → ℕ) a + (![64, w, 256] : Fin 3 → ℕ) a ≤ (⟨3, ![64, 16, 256]⟩ : Shape).size a)
    (b : Fin 64) (n : Fin w) (l : Fin 256) (hn : o + n.val < 16) :
    v.readCov L (Rect.unit (s := ⟨3, ![64, 16, 256]⟩) ![0, o, 0] ![64, w, 256] inb).toLoadRect (ix3 b n l)
      = View.canon L (ix3 b ⟨o + n.val, hn⟩ l) := by
  rw [View.readCov_eq_canon']
  refine congrArg (View.canon L) (funext fun a => ?_)
  match a with
  | ⟨0, _⟩ => exact Fin.ext (by simp [LoadRect.idx_apply])
  | ⟨1, _⟩ => exact Fin.ext (by simp [LoadRect.idx_apply])
  | ⟨2, _⟩ => exact Fin.ext (by simp [LoadRect.idx_apply])

/-- The contents after one more write on the `w` leading rows: the write's payload there, the older contents below. -/
theorem canon_step {w : ℕ}
    (inb : ∀ a, (![0, 0, 0] : Fin 3 → ℕ) a + (![64, w, 256] : Fin 3 → ℕ) a ≤ (⟨3, ![64, 16, 256]⟩ : Shape).size a)
    (P : (Rect.unit (s := ⟨3, ![64, 16, 256]⟩) ![0, 0, 0] ![64, w, 256] inb).shape.Idx → Elt Ideal EltTy.f32)
    (L : List (View.Piece (Elt Ideal) (⟨3, ![64, 16, 256]⟩ : Shape) EltTy.f32))
    (b : Fin 64) (n : Fin 16) (l : Fin 256) :
    View.canon (⟨Rect.unit ![0, 0, 0] ![64, w, 256] inb, P⟩ :: L) (ix3 b n l)
      = if h : n.val < w then P (ix3 b ⟨n.val, h⟩ l) else View.canon L (ix3 b n l) := by
  by_cases h : n.val < w
  · rw [dif_pos h]
    have e : (ix3 b n l : (⟨3, ![64, 16, 256]⟩ : Shape).Idx)
        = (Rect.unit (s := ⟨3, ![64, 16, 256]⟩) ![0, 0, 0] ![64, w, 256] inb).emb (ix3 b ⟨n.val, h⟩ l) := by
      funext a
      match a with
      | ⟨0, _⟩ => exact Fin.ext (by simp [Rect.emb_apply])
      | ⟨1, _⟩ => exact Fin.ext (by simp [Rect.emb_apply])
      | ⟨2, _⟩ => exact Fin.ext (by simp [Rect.emb_apply])
    rw [e, View.canon_cons_emb]
  · rw [dif_neg h]
    refine View.canon_cons_of_not_mem _ L ?_
    rw [Rect.mem_set_unit]
    intro hm
    have := (hm ⟨1, by decide⟩).2
    exact h (by simpa using this)

/-- A load of the `w` leading rows, in a column whose older contents hold the row `r`. -/
theorem word_lead {sig : RefSig} {κ : Kind} {sp : Space} (v : View sig κ sp (⟨3, ![64, 16, 256]⟩ : Shape) EltTy.f32)
    (L : List (View.Piece (Elt Ideal) (⟨3, ![64, 16, 256]⟩ : Shape) EltTy.f32)) {w : ℕ}
    (inb : ∀ a, (![0, 0, 0] : Fin 3 → ℕ) a + (![64, w, 256] : Fin 3 → ℕ) a ≤ (⟨3, ![64, 16, 256]⟩ : Shape).size a)
    (b : Fin 64) (l : Fin 256) (r : Row) (hL : ∀ n : Fin 16, View.canon L (ix3 b n l) = r n.val) (hw : w ≤ 16) (n : Fin w) :
    v.readCov L (Rect.unit (s := ⟨3, ![64, 16, 256]⟩) ![0, 0, 0] ![64, w, 256] inb).toLoadRect (ix3 b n l) = r n.val := by
  rw [readCov_rows v L inb b n l (by have := n.isLt; omega)]
  exact (hL ⟨0 + n.val, by have := n.isLt; omega⟩).trans (by simp)

/-- A load of the rows from row `w` on, read on its first row. -/
theorem word_tail {sig : RefSig} {κ : Kind} {sp : Space} (v : View sig κ sp (⟨3, ![64, 16, 256]⟩ : Shape) EltTy.f32)
    (L : List (View.Piece (Elt Ideal) (⟨3, ![64, 16, 256]⟩ : Shape) EltTy.f32)) {w t : ℕ}
    (inb : ∀ a, (![0, w, 0] : Fin 3 → ℕ) a + (![64, t + 1, 256] : Fin 3 → ℕ) a ≤ (⟨3, ![64, 16, 256]⟩ : Shape).size a)
    (b : Fin 64) (l : Fin 256) (r : Row) (hL : ∀ n : Fin 16, View.canon L (ix3 b n l) = r n.val) (hw : w < 16) :
    v.readCov L (Rect.unit (s := ⟨3, ![64, 16, 256]⟩) ![0, w, 0] ![64, t + 1, 256] inb).toLoadRect (ix3 b (0 : Fin (t + 1)) l) = r w := by
  rw [readCov_rows v L inb b (0 : Fin (t + 1)) l (by simpa using hw)]
  exact (hL ⟨w + (0 : Fin (t + 1)).val, by simpa using hw⟩).trans (by simp)

/-- What a step of width `w` stores on row `n`, from the leading rows `A` and the reflection coefficient `kr`. -/
def stepVal {w : ℕ} (A : (⟨3, ![64, w, 256]⟩ : Shape).Idx → EReal) (kr : EReal) (b : Fin 64) (n : Fin w) (l : Fin 256) : EReal :=
  (A (ix3 b n l) - kr * A (ix3 b ⟨w - 1 - n.val, by have := n.isLt; omega⟩ l)) * Ideal.div one (one - kr * kr)

/-- One step on one column of the tile.  If the older contents hold the row `r` in column `(b, l)`, the leading rows
    `A` and the coefficient `kr` the step loaded are those contents, and the step's payload is its value of them, then
    the newer contents hold `stepK w r` in that column. -/
theorem canon_stepK {w : ℕ} (hw : w < 16)
    (inb : ∀ a, (![0, 0, 0] : Fin 3 → ℕ) a + (![64, w, 256] : Fin 3 → ℕ) a ≤ (⟨3, ![64, 16, 256]⟩ : Shape).size a)
    (P : (Rect.unit (s := ⟨3, ![64, 16, 256]⟩) ![0, 0, 0] ![64, w, 256] inb).shape.Idx → Elt Ideal EltTy.f32)
    (L : List (View.Piece (Elt Ideal) (⟨3, ![64, 16, 256]⟩ : Shape) EltTy.f32))
    (b : Fin 64) (l : Fin 256) (r : Row)
    (A : (⟨3, ![64, w, 256]⟩ : Shape).Idx → EReal) (kr : EReal)
    (hL : ∀ n : Fin 16, View.canon L (ix3 b n l) = r n.val)
    (hA : ∀ n : Fin w, A (ix3 b n l) = r n.val)
    (hk : kr = r w)
    (hP : ∀ n : Fin w, P (ix3 b n l) = stepVal A kr b n l)
    (n : Fin 16) :
    View.canon (⟨Rect.unit ![0, 0, 0] ![64, w, 256] inb, P⟩ :: L) (ix3 b n l) = stepK w r n.val := by
  rw [canon_step]
  unfold stepK
  by_cases h : n.val < w
  · rw [dif_pos h, if_pos h, hP ⟨n.val, h⟩]
    unfold stepVal
    rw [hA ⟨n.val, h⟩, hA ⟨w - 1 - n.val, by omega⟩, hk]
  · rw [dif_neg h, if_neg h, hL]

end Lpc

end
-- ==== Proof.KerPay.lean ====
/-
  The arithmetic of one step of the body, read at one entry.  A step of width `w` loads the `w` leading coefficient
  rows `A` and the remaining rows `T` of the tile (the first of which is the reflection coefficient `k`), and stores
  `(A_n - k · A_{w-1-n}) · (1 / (1 - k²))` on row `n`: the reversed rows are `w` unit slices laid end to end, and `k`
  and the reciprocal are one row broadcast over `w` rows.
-/
import proofs.«112433_j52664888984120_2_alg».proof.Proof.Gen.KernelIdeal.Skeleton
import proofs.«112433_j52664888984120_2_alg».proof.Proof.KerStep

set_option maxRecDepth 16384

noncomputable section

namespace Cert.KernelIdeal.Body

open Idealize.ShloMosaic Idealize.ShloMosaic.ValueIdx Cert.KernelIdeal Cert.KernelIdeal.Gen

theorem pay_s1 (A : Vec Ideal S64x15x256 .f32) (T : Vec Ideal S64x1x256 .f32) (b : Fin 64) (n : Fin 15) (l : Fin 256) :
    k0_pay4 A T (ix3 b n l) = Lpc.stepVal A (T (ix3 b (0 : Fin 1) l)) b n l := by
  unfold k0_pay4 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s2 (A : Vec Ideal S64x14x256 .f32) (T : Vec Ideal S64x2x256 .f32) (b : Fin 64) (n : Fin 14) (l : Fin 256) :
    k0_pay5 A T (ix3 b n l) = Lpc.stepVal A (T (ix3 b (0 : Fin 2) l)) b n l := by
  unfold k0_pay5 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s3 (A : Vec Ideal S64x13x256 .f32) (T : Vec Ideal S64x3x256 .f32) (b : Fin 64) (n : Fin 13) (l : Fin 256) :
    k0_pay19 A (k0_pay6 T) (k0_pay7 A) (k0_pay8 A) (k0_pay9 A) (k0_pay10 A) (k0_pay11 A) (k0_pay12 A) (k0_pay13 A) (k0_pay14 A) (k0_pay15 A) (k0_pay16 A) (k0_pay17 A) (k0_pay18 A) (ix3 b n l) = Lpc.stepVal A (T (ix3 b (0 : Fin 3) l)) b n l := by
  unfold k0_pay19 k0_pay6 k0_pay7 k0_pay8 k0_pay9 k0_pay10 k0_pay11 k0_pay12 k0_pay13 k0_pay14 k0_pay15 k0_pay16 k0_pay17 k0_pay18 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s4 (A : Vec Ideal S64x12x256 .f32) (T : Vec Ideal S64x4x256 .f32) (b : Fin 64) (n : Fin 12) (l : Fin 256) :
    k0_pay21 (k0_pay20 A T) (ix3 b n l) = Lpc.stepVal A (T (ix3 b (0 : Fin 4) l)) b n l := by
  unfold k0_pay21 k0_pay20 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s5 (A : Vec Ideal S64x11x256 .f32) (T : Vec Ideal S64x5x256 .f32) (b : Fin 64) (n : Fin 11) (l : Fin 256) :
    k0_pay22 A T (ix3 b n l) = Lpc.stepVal A (T (ix3 b (0 : Fin 5) l)) b n l := by
  unfold k0_pay22 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s6 (A : Vec Ideal S64x10x256 .f32) (T : Vec Ideal S64x6x256 .f32) (b : Fin 64) (n : Fin 10) (l : Fin 256) :
    k0_pay33 A (k0_pay23 T) (k0_pay24 A) (k0_pay25 A) (k0_pay26 A) (k0_pay27 A) (k0_pay28 A) (k0_pay29 A) (k0_pay30 A) (k0_pay31 A) (k0_pay32 A) (ix3 b n l) = Lpc.stepVal A (T (ix3 b (0 : Fin 6) l)) b n l := by
  unfold k0_pay33 k0_pay23 k0_pay24 k0_pay25 k0_pay26 k0_pay27 k0_pay28 k0_pay29 k0_pay30 k0_pay31 k0_pay32 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s7 (A : Vec Ideal S64x9x256 .f32) (T : Vec Ideal S64x7x256 .f32) (b : Fin 64) (n : Fin 9) (l : Fin 256) :
    k0_pay34 A T (ix3 b n l) = Lpc.stepVal A (T (ix3 b (0 : Fin 7) l)) b n l := by
  unfold k0_pay34 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s8 (A : Vec Ideal S64x8x256 .f32) (T : Vec Ideal S64x8x256 .f32) (b : Fin 64) (n : Fin 8) (l : Fin 256) :
    k0_pay35 A T (ix3 b n l) = Lpc.stepVal A (T (ix3 b (0 : Fin 8) l)) b n l := by
  unfold k0_pay35 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s9 (A : Vec Ideal S64x7x256 .f32) (T : Vec Ideal S64x9x256 .f32) (b : Fin 64) (n : Fin 7) (l : Fin 256) :
    k0_pay39 A (k0_pay36 T) (k0_pay37 A) (k0_pay38 T) (ix3 b n l) = Lpc.stepVal A (T (ix3 b (0 : Fin 9) l)) b n l := by
  unfold k0_pay39 k0_pay37 k0_pay38 k0_pay36 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s10 (A : Vec Ideal S64x6x256 .f32) (T : Vec Ideal S64x10x256 .f32) (b : Fin 64) (n : Fin 6) (l : Fin 256) :
    k0_pay40 A T (ix3 b n l) = Lpc.stepVal A (T (ix3 b (0 : Fin 10) l)) b n l := by
  unfold k0_pay40 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s11 (A : Vec Ideal S64x5x256 .f32) (T : Vec Ideal S64x11x256 .f32) (b : Fin 64) (n : Fin 5) (l : Fin 256) :
    k0_pay46 A (k0_pay41 T) (k0_pay42 A) (k0_pay43 A) (k0_pay44 A) (k0_pay45 A) (ix3 b n l) = Lpc.stepVal A (T (ix3 b (0 : Fin 11) l)) b n l := by
  unfold k0_pay46 k0_pay41 k0_pay42 k0_pay43 k0_pay44 k0_pay45 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s12 (A : Vec Ideal S64x4x256 .f32) (T : Vec Ideal S64x12x256 .f32) (b : Fin 64) (n : Fin 4) (l : Fin 256) :
    k0_pay47 A T (ix3 b n l) = Lpc.stepVal A (T (ix3 b (0 : Fin 12) l)) b n l := by
  unfold k0_pay47 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s13 (A : Vec Ideal S64x3x256 .f32) (T : Vec Ideal S64x13x256 .f32) (b : Fin 64) (n : Fin 3) (l : Fin 256) :
    k0_pay48 A T (ix3 b n l) = Lpc.stepVal A (T (ix3 b (0 : Fin 13) l)) b n l := by
  unfold k0_pay48 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s14 (A : Vec Ideal S64x2x256 .f32) (T : Vec Ideal S64x14x256 .f32) (b : Fin 64) (n : Fin 2) (l : Fin 256) :
    k0_pay49 A T (ix3 b n l) = Lpc.stepVal A (T (ix3 b (0 : Fin 14) l)) b n l := by
  unfold k0_pay49 Lpc.stepVal
  simp only [shapeCast_self, mulf_apply, subf_apply, divf_apply, broadcast_apply, Lpc.bcast_mid_apply, Lpc.slice_row0]
  refine congrArg₂ (· * ·) (congrArg₂ (· - ·) rfl (congrArg₂ (· * ·) rfl ?_)) rfl
  refine Lpc.rev_concat_apply A _ _ ?_ b n l
  rfl

theorem pay_s15 (A : Vec Ideal S64x1x256 .f32) (T : Vec Ideal S64x15x256 .f32) (b : Fin 64) (n : Fin 1) (l : Fin 256) :
    k0_pay1 A T (ix3 b n l) = Lpc.stepVal A (T (ix3 b (0 : Fin 15) l)) b n l := by
  obtain rfl : n = 0 := Subsingleton.elim _ _
  unfold k0_pay1 Lpc.stepVal
  simp only [shapeCast_self, mulf_apply, subf_apply, divf_apply, broadcast_apply, Lpc.slice_row0]
  rfl

end Cert.KernelIdeal.Body

end
-- ==== Proof.KerBody.lean ====
/-
  The body's value, one column of the tile at a time.  The body moves its input block into a scratch tile with the
  coefficient axis in the middle, runs the fifteen steps in place, each rewriting the leading rows from the rows it has
  just loaded, and moves the tile back.  The scratch contents after `k` steps are the newest writes over the older ones;
  in column `(b, l)` they hold `k` steps of the recursion, in its reciprocal form, of the input block's row `(b, l)`:
  by one step at a time, each through the step's arithmetic at an entry and the loads read as the older contents.
-/
import proofs.«112433_j52664888984120_2_alg».proof.Proof.Gen.KernelIdeal.Frame
import proofs.«112433_j52664888984120_2_alg».proof.Proof.KerPay

set_option maxRecDepth 16384

noncomputable section

namespace Cert.KernelIdeal.Body

open Idealize.ShloMosaic Idealize.ShloMosaic.TcCoe Idealize.ShloMosaic.ValueIdx Cert.KernelIdeal Cert.KernelIdeal.Gen

variable (c : Dev nD) (a1 : Memref sig .tc .vmem S64x256x16 .f32) (h1 : a1.IsWhole)
  (a3 : Memref sig .tc .vmem S64x16x256 .f32) (x : Vec Ideal S64x256x16 .f32)

/-- The tile as first filled: the input block with its last two axes exchanged. -/
theorem scr1 (b : Fin 64) (l : Fin 256) (n : Fin 16) :
    View.canon (kernelRun0_A.sl.HS0_1 (F := Ideal) c a1 h1 x) (ix3 b n l) = Lpc.iterK 0 (Lpc.rowOfBlk x b l) n.val := by
  unfold kernelRun0_A.sl.HS0_1
  rw [View.canon_unit_zero Lpc.hz3]
  unfold k0_pay3
  simp only [shapeCast_self, View.readAt_eq_ld, h1.read_unread, View.ld_unit_zero (S := S64x256x16) Lpc.hz3]
  rw [transpose_ix3_021_apply]
  show _ = Lpc.rowOfBlk x b l n.val
  unfold Lpc.rowOfBlk
  rw [dif_pos n.isLt]

/-- After step 1 (width 15). -/
theorem scr2 (b : Fin 64) (l : Fin 256) (n : Fin 16) :
    View.canon (kernelRun0_A.sl.HS0_2 (F := Ideal) c a1 h1 a3 x) (ix3 b n l) = Lpc.iterK 1 (Lpc.rowOfBlk x b l) n.val := by
  unfold kernelRun0_A.sl.HS0_2
  exact Lpc.canon_stepK (w := 15) (by omega) _ _ _ b l (Lpc.iterK 0 (Lpc.rowOfBlk x b l))
    (kernelRun0_A.sl.v5 c a1 h1 a3 x) (kernelRun0_A.sl.v6 c a1 h1 a3 x (ix3 b (0 : Fin 1) l))
    (scr1 c a1 h1 x b l)
    (fun n' => Lpc.word_lead a3.view _ _ b l _ (scr1 c a1 h1 x b l) (by omega) n')
    (Lpc.word_tail (t := 0) a3.view _ _ b l _ (scr1 c a1 h1 x b l) (by omega))
    (fun n' => pay_s1 _ _ b n' l) n

/-- After step 2 (width 14). -/
theorem scr3 (b : Fin 64) (l : Fin 256) (n : Fin 16) :
    View.canon (kernelRun0_A.sl.HS0_3 (F := Ideal) c a1 h1 a3 x) (ix3 b n l) = Lpc.iterK 2 (Lpc.rowOfBlk x b l) n.val := by
  unfold kernelRun0_A.sl.HS0_3
  exact Lpc.canon_stepK (w := 14) (by omega) _ _ _ b l (Lpc.iterK 1 (Lpc.rowOfBlk x b l))
    (kernelRun0_A.sl.v c a1 h1 a3 x) (kernelRun0_A.sl.v37 c a1 h1 a3 x (ix3 b (0 : Fin 2) l))
    (scr2 c a1 h1 a3 x b l)
    (fun n' => Lpc.word_lead a3.view _ _ b l _ (scr2 c a1 h1 a3 x b l) (by omega) n')
    (Lpc.word_tail (t := 1) a3.view _ _ b l _ (scr2 c a1 h1 a3 x b l) (by omega))
    (fun n' => pay_s2 _ _ b n' l) n

/-- After step 3 (width 13). -/
theorem scr4 (b : Fin 64) (l : Fin 256) (n : Fin 16) :
    View.canon (kernelRun0_A.sl.HS0_4 (F := Ideal) c a1 h1 a3 x) (ix3 b n l) = Lpc.iterK 3 (Lpc.rowOfBlk x b l) n.val := by
  unfold kernelRun0_A.sl.HS0_4 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12
  exact Lpc.canon_stepK (w := 13) (by omega) _ _ _ b l (Lpc.iterK 2 (Lpc.rowOfBlk x b l))
    (kernelRun0_A.sl.v67 c a1 h1 a3 x) (kernelRun0_A.sl.v68 c a1 h1 a3 x (ix3 b (0 : Fin 3) l))
    (scr3 c a1 h1 a3 x b l)
    (fun n' => Lpc.word_lead a3.view _ _ b l _ (scr3 c a1 h1 a3 x b l) (by omega) n')
    (Lpc.word_tail (t := 2) a3.view _ _ b l _ (scr3 c a1 h1 a3 x b l) (by omega))
    (fun n' => pay_s3 _ _ b n' l) n

/-- After step 4 (width 12). -/
theorem scr5 (b : Fin 64) (l : Fin 256) (n : Fin 16) :
    View.canon (kernelRun0_A.sl.HS0_5 (F := Ideal) c a1 h1 a3 x) (ix3 b n l) = Lpc.iterK 4 (Lpc.rowOfBlk x b l) n.val := by
  unfold kernelRun0_A.sl.HS0_5 kernelRun0_A.sl.r_13
  exact Lpc.canon_stepK (w := 12) (by omega) _ _ _ b l (Lpc.iterK 3 (Lpc.rowOfBlk x b l))
    (kernelRun0_A.sl.v97 c a1 h1 a3 x) (kernelRun0_A.sl.v98 c a1 h1 a3 x (ix3 b (0 : Fin 4) l))
    (scr4 c a1 h1 a3 x b l)
    (fun n' => Lpc.word_lead a3.view _ _ b l _ (scr4 c a1 h1 a3 x b l) (by omega) n')
    (Lpc.word_tail (t := 3) a3.view _ _ b l _ (scr4 c a1 h1 a3 x b l) (by omega))
    (fun n' => pay_s4 _ _ b n' l) n

/-- After step 5 (width 11). -/
theorem scr6 (b : Fin 64) (l : Fin 256) (n : Fin 16) :
    View.canon (kernelRun0_A.sl.HS0_6 (F := Ideal) c a1 h1 a3 x) (ix3 b n l) = Lpc.iterK 5 (Lpc.rowOfBlk x b l) n.val := by
  unfold kernelRun0_A.sl.HS0_6
  exact Lpc.canon_stepK (w := 11) (by omega) _ _ _ b l (Lpc.iterK 4 (Lpc.rowOfBlk x b l))
    (kernelRun0_A.sl.v126 c a1 h1 a3 x) (kernelRun0_A.sl.v127 c a1 h1 a3 x (ix3 b (0 : Fin 5) l))
    (scr5 c a1 h1 a3 x b l)
    (fun n' => Lpc.word_lead a3.view _ _ b l _ (scr5 c a1 h1 a3 x b l) (by omega) n')
    (Lpc.word_tail (t := 4) a3.view _ _ b l _ (scr5 c a1 h1 a3 x b l) (by omega))
    (fun n' => pay_s5 _ _ b n' l) n

/-- After step 6 (width 10). -/
theorem scr7 (b : Fin 64) (l : Fin 256) (n : Fin 16) :
    View.canon (kernelRun0_A.sl.HS0_7 (F := Ideal) c a1 h1 a3 x) (ix3 b n l) = Lpc.iterK 6 (Lpc.rowOfBlk x b l) n.val := by
  unfold kernelRun0_A.sl.HS0_7 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23
  exact Lpc.canon_stepK (w := 10) (by omega) _ _ _ b l (Lpc.iterK 5 (Lpc.rowOfBlk x b l))
    (kernelRun0_A.sl.v154 c a1 h1 a3 x) (kernelRun0_A.sl.v155 c a1 h1 a3 x (ix3 b (0 : Fin 6) l))
    (scr6 c a1 h1 a3 x b l)
    (fun n' => Lpc.word_lead a3.view _ _ b l _ (scr6 c a1 h1 a3 x b l) (by omega) n')
    (Lpc.word_tail (t := 5) a3.view _ _ b l _ (scr6 c a1 h1 a3 x b l) (by omega))
    (fun n' => pay_s6 _ _ b n' l) n

/-- After step 7 (width 9). -/
theorem scr8 (b : Fin 64) (l : Fin 256) (n : Fin 16) :
    View.canon (kernelRun0_A.sl.HS0_8 (F := Ideal) c a1 h1 a3 x) (ix3 b n l) = Lpc.iterK 7 (Lpc.rowOfBlk x b l) n.val := by
  unfold kernelRun0_A.sl.HS0_8
  exact Lpc.canon_stepK (w := 9) (by omega) _ _ _ b l (Lpc.iterK 6 (Lpc.rowOfBlk x b l))
    (kernelRun0_A.sl.v181 c a1 h1 a3 x) (kernelRun0_A.sl.v182 c a1 h1 a3 x (ix3 b (0 : Fin 7) l))
    (scr7 c a1 h1 a3 x b l)
    (fun n' => Lpc.word_lead a3.view _ _ b l _ (scr7 c a1 h1 a3 x b l) (by omega) n')
    (Lpc.word_tail (t := 6) a3.view _ _ b l _ (scr7 c a1 h1 a3 x b l) (by omega))
    (fun n' => pay_s7 _ _ b n' l) n

/-- After step 8 (width 8). -/
theorem scr9 (b : Fin 64) (l : Fin 256) (n : Fin 16) :
    View.canon (kernelRun0_A.sl.HS0_9 (F := Ideal) c a1 h1 a3 x) (ix3 b n l) = Lpc.iterK 8 (Lpc.rowOfBlk x b l) n.val := by
  unfold kernelRun0_A.sl.HS0_9
  exact Lpc.canon_stepK (w := 8) (by omega) _ _ _ b l (Lpc.iterK 7 (Lpc.rowOfBlk x b l))
    (kernelRun0_A.sl.v207 c a1 h1 a3 x) (kernelRun0_A.sl.v208 c a1 h1 a3 x (ix3 b (0 : Fin 8) l))
    (scr8 c a1 h1 a3 x b l)
    (fun n' => Lpc.word_lead a3.view _ _ b l _ (scr8 c a1 h1 a3 x b l) (by omega) n')
    (Lpc.word_tail (t := 7) a3.view _ _ b l _ (scr8 c a1 h1 a3 x b l) (by omega))
    (fun n' => pay_s8 _ _ b n' l) n

/-- After step 9 (width 7). -/
theorem scr10 (b : Fin 64) (l : Fin 256) (n : Fin 16) :
    View.canon (kernelRun0_A.sl.HS0_10 (F := Ideal) c a1 h1 a3 x) (ix3 b n l) = Lpc.iterK 9 (Lpc.rowOfBlk x b l) n.val := by
  unfold kernelRun0_A.sl.HS0_10 kernelRun0_A.sl.r_24 kernelRun0_A.sl.r_25 kernelRun0_A.sl.r_26
  exact Lpc.canon_stepK (w := 7) (by omega) _ _ _ b l (Lpc.iterK 8 (Lpc.rowOfBlk x b l))
    (kernelRun0_A.sl.v232 c a1 h1 a3 x) (kernelRun0_A.sl.v233 c a1 h1 a3 x (ix3 b (0 : Fin 9) l))
    (scr9 c a1 h1 a3 x b l)
    (fun n' => Lpc.word_lead a3.view _ _ b l _ (scr9 c a1 h1 a3 x b l) (by omega) n')
    (Lpc.word_tail (t := 8) a3.view _ _ b l _ (scr9 c a1 h1 a3 x b l) (by omega))
    (fun n' => pay_s9 _ _ b n' l) n

/-- After step 10 (width 6). -/
theorem scr11 (b : Fin 64) (l : Fin 256) (n : Fin 16) :
    View.canon (kernelRun0_A.sl.HS0_11 (F := Ideal) c a1 h1 a3 x) (ix3 b n l) = Lpc.iterK 10 (Lpc.rowOfBlk x b l) n.val := by
  unfold kernelRun0_A.sl.HS0_11
  exact Lpc.canon_stepK (w := 6) (by omega) _ _ _ b l (Lpc.iterK 9 (Lpc.rowOfBlk x b l))
    (kernelRun0_A.sl.v256 c a1 h1 a3 x) (kernelRun0_A.sl.v257 c a1 h1 a3 x (ix3 b (0 : Fin 10) l))
    (scr10 c a1 h1 a3 x b l)
    (fun n' => Lpc.word_lead a3.view _ _ b l _ (scr10 c a1 h1 a3 x b l) (by omega) n')
    (Lpc.word_tail (t := 9) a3.view _ _ b l _ (scr10 c a1 h1 a3 x b l) (by omega))
    (fun n' => pay_s10 _ _ b n' l) n

/-- After step 11 (width 5). -/
theorem scr12 (b : Fin 64) (l : Fin 256) (n : Fin 16) :
    View.canon (kernelRun0_A.sl.HS0_12 (F := Ideal) c a1 h1 a3 x) (ix3 b n l) = Lpc.iterK 11 (Lpc.rowOfBlk x b l) n.val := by
  unfold kernelRun0_A.sl.HS0_12 kernelRun0_A.sl.r_27 kernelRun0_A.sl.r_28 kernelRun0_A.sl.r_29 kernelRun0_A.sl.r_30 kernelRun0_A.sl.r_31
  exact Lpc.canon_stepK (w := 5) (by omega) _ _ _ b l (Lpc.iterK 10 (Lpc.rowOfBlk x b l))
    (kernelRun0_A.sl.v279 c a1 h1 a3 x) (kernelRun0_A.sl.v280 c a1 h1 a3 x (ix3 b (0 : Fin 11) l))
    (scr11 c a1 h1 a3 x b l)
    (fun n' => Lpc.word_lead a3.view _ _ b l _ (scr11 c a1 h1 a3 x b l) (by omega) n')
    (Lpc.word_tail (t := 10) a3.view _ _ b l _ (scr11 c a1 h1 a3 x b l) (by omega))
    (fun n' => pay_s11 _ _ b n' l) n

/-- After step 12 (width 4). -/
theorem scr13 (b : Fin 64) (l : Fin 256) (n : Fin 16) :
    View.canon (kernelRun0_A.sl.HS0_13 (F := Ideal) c a1 h1 a3 x) (ix3 b n l) = Lpc.iterK 12 (Lpc.rowOfBlk x b l) n.val := by
  unfold kernelRun0_A.sl.HS0_13
  exact Lpc.canon_stepK (w := 4) (by omega) _ _ _ b l (Lpc.iterK 11 (Lpc.rowOfBlk x b l))
    (kernelRun0_A.sl.v301 c a1 h1 a3 x) (kernelRun0_A.sl.v302 c a1 h1 a3 x (ix3 b (0 : Fin 12) l))
    (scr12 c a1 h1 a3 x b l)
    (fun n' => Lpc.word_lead a3.view _ _ b l _ (scr12 c a1 h1 a3 x b l) (by omega) n')
    (Lpc.word_tail (t := 11) a3.view _ _ b l _ (scr12 c a1 h1 a3 x b l) (by omega))
    (fun n' => pay_s12 _ _ b n' l) n

/-- After step 13 (width 3). -/
theorem scr14 (b : Fin 64) (l : Fin 256) (n : Fin 16) :
    View.canon (kernelRun0_A.sl.HS0_14 (F := Ideal) c a1 h1 a3 x) (ix3 b n l) = Lpc.iterK 13 (Lpc.rowOfBlk x b l) n.val := by
  unfold kernelRun0_A.sl.HS0_14
  exact Lpc.canon_stepK (w := 3) (by omega) _ _ _ b l (Lpc.iterK 12 (Lpc.rowOfBlk x b l))
    (kernelRun0_A.sl.v_1 c a1 h1 a3 x) (kernelRun0_A.sl.v323 c a1 h1 a3 x (ix3 b (0 : Fin 13) l))
    (scr13 c a1 h1 a3 x b l)
    (fun n' => Lpc.word_lead a3.view _ _ b l _ (scr13 c a1 h1 a3 x b l) (by omega) n')
    (Lpc.word_tail (t := 12) a3.view _ _ b l _ (scr13 c a1 h1 a3 x b l) (by omega))
    (fun n' => pay_s13 _ _ b n' l) n

/-- After step 14 (width 2). -/
theorem scr15 (b : Fin 64) (l : Fin 256) (n : Fin 16) :
    View.canon (kernelRun0_A.sl.HS0_15 (F := Ideal) c a1 h1 a3 x) (ix3 b n l) = Lpc.iterK 14 (Lpc.rowOfBlk x b l) n.val := by
  unfold kernelRun0_A.sl.HS0_15
  exact Lpc.canon_stepK (w := 2) (by omega) _ _ _ b l (Lpc.iterK 13 (Lpc.rowOfBlk x b l))
    (kernelRun0_A.sl.v342 c a1 h1 a3 x) (kernelRun0_A.sl.v343 c a1 h1 a3 x (ix3 b (0 : Fin 14) l))
    (scr14 c a1 h1 a3 x b l)
    (fun n' => Lpc.word_lead a3.view _ _ b l _ (scr14 c a1 h1 a3 x b l) (by omega) n')
    (Lpc.word_tail (t := 13) a3.view _ _ b l _ (scr14 c a1 h1 a3 x b l) (by omega))
    (fun n' => pay_s14 _ _ b n' l) n

/-- After step 15 (width 1). -/
theorem scr16 (b : Fin 64) (l : Fin 256) (n : Fin 16) :
    View.canon (kernelRun0_A.sl.HS0_16 (F := Ideal) c a1 h1 a3 x) (ix3 b n l) = Lpc.iterK 15 (Lpc.rowOfBlk x b l) n.val := by
  unfold kernelRun0_A.sl.HS0_16
  exact Lpc.canon_stepK (w := 1) (by omega) _ _ _ b l (Lpc.iterK 14 (Lpc.rowOfBlk x b l))
    (kernelRun0_A.sl.v361 c a1 h1 a3 x) (kernelRun0_A.sl.v362 c a1 h1 a3 x (ix3 b (0 : Fin 15) l))
    (scr15 c a1 h1 a3 x b l)
    (fun n' => Lpc.word_lead a3.view _ _ b l _ (scr15 c a1 h1 a3 x b l) (by omega) n')
    (Lpc.word_tail (t := 14) a3.view _ _ b l _ (scr15 c a1 h1 a3 x b l) (by omega))
    (fun n' => pay_s15 _ _ b n' l) n

/-- WHAT THE BODY LEAVES in the output block: at batch `b`, local time `s` and coefficient `ch`, fifteen steps of the
    recursion (reciprocal form) of the input block's row `(b, s)`. -/
theorem out_row (c : Dev nD) (i : grid0.Coords) (a1 : Memref sig .tc .vmem S64x256x16 .f32) (h1 : a1.IsWhole)
    (a2 : Memref sig .tc .vmem S64x256x16 .f32) (h2 : a2.IsWhole) (a3 : Memref sig .tc .vmem S64x16x256 .f32) (h3 : a3.IsWhole)
    (x : Vec Ideal S64x256x16 .f32) (b : Fin 64) (s : Fin 256) (ch : Fin 16) :
    Gen.out0_A_1 c i a1 h1 a2 h2 a3 h3 x (ix3 b s ch) = Lpc.iterK 15 (Lpc.rowOfBlk x b s) ch.val := by
  unfold out0_A_1
  rw [View.read_writes_eq_canon _ _ _ (cover0_A_1 c i a1 h1 a2 h2 a3 h3 x)]
  unfold kernelRun0_A
  dsimp only
  rw [View.canon_unit_zero Lpc.hz3]
  unfold k0_pay2 kernelRun0_A.sl.v375
  rw [transpose_ix3_021_apply]
  rw [Lpc.readCov_rows a3.view _ (o := 0) (w := 16) _ b ch s (by have := ch.isLt; omega)]
  exact (scr16 c a1 h1 a3 x b s ⟨0 + ch.val, by have := ch.isLt; omega⟩).trans (by simp)

end Cert.KernelIdeal.Body

end
-- ==== Proof.KerArr.lean ====
/-
  From the blocks to the whole array.  Grid point `t` stages the block of 256 consecutive time steps
  `256 t … 256 t + 255` (all 64 batches, all 16 coefficients) and writes the output block of the same place.
  The body maps each row of its block by the fifteen-step recursion, so what point `t` writes back is the
  block at `t` of ONE function of the input array: row `(b, u)` of the result is the recursion of row `(b, u)`
  of the argument.  Time step `u` lies in the block of point `u / 256`, so the 128 blocks cover the array
  and the array ends holding that function.
-/
import proofs.«112433_j52664888984120_2_alg».proof.Proof.Gen.KernelIdeal.Value
import proofs.«112433_j52664888984120_2_alg».proof.Proof.Spec
import proofs.«112433_j52664888984120_2_alg».proof.Proof.KerBody

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The result as one function of the argument array: entry `(b, u, ch)` is entry `ch` of the fifteen-step
    recursion (reciprocal form) of the argument's row at batch `b` and time `u`. -/
def G (X : S64x32768x16.Idx → EReal) : S64x32768x16.Idx → EReal :=
  fun i => Lpc.iterK 15 (Lpc.rowOf X (i 0) (i 1)) (i 2).val

/-- The printed index maps, decided over the 128 grid points: both windows' block index at point `t` is `(0, t, 0)`. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The body's block at a block index: the recursion of that row of the block (the body lemma, with the index
    split into its coordinates). -/
theorem out_at (c : Dev nD) (i : grid0.Coords) (a1 : Memref sig .tc .vmem S64x256x16 .f32) (h1 : a1.IsWhole)
    (a2 : Memref sig .tc .vmem S64x256x16 .f32) (h2 : a2.IsWhole) (a3 : Memref sig .tc .vmem S64x16x256 .f32) (h3 : a3.IsWhole)
    (x : Vec Ideal S64x256x16 .f32) (y : S64x256x16.Idx) :
    out0_A_1 c i a1 h1 a2 h2 a3 h3 x y = Lpc.iterK 15 (Lpc.rowOfBlk x (y 0) (y 1)) (y 2).val := by
  have e : y = ix3 (y 0) (y 1) (y 2) := eq_ix3 y
  exact (congrArg (out0_A_1 c i a1 h1 a2 h2 a3 h3 x) e).trans (Body.out_row c i a1 h1 a2 h2 a3 h3 x (y 0) (y 1) (y 2))

/-- A row of a block is a row of the whole array, when the block's entries are the array's at
    time offset `T`: block row `(b, s)` is array row `(b, T + s)`. -/
theorem rowOfBlk_eq_rowOf (x : S64x256x16.Idx → EReal) (X : S64x32768x16.Idx → EReal) (T : ℕ)
    (hx : ∀ (y : S64x256x16.Idx) (k : S64x32768x16.Idx), (k 0).val = (y 0).val → (k 1).val = T + (y 1).val →
      (k 2).val = (y 2).val → x y = X k)
    (b : Fin 64) (s : Fin 256) (b' : Fin 64) (u : Fin 32768) (hb : b'.val = b.val) (hu : u.val = T + s.val) :
    Lpc.rowOfBlk x b s = Lpc.rowOf X b' u := by
  funext n
  unfold Lpc.rowOfBlk Lpc.rowOf
  split_ifs with h
  · exact hx (ix3 b s ⟨n, h⟩) (ix3 b' u ⟨n, h⟩) hb hu rfl
  · rfl

/-- The input window's block at point `t` holds the argument's entries at time offset `256 t`. -/
theorem iblk_apply (c : Dev nD) (t : Fin cfg0.N) (y : S64x256x16.Idx) (k : S64x32768x16.Idx)
    (h0 : (k 0).val = (y 0).val) (h1 : (k 1).val = 256 * t.val + (y 1).val) (h2 : (k 2).val = (y 2).val) :
    (iblk m c 0 t : Vec Ideal S64x256x16 .f32) y = (m ((c : Thread nD τ).loc main_arg0) : S64x32768x16.Idx → EReal) k := by
  obtain ⟨e0, e1, e2, -, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 64 + 1 * (y 0).val = (k 0).val; rw [e0, h0]; omega
  | ⟨1, _⟩ => show win0_0.index t (1 : Fin 3) * 256 + 1 * (y 1).val = (k 1).val; rw [e1, h1]; omega
  | ⟨2, _⟩ => show win0_0.index t (2 : Fin 3) * 16 + 1 * (y 2).val = (k 2).val; rw [e2, h2]; omega

/-- WHAT POINT `t` WRITES BACK is block `t` of `G` of the argument array. -/
theorem flushed_eq (c : Dev nD) (t : Fin cfg0.N) :
    (dats m 0 c).flushed 1 t = ((cfg0.win 1).blk t).view.read (Elt Ideal) (G (m ((c : Thread nD τ).loc main_arg0))) := by
  obtain ⟨-, -, -, e0, e1, e2⟩ := idx_facts t
  rw [Value.flushed1_A]
  funext j
  rw [View.read_apply]
  show out0_A_1 c (grid0.coords t) (ms0_0 t) (hs0_0 t) (ms0_1 t) (hs0_1 t) scM0_0 (Memref.isWhole_whole _) (iblk m c 0 t) (fun a => ⟨(j a).val, _⟩) = _
  rw [out_at]
  unfold G
  have hj0 : (j 0).val < 64 := (j 0).isLt
  have hj1 : (j 1).val < 256 := (j 1).isLt
  have hj2 : (j 2).val < 16 := (j 2).isLt
  have k0 : ((((cfg0.win 1).blk t).view.emb j) 0).val = (j 0).val := by
    show win0_1.index t (0 : Fin 3) * 64 + 1 * (j 0).val = _; rw [e0]; omega
  have k1 : ((((cfg0.win 1).blk t).view.emb j) 1).val = 256 * t.val + (j 1).val := by
    show win0_1.index t (1 : Fin 3) * 256 + 1 * (j 1).val = _; rw [e1]; omega
  have k2 : ((((cfg0.win 1).blk t).view.emb j) 2).val = (j 2).val := by
    show win0_1.index t (2 : Fin 3) * 16 + 1 * (j 2).val = _; rw [e2]; omega
  have hrow : Lpc.rowOfBlk (iblk m c 0 t : Vec Ideal S64x256x16 .f32) (j 0) (j 1)
      = Lpc.rowOf (m ((c : Thread nD τ).loc main_arg0) : S64x32768x16.Idx → EReal)
          ((((cfg0.win 1).blk t).view.emb j) 0) ((((cfg0.win 1).blk t).view.emb j) 1) :=
    rowOfBlk_eq_rowOf _ _ (256 * t.val) (fun y k a0 a1 a2 => iblk_apply m c t y k a0 a1 a2) _ _ _ _ k0 k1
  show Lpc.iterK 15 (Lpc.rowOfBlk (iblk m c 0 t : Vec Ideal S64x256x16 .f32) (j 0) (j 1)) (j 2).val = _
  rw [hrow, k2]
  rfl

/-- An index of the array is in point `t`'s block iff each coordinate is in the block's range on its axis. -/
theorem mem_blk (t : Fin cfg0.N) (i : S64x32768x16.Idx) :
    i ∈ ((cfg0.win 1).blk t).view.set ↔ ∀ a : Fin 3, win0_1.index t a * S64x256x16.size a ≤ (i a).val ∧ (i a).val < win0_1.index t a * S64x256x16.size a + S64x256x16.size a := by
  show i ∈ ((View.whole main_v0).slice (win0_1.rect t)).set ↔ _
  rw [View.set_slice_whole, Rect.mem_set_unit]
  exact Iff.rfl

/-- The 128 blocks cover the array: time step `u` lies in the block of point `u / 256`. -/
theorem cover (i : S64x32768x16.Idx) :
    ∃ t : Fin cfg0.N, (cfg0.win 1).flush t = true ∧ i ∈ ((cfg0.win 1).blk t).view.set := by
  have hi0 : (i 0).val < 64 := (i 0).isLt
  have hi1 : (i 1).val < 32768 := (i 1).isLt
  have hi2 : (i 2).val < 16 := (i 2).isLt
  have hN : cfg0.N = 128 := N_0
  let t : Fin cfg0.N := ⟨(i 1).val / 256, by rw [hN]; omega⟩
  obtain ⟨-, -, -, e0, e1, e2⟩ := idx_facts t
  have ht : t.val = (i 1).val / 256 := rfl
  refine ⟨t, flush0_1 t, ?_⟩
  rw [mem_blk]
  intro a
  match a with
  | ⟨0, _⟩ => show win0_1.index t (0 : Fin 3) * 64 ≤ (i 0).val ∧ (i 0).val < win0_1.index t (0 : Fin 3) * 64 + 64; rw [e0]; omega
  | ⟨1, _⟩ => show win0_1.index t (1 : Fin 3) * 256 ≤ (i 1).val ∧ (i 1).val < win0_1.index t (1 : Fin 3) * 256 + 256; rw [e1, ht]; omega
  | ⟨2, _⟩ => show win0_1.index t (2 : Fin 3) * 16 ≤ (i 2).val ∧ (i 2).val < win0_1.index t (2 : Fin 3) * 16 + 16; rw [e2]; omega

/-- THE ARRAY after the run is `G` of the argument array. -/
theorem final (c : Dev nD) : (dats m 0 c).arrAt 1 cfg0.N = G (m ((c : Thread nD τ).loc main_arg0)) :=
  (dats m 0 c).arrAt_eq_of_cover 1 (G (m ((c : Thread nD τ).loc main_arg0))) (fun t _ => flushed_eq m c t) cover

/-- The run, read: the result array ends at `G` of the argument array, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Arr

end
-- ==== Proof.RefStep.lean ====
/-
  The reference's step of the Levinson step-down recursion, read at one row.

  The reference works on whole arrays of shape [64, 32768, 16]: a step of width `w` slices the `w` leading
  coefficients `a`, the tail `b` (whose first entry is the reflection coefficient `k`), forms
  `(a - k · reverse a) / (1 - k²)` with `k` and the divisor broadcast along the coefficient axis, and concatenates
  the quotient with the untouched tail.  Read at batch `b`, time `t` and coefficient `c`, each of these operations
  touches only the row (b, t): a slice shifts the coefficient, a reverse reflects it, a broadcast reads the single entry, and a
  concatenation chooses its piece by comparing `c` with `w`.  So if the array before the step holds the row `r` at (b, t), the
  array after it holds `Lpc.stepR w r` there.  The lemmas are stated over a width `w` (the shape [64, 32768, w]) so that
  one proof serves all the steps; no index set is enumerated.
-/
import proofs.«112433_j52664888984120_2_alg».proof.Proof.Spec
import Idealize.ShloMosaic.Lib.Pipeline.Value
import Idealize.ShloMosaic.Lib.IdealHost
import Idealize.ShloMosaic.Lib.ValueIdx

noncomputable section

namespace LpcRef

open Idealize.ShloMosaic Idealize.ShloMosaic.ValueIdx Lpc

/-- The shape of an array of rows of `w` coefficients. -/
abbrev Sh (w : ℕ) : Shape := ⟨3, ![64, 32768, w]⟩
/-- The scalar shape. -/
abbrev S0 : Shape := ⟨0, ![]⟩

/-- A row of a whole array, entry by entry. -/
theorem rowOf_apply (X : (Sh 16).Idx → EReal) (b : Fin 64) (t : Fin 32768) (c : Fin 16) :
    Lpc.rowOf X b t c.val = X (ix3 b t c) := by
  unfold Lpc.rowOf
  rw [dif_pos c.isLt]

/-- A slice along the coefficient axis reads the operand `off` coefficients further on. -/
theorem slice_read {α : Type} {n w : ℕ} (off : ℕ) (h : (Sh n).Slices ![0, 0, off] (Sh w)) (X : (Sh n).Idx → α)
    (b : Fin 64) (t : Fin 32768) (c : Fin w) (hc : off + c.val < n) :
    extractStridedSlice (Sh w) ![0, 0, off] X h (ix3 b t c) = X (ix3 b t ⟨off + c.val, hc⟩) :=
  extractStridedSlice_apply _ X h _ _ (fun a => match a with
    | ⟨0, _⟩ => by show b.val = 0 + b.val; omega
    | ⟨1, _⟩ => by show t.val = 0 + t.val; omega
    | ⟨2, _⟩ => rfl)

/-- A reverse along the coefficient axis reads the operand at the reflected coefficient. -/
theorem reverse_read {α : Type} {w : ℕ} (X : (Sh w).Idx → α) (b : Fin 64) (t : Fin 32768) (c : Fin w) :
    Host.reverse [2] X (ix3 b t c) = X (ix3 b t c.rev) := by
  unfold Host.reverse
  refine congrArg X (funext fun a => ?_)
  match a with
  | ⟨0, _⟩ => rfl
  | ⟨1, _⟩ => rfl
  | ⟨2, _⟩ => rfl

/-- A width-one array broadcast along the coefficient axis reads its single entry. -/
theorem bcast_read {α : Type} {w : ℕ} (h : (Sh 1).BroadcastsInDim (Sh w) ![0, 1, 2]) (x : (Sh 1).Idx → α)
    (b : Fin 64) (t : Fin 32768) (c : Fin w) :
    broadcastInDim (Sh w) ![0, 1, 2] h x (ix3 b t c) = x (ix3 b t (0 : Fin 1)) :=
  broadcastInDim_apply _ h x _ _ (fun a => match a with
    | ⟨0, _⟩ => rfl
    | ⟨1, _⟩ => rfl
    | ⟨2, _⟩ => rfl)

/-- The divisor array `1 - k²` at an index. -/
theorem den_read (hB0 : S0.BroadcastsInDim (Sh 1) ![]) (ki : FVec Ideal (Sh 1) .f32) (i : (Sh 1).Idx) :
    subf (broadcastInDim (Sh 1) ![] hB0 (constant S0 .f32 0x3F800000#32)) (mulf ki ki) i = Lpc.one - ki i * ki i := by
  rw [subf_apply, mulf_apply, broadcastInDim_scalar_apply, constant_apply]; rfl

/-- A concatenation along the coefficient axis, below the first width: the first piece. -/
theorem concat_left {α : Type} {w k : ℕ} (hC : Shape.Concatenates [Sh w, Sh k] (Sh 16) 2)
    (x₁ : (Sh w).Idx → α) (x₂ : (Sh k).Idx → α) (b : Fin 64) (t : Fin 32768) (c : Fin 16) (hc : c.val < w) :
    concatenate (Sh 16) 2 [⟨Sh w, x₁⟩, ⟨Sh k, x₂⟩] hC (ix3 b t c) = x₁ (ix3 b t ⟨c.val, hc⟩) :=
  concatenate_pair_apply_left 2 x₁ x₂ hC (ix3 b t c) rfl (ix3 b t ⟨c.val, hc⟩) (fun d => match d with
    | ⟨0, _⟩ => rfl
    | ⟨1, _⟩ => rfl
    | ⟨2, _⟩ => rfl)

/-- A concatenation along the coefficient axis, from the first width on: the second piece, the first width less. -/
theorem concat_right {α : Type} {w k : ℕ} (hC : Shape.Concatenates [Sh w, Sh k] (Sh 16) 2)
    (x₁ : (Sh w).Idx → α) (x₂ : (Sh k).Idx → α) (b : Fin 64) (t : Fin 32768) (c : Fin 16) (hc : w ≤ c.val)
    (hk : c.val - w < k) :
    concatenate (Sh 16) 2 [⟨Sh w, x₁⟩, ⟨Sh k, x₂⟩] hC (ix3 b t c) = x₂ (ix3 b t ⟨c.val - w, hk⟩) :=
  concatenate_pair_apply_right 2 x₁ x₂ hC (ix3 b t c) rfl rfl (ix3 b t ⟨c.val - w, hk⟩) (fun d => match d with
    | ⟨0, _⟩ => fun _ => rfl
    | ⟨1, _⟩ => fun _ => rfl
    | ⟨2, _⟩ => fun h => absurd rfl h) (by show c.val - w + w = c.val; omega)

/-- One step on whole arrays, read at a row: from the leading coefficients `a`, the tail `bb` and the reflection
    coefficient `ki`, each known at the row (b, t). -/
theorem step_core {w k : ℕ} (hwk : w + k = 16) (hC : Shape.Concatenates [Sh w, Sh k] (Sh 16) 2)
    (hB : (Sh 1).BroadcastsInDim (Sh w) ![0, 1, 2]) (hB0 : S0.BroadcastsInDim (Sh 1) ![])
    (a : FVec Ideal (Sh w) .f32) (bb : FVec Ideal (Sh k) .f32) (ki : FVec Ideal (Sh 1) .f32)
    (r : Row) (b : Fin 64) (t : Fin 32768)
    (ha : ∀ c : Fin w, a (ix3 b t c) = r c.val)
    (hb : ∀ c : Fin k, bb (ix3 b t c) = r (w + c.val))
    (hki : ki (ix3 b t (0 : Fin 1)) = r w) (c : Fin 16) :
    concatenate (Sh 16) 2 [⟨Sh w, Host.divf (subf a (mulf (broadcastInDim (Sh w) ![0, 1, 2] hB ki) (Host.reverse [2] a)))
        (broadcastInDim (Sh w) ![0, 1, 2] hB
          (subf (broadcastInDim (Sh 1) ![] hB0 (constant S0 .f32 0x3F800000#32)) (mulf ki ki)))⟩,
      ⟨Sh k, bb⟩] hC (ix3 b t c) = stepR w r c.val := by
  by_cases hc : c.val < w
  · rw [concat_left hC _ _ b t c hc, hostDivf_apply, subf_apply, mulf_apply, bcast_read, bcast_read, den_read,
      reverse_read, ha, ha, hki]
    unfold stepR
    rw [if_pos hc]
    have e : (Fin.rev (⟨c.val, hc⟩ : Fin w)).val = w - 1 - c.val := by simp [Fin.rev]; omega
    rw [e]
  · have hk : c.val - w < k := by have := c.isLt; omega
    rw [concat_right hC _ _ b t c (by omega) hk, hb]
    unfold stepR
    rw [if_neg hc]
    congr 1
    show w + (c.val - w) = c.val
    omega

/-- The last step (width one): the operations carry no broadcast along the coefficient axis. -/
theorem step_core_last (hC : Shape.Concatenates [Sh 1, Sh 15] (Sh 16) 2) (hB0 : S0.BroadcastsInDim (Sh 1) ![])
    (a : FVec Ideal (Sh 1) .f32) (bb : FVec Ideal (Sh 15) .f32) (ki : FVec Ideal (Sh 1) .f32)
    (r : Row) (b : Fin 64) (t : Fin 32768)
    (ha : a (ix3 b t (0 : Fin 1)) = r 0)
    (hb : ∀ c : Fin 15, bb (ix3 b t c) = r (1 + c.val))
    (hki : ki (ix3 b t (0 : Fin 1)) = r 1) (c : Fin 16) :
    concatenate (Sh 16) 2 [⟨Sh 1, Host.divf (subf a (mulf ki (Host.reverse [2] a)))
        (subf (broadcastInDim (Sh 1) ![] hB0 (constant S0 .f32 0x3F800000#32)) (mulf ki ki))⟩,
      ⟨Sh 15, bb⟩] hC (ix3 b t c) = stepR 1 r c.val := by
  by_cases hc : c.val < 1
  · have hc0 : (⟨c.val, hc⟩ : Fin 1) = 0 := Subsingleton.elim _ _
    rw [concat_left hC _ _ b t c hc, hostDivf_apply, subf_apply, mulf_apply, den_read, reverse_read, hc0,
      show (Fin.rev (0 : Fin 1)) = 0 from Subsingleton.elim _ _, ha, hki]
    unfold stepR
    rw [if_pos hc]
    have e : c.val = 0 := by omega
    rw [e]
  · have hk : c.val - 1 < 15 := by have := c.isLt; omega
    rw [concat_right hC _ _ b t c (by omega) hk, hb]
    unfold stepR
    rw [if_neg hc]
    congr 1
    show 1 + (c.val - 1) = c.val
    omega

/-- The first step (width fifteen), from the argument: the tail is the single last coefficient, which is also the
    reflection coefficient. -/
theorem step_first (hSa : (Sh 16).Slices ![0, 0, 0] (Sh 15)) (hSb : (Sh 16).Slices ![0, 0, 15] (Sh 1))
    (hC : Shape.Concatenates [Sh 15, Sh 1] (Sh 16) 2)
    (hB : (Sh 1).BroadcastsInDim (Sh 15) ![0, 1, 2]) (hB0 : S0.BroadcastsInDim (Sh 1) ![])
    (X : FVec Ideal (Sh 16) .f32) (r : Row) (b : Fin 64) (t : Fin 32768)
    (hX : ∀ c : Fin 16, X (ix3 b t c) = r c.val) (c : Fin 16) :
    concatenate (Sh 16) 2 [⟨Sh 15, Host.divf (subf (extractStridedSlice (Sh 15) ![0, 0, 0] X hSa)
          (mulf (broadcastInDim (Sh 15) ![0, 1, 2] hB (extractStridedSlice (Sh 1) ![0, 0, 15] X hSb))
            (Host.reverse [2] (extractStridedSlice (Sh 15) ![0, 0, 0] X hSa))))
        (broadcastInDim (Sh 15) ![0, 1, 2] hB
          (subf (broadcastInDim (Sh 1) ![] hB0 (constant S0 .f32 0x3F800000#32))
            (mulf (extractStridedSlice (Sh 1) ![0, 0, 15] X hSb) (extractStridedSlice (Sh 1) ![0, 0, 15] X hSb))))⟩,
      ⟨Sh 1, extractStridedSlice (Sh 1) ![0, 0, 15] X hSb⟩] hC (ix3 b t c) = stepR 15 r c.val :=
  step_core rfl hC hB hB0 _ _ _ r b t
    (fun c => by rw [slice_read 0 hSa X b t c (by have := c.isLt; omega), hX]; simp)
    (fun c => by rw [slice_read 15 hSb X b t c (by have := c.isLt; omega), hX])
    (by rw [slice_read 15 hSb X b t 0 (by simp), hX]; rfl) c

/-- A middle step of width `w`, from the whole array before it. -/
theorem step_mid {w k : ℕ} (hwk : w + k = 16) (hk : 0 < k)
    (hSa : (Sh 16).Slices ![0, 0, 0] (Sh w)) (hSb : (Sh 16).Slices ![0, 0, w] (Sh k))
    (hSk : (Sh k).Slices ![0, 0, 0] (Sh 1))
    (hC : Shape.Concatenates [Sh w, Sh k] (Sh 16) 2)
    (hB : (Sh 1).BroadcastsInDim (Sh w) ![0, 1, 2]) (hB0 : S0.BroadcastsInDim (Sh 1) ![])
    (X : FVec Ideal (Sh 16) .f32) (r : Row) (b : Fin 64) (t : Fin 32768)
    (hX : ∀ c : Fin 16, X (ix3 b t c) = r c.val) (c : Fin 16) :
    concatenate (Sh 16) 2 [⟨Sh w, Host.divf (subf (extractStridedSlice (Sh w) ![0, 0, 0] X hSa)
          (mulf (broadcastInDim (Sh w) ![0, 1, 2] hB
              (extractStridedSlice (Sh 1) ![0, 0, 0] (extractStridedSlice (Sh k) ![0, 0, w] X hSb) hSk))
            (Host.reverse [2] (extractStridedSlice (Sh w) ![0, 0, 0] X hSa))))
        (broadcastInDim (Sh w) ![0, 1, 2] hB
          (subf (broadcastInDim (Sh 1) ![] hB0 (constant S0 .f32 0x3F800000#32))
            (mulf (extractStridedSlice (Sh 1) ![0, 0, 0] (extractStridedSlice (Sh k) ![0, 0, w] X hSb) hSk)
              (extractStridedSlice (Sh 1) ![0, 0, 0] (extractStridedSlice (Sh k) ![0, 0, w] X hSb) hSk))))⟩,
      ⟨Sh k, extractStridedSlice (Sh k) ![0, 0, w] X hSb⟩] hC (ix3 b t c) = stepR w r c.val :=
  step_core hwk hC hB hB0 _ _ _ r b t
    (fun c => by rw [slice_read 0 hSa X b t c (by have := c.isLt; omega), hX]; simp)
    (fun c => by rw [slice_read w hSb X b t c (by have := c.isLt; omega), hX])
    (by rw [slice_read 0 hSk _ b t 0 (by simpa using hk), slice_read w hSb X b t _ (by simp; omega), hX]; simp) c

/-- The last step (width one), from the whole array before it. -/
theorem step_last (hSa : (Sh 16).Slices ![0, 0, 0] (Sh 1)) (hSb : (Sh 16).Slices ![0, 0, 1] (Sh 15))
    (hSk : (Sh 15).Slices ![0, 0, 0] (Sh 1))
    (hC : Shape.Concatenates [Sh 1, Sh 15] (Sh 16) 2) (hB0 : S0.BroadcastsInDim (Sh 1) ![])
    (X : FVec Ideal (Sh 16) .f32) (r : Row) (b : Fin 64) (t : Fin 32768)
    (hX : ∀ c : Fin 16, X (ix3 b t c) = r c.val) (c : Fin 16) :
    concatenate (Sh 16) 2 [⟨Sh 1, Host.divf (subf (extractStridedSlice (Sh 1) ![0, 0, 0] X hSa)
          (mulf (extractStridedSlice (Sh 1) ![0, 0, 0] (extractStridedSlice (Sh 15) ![0, 0, 1] X hSb) hSk)
            (Host.reverse [2] (extractStridedSlice (Sh 1) ![0, 0, 0] X hSa))))
        (subf (broadcastInDim (Sh 1) ![] hB0 (constant S0 .f32 0x3F800000#32))
          (mulf (extractStridedSlice (Sh 1) ![0, 0, 0] (extractStridedSlice (Sh 15) ![0, 0, 1] X hSb) hSk)
            (extractStridedSlice (Sh 1) ![0, 0, 0] (extractStridedSlice (Sh 15) ![0, 0, 1] X hSb) hSk)))⟩,
      ⟨Sh 15, extractStridedSlice (Sh 15) ![0, 0, 1] X hSb⟩] hC (ix3 b t c) = stepR 1 r c.val :=
  step_core_last hC hB0 _ _ _ r b t
    (by rw [slice_read 0 hSa X b t 0 (by simp), hX]; rfl)
    (fun c => by rw [slice_read 1 hSb X b t c (by have := c.isLt; omega), hX])
    (by rw [slice_read 0 hSk _ b t 0 (by simp), slice_read 1 hSb X b t _ (by simp), hX]; rfl) c

end LpcRef

end
-- ==== Proof.RefRow.lean ====
/-
  The reference's result, read at one row: after its fifteen steps the array holds, at batch `b`, time `t` and
  coefficient `c`, the fifteenth iterate `Lpc.iterR 15` of the argument's row (b, t).  Each step's whole-array term
  (the generated run names them) is read through the step lemmas of RefStep, the row before the step being the
  previous iterate; the chain starts at the argument, whose row is `Lpc.rowOf` by definition.
-/
import proofs.«112433_j52664888984120_2_alg».proof.Proof.RefStep
import proofs.«112433_j52664888984120_2_alg».proof.Proof.Gen.ReferenceIdeal.Run

noncomputable section

namespace LpcRef

open Idealize.ShloMosaic Idealize.ShloMosaic.ValueIdx Idealize.SL.Sem Lpc
open Cert.ReferenceIdeal Cert.ReferenceIdeal.Gen Cert.ReferenceIdeal.Value

/-- The argument's row at batch `b` and time `t`. -/
abbrev argRow (V0 : Valuation τ sig (Elt Ideal)) (b : Fin 64) (t : Fin 32768) : Row :=
  Lpc.rowOf (V0 (Proc.devRef .tc main_arg0)) b t

/-- After step 1. -/
theorem read_v11 (V0 : Valuation τ sig (Elt Ideal)) (b : Fin 64) (t : Fin 32768) (c : Fin 16) :
    res_main_v11 V0 (ix3 b t c) = Lpc.iterR 1 (argRow V0 b t) c.val := by
  unfold res_main_v11 res_main_v1 res_main_v0
  exact step_first _ _ _ _ _ (V0 (Proc.devRef .tc main_arg0)) _ b t (fun c => (rowOf_apply _ b t c).symm) c

/-- After step 2. -/
theorem read_v24 (V0 : Valuation τ sig (Elt Ideal)) (b : Fin 64) (t : Fin 32768) (c : Fin 16) :
    res_main_v24 V0 (ix3 b t c) = Lpc.iterR 2 (argRow V0 b t) c.val := by
  unfold res_main_v24 res_main_v14 res_main_v13 res_main_v12
  exact step_mid (w := 14) (k := 2) rfl (by omega) _ _ _ _ _ _ (res_main_v11 V0) _ b t (read_v11 V0 b t) c

/-- After step 3. -/
theorem read_v37 (V0 : Valuation τ sig (Elt Ideal)) (b : Fin 64) (t : Fin 32768) (c : Fin 16) :
    res_main_v37 V0 (ix3 b t c) = Lpc.iterR 3 (argRow V0 b t) c.val := by
  unfold res_main_v37 res_main_v27 res_main_v26 res_main_v25
  exact step_mid (w := 13) (k := 3) rfl (by omega) _ _ _ _ _ _ (res_main_v24 V0) _ b t (read_v24 V0 b t) c

/-- After step 4. -/
theorem read_v50 (V0 : Valuation τ sig (Elt Ideal)) (b : Fin 64) (t : Fin 32768) (c : Fin 16) :
    res_main_v50 V0 (ix3 b t c) = Lpc.iterR 4 (argRow V0 b t) c.val := by
  unfold res_main_v50 res_main_v40 res_main_v39 res_main_v38
  exact step_mid (w := 12) (k := 4) rfl (by omega) _ _ _ _ _ _ (res_main_v37 V0) _ b t (read_v37 V0 b t) c

/-- After step 5. -/
theorem read_v63 (V0 : Valuation τ sig (Elt Ideal)) (b : Fin 64) (t : Fin 32768) (c : Fin 16) :
    res_main_v63 V0 (ix3 b t c) = Lpc.iterR 5 (argRow V0 b t) c.val := by
  unfold res_main_v63 res_main_v53 res_main_v52 res_main_v51
  exact step_mid (w := 11) (k := 5) rfl (by omega) _ _ _ _ _ _ (res_main_v50 V0) _ b t (read_v50 V0 b t) c

/-- After step 6. -/
theorem read_v76 (V0 : Valuation τ sig (Elt Ideal)) (b : Fin 64) (t : Fin 32768) (c : Fin 16) :
    res_main_v76 V0 (ix3 b t c) = Lpc.iterR 6 (argRow V0 b t) c.val := by
  unfold res_main_v76 res_main_v66 res_main_v65 res_main_v64
  exact step_mid (w := 10) (k := 6) rfl (by omega) _ _ _ _ _ _ (res_main_v63 V0) _ b t (read_v63 V0 b t) c

/-- After step 7. -/
theorem read_v89 (V0 : Valuation τ sig (Elt Ideal)) (b : Fin 64) (t : Fin 32768) (c : Fin 16) :
    res_main_v89 V0 (ix3 b t c) = Lpc.iterR 7 (argRow V0 b t) c.val := by
  unfold res_main_v89 res_main_v79 res_main_v78 res_main_v77
  exact step_mid (w := 9) (k := 7) rfl (by omega) _ _ _ _ _ _ (res_main_v76 V0) _ b t (read_v76 V0 b t) c

/-- After step 8. -/
theorem read_v102 (V0 : Valuation τ sig (Elt Ideal)) (b : Fin 64) (t : Fin 32768) (c : Fin 16) :
    res_main_v102 V0 (ix3 b t c) = Lpc.iterR 8 (argRow V0 b t) c.val := by
  unfold res_main_v102 res_main_v92 res_main_v91 res_main_v90
  exact step_mid (w := 8) (k := 8) rfl (by omega) _ _ _ _ _ _ (res_main_v89 V0) _ b t (read_v89 V0 b t) c

/-- After step 9. -/
theorem read_v115 (V0 : Valuation τ sig (Elt Ideal)) (b : Fin 64) (t : Fin 32768) (c : Fin 16) :
    res_main_v115 V0 (ix3 b t c) = Lpc.iterR 9 (argRow V0 b t) c.val := by
  unfold res_main_v115 res_main_v105 res_main_v104 res_main_v103
  exact step_mid (w := 7) (k := 9) rfl (by omega) _ _ _ _ _ _ (res_main_v102 V0) _ b t (read_v102 V0 b t) c

/-- After step 10. -/
theorem read_v128 (V0 : Valuation τ sig (Elt Ideal)) (b : Fin 64) (t : Fin 32768) (c : Fin 16) :
    res_main_v128 V0 (ix3 b t c) = Lpc.iterR 10 (argRow V0 b t) c.val := by
  unfold res_main_v128 res_main_v118 res_main_v117 res_main_v116
  exact step_mid (w := 6) (k := 10) rfl (by omega) _ _ _ _ _ _ (res_main_v115 V0) _ b t (read_v115 V0 b t) c

/-- After step 11. -/
theorem read_v141 (V0 : Valuation τ sig (Elt Ideal)) (b : Fin 64) (t : Fin 32768) (c : Fin 16) :
    res_main_v141 V0 (ix3 b t c) = Lpc.iterR 11 (argRow V0 b t) c.val := by
  unfold res_main_v141 res_main_v131 res_main_v130 res_main_v129
  exact step_mid (w := 5) (k := 11) rfl (by omega) _ _ _ _ _ _ (res_main_v128 V0) _ b t (read_v128 V0 b t) c

/-- After step 12. -/
theorem read_v154 (V0 : Valuation τ sig (Elt Ideal)) (b : Fin 64) (t : Fin 32768) (c : Fin 16) :
    res_main_v154 V0 (ix3 b t c) = Lpc.iterR 12 (argRow V0 b t) c.val := by
  unfold res_main_v154 res_main_v144 res_main_v143 res_main_v142
  exact step_mid (w := 4) (k := 12) rfl (by omega) _ _ _ _ _ _ (res_main_v141 V0) _ b t (read_v141 V0 b t) c

/-- After step 13. -/
theorem read_v167 (V0 : Valuation τ sig (Elt Ideal)) (b : Fin 64) (t : Fin 32768) (c : Fin 16) :
    res_main_v167 V0 (ix3 b t c) = Lpc.iterR 13 (argRow V0 b t) c.val := by
  unfold res_main_v167 res_main_v157 res_main_v156 res_main_v155
  exact step_mid (w := 3) (k := 13) rfl (by omega) _ _ _ _ _ _ (res_main_v154 V0) _ b t (read_v154 V0 b t) c

/-- After step 14. -/
theorem read_v180 (V0 : Valuation τ sig (Elt Ideal)) (b : Fin 64) (t : Fin 32768) (c : Fin 16) :
    res_main_v180 V0 (ix3 b t c) = Lpc.iterR 14 (argRow V0 b t) c.val := by
  unfold res_main_v180 res_main_v170 res_main_v169 res_main_v168
  exact step_mid (w := 2) (k := 14) rfl (by omega) _ _ _ _ _ _ (res_main_v167 V0) _ b t (read_v167 V0 b t) c

/-- The reference's result: the term the generated run states for the result buffer, read at a row, is the fifteenth
    iterate of the argument's row. -/
theorem ref_read (V0 : Valuation τ sig (Elt Ideal)) (b : Fin 64) (t : Fin 32768) (c : Fin 16) :
    (concatenate S64x32768x16 2 [⟨S64x32768x1, (Host.divf (subf (res_main_v181 V0) (mulf (res_main_v183 V0) (Host.reverse [2] (res_main_v181 V0)))) (subf (broadcastInDim S64x32768x1 ![] bcast_S_S64x32768x1 (constant S_ .f32 0x3F800000#32)) (mulf (res_main_v183 V0) (res_main_v183 V0))))⟩, ⟨S64x32768x15, (res_main_v182 V0)⟩] concatenates_S64x32768x1_S64x32768x15_S64x32768x16_d2 : (Sh 16).Idx → EReal)
      (ix3 b t c) = Lpc.iterR 15 (argRow V0 b t) c.val := by
  unfold res_main_v183 res_main_v182 res_main_v181
  exact step_last _ _ _ _ _ (res_main_v180 V0) _ b t (read_v180 V0 b t) c

end LpcRef

end
-- ==== Proof.PreDen.lean ====
/-
  The precondition's divisors.  The precondition runs the reference's recursion once more on the argument and asks, with
  one `all` per step folded by `and`, that each step's divisor array `1 - k²` has no zero entry.  Opened from the
  last `and` backwards it gives, for every step, that the divisor array is nonzero at every index; read at the row
  (b, t) with the step lemmas, the divisor array of step `n + 1` holds `Lpc.den n` of the argument's row there.  Hence
  all fifteen `Lpc.den n (Lpc.rowOf X b t)` are nonzero.
-/
import proofs.«112433_j52664888984120_2_alg».proof.Proof.RefStep
import proofs.«112433_j52664888984120_2_alg».proof.Proof.Gen.Pre_finite_inputs
import Idealize.ShloMosaic.Lib.ReduceAll

noncomputable section

namespace LpcRef

open Idealize.ShloMosaic Idealize.ShloMosaic.ValueIdx Lpc
open Cert.Pre_finite_inputs Cert.Pre_finite_inputs.Gen

/-- The scalar shape has one index. -/
instance : Subsingleton S0.Idx := ⟨fun a b => funext fun d => d.elim0⟩

/-- On the extended reals the comparison "not equal" answers 1 only at distinct values. -/
theorem ne_of_cmp_une {x y : EReal} (h : Ideal.cmp .une x y = 1#1) : x ≠ y := by
  unfold Ideal.cmp at h
  intro e
  simp [e] at h

/-- One link of the precondition's chain: `acc ∧ all (d ≠ 0)` is 1 only if `acc` is 1 and `d` has no zero entry. -/
theorem and_all_ne (hB0 : S0.BroadcastsInDim (Sh 1) ![]) (hR : (Sh 1).ReducesTo [0, 1, 2] S0) (hu : 0 < S0.numel)
    (acc : IVec S0 1) (d : FVec Ideal (Sh 1) .f32)
    (h : andi acc (Host.reduce IntOp.andi (cmpf .une d (broadcastInDim (Sh 1) ![] hB0 (constant S0 .f32 0x00000000#32)))
        (constantI S0 1 1#1) hR hu) = fun _ => 1#1) :
    acc = (fun _ => 1#1) ∧ ∀ i, d i ≠ 0 := by
  have h0 := congrFun h ix0
  obtain ⟨ha, hr⟩ := IntOp.andi_eq_one.1 h0
  refine ⟨funext fun j => by rw [eq_ix0 j]; exact ha, fun i => ?_⟩
  have h1 := Host.reduce_andi_all _ _ hR hu ix0 hr i
  rw [cmpf_apply] at h1
  have hne := ne_of_cmp_une h1
  rwa [broadcastInDim_scalar_apply, constant_apply, Ideal.ofBits_zero_f32] at hne

/-- The first step's divisor array at a row: the reflection coefficient is the argument's last coefficient. -/
theorem den_first (hSb : (Sh 16).Slices ![0, 0, 15] (Sh 1)) (hB0 : S0.BroadcastsInDim (Sh 1) ![])
    (X : FVec Ideal (Sh 16) .f32) (r : Row) (b : Fin 64) (t : Fin 32768)
    (hX : ∀ c : Fin 16, X (ix3 b t c) = r c.val) :
    subf (broadcastInDim (Sh 1) ![] hB0 (constant S0 .f32 0x3F800000#32))
        (mulf (extractStridedSlice (Sh 1) ![0, 0, 15] X hSb) (extractStridedSlice (Sh 1) ![0, 0, 15] X hSb))
        (ix3 b t (0 : Fin 1)) = Lpc.one - r 15 * r 15 := by
  rw [den_read, slice_read 15 hSb X b t 0 (by simp), hX]
  rfl

/-- A later step's divisor array at a row, from the whole array before the step. -/
theorem den_mid {w k : ℕ} (hwk : w + k = 16) (hk : 0 < k)
    (hSb : (Sh 16).Slices ![0, 0, w] (Sh k)) (hSk : (Sh k).Slices ![0, 0, 0] (Sh 1))
    (hB0 : S0.BroadcastsInDim (Sh 1) ![])
    (X : FVec Ideal (Sh 16) .f32) (r : Row) (b : Fin 64) (t : Fin 32768)
    (hX : ∀ c : Fin 16, X (ix3 b t c) = r c.val) :
    subf (broadcastInDim (Sh 1) ![] hB0 (constant S0 .f32 0x3F800000#32))
        (mulf (extractStridedSlice (Sh 1) ![0, 0, 0] (extractStridedSlice (Sh k) ![0, 0, w] X hSb) hSk)
          (extractStridedSlice (Sh 1) ![0, 0, 0] (extractStridedSlice (Sh k) ![0, 0, w] X hSb) hSk))
        (ix3 b t (0 : Fin 1)) = Lpc.one - r w * r w := by
  rw [den_read, slice_read 0 hSk _ b t 0 (by simpa using hk), slice_read w hSb X b t _ (by simp; omega), hX]
  simp

/-- Under the precondition every step's divisor is nonzero at every row. -/
theorem pre_den (X : FVec Ideal S64x32768x16 .f32) (h : Cert.Pre_finite_inputs.fn (F := Ideal) X = fun _ => 1#1)
    (b : Fin 64) (t : Fin 32768) : ∀ n, n < 15 → Lpc.den n (Lpc.rowOf X b t) ≠ 0 := by
  unfold Cert.Pre_finite_inputs.fn at h
  extract_lets -merge main_v0 main_cst main_v1 main_v2 main_c main_v3 main_v4 main_v5 main_v6 main_cst_0 main_v7 main_v8 main_v9 main_v10 main_v11 main_v12 main_v13 main_cst_1 main_v14 main_v15 main_v16 main_v17 main_v18 main_v19 at h
  unfold Cert.Pre_finite_inputs.fn_part1 at h
  extract_lets -merge main_v20 main_v21 main_v22 main_cst_2 main_v23 main_v24 main_v25 main_v26 main_v27 main_v28 main_v29 main_cst_3 main_v30 main_v31 main_v32 main_v33 main_v34 main_v35 main_v36 main_v37 main_v38 main_cst_4 main_v39 main_v40 at h
  unfold Cert.Pre_finite_inputs.fn_part2 at h
  extract_lets -merge main_v41 main_v42 main_v43 main_v44 main_v45 main_cst_5 main_v46 main_v47 main_v48 main_v49 main_v50 main_v51 main_v52 main_v53 main_v54 main_cst_6 main_v55 main_v56 main_v57 main_v58 main_v59 main_v60 main_v61 main_cst_7 at h
  unfold Cert.Pre_finite_inputs.fn_part3 at h
  extract_lets -merge main_v62 main_v63 main_v64 main_v65 main_v66 main_v67 main_v68 main_v69 main_v70 main_cst_8 main_v71 main_v72 main_v73 main_v74 main_v75 main_v76 main_v77 main_cst_9 main_v78 main_v79 main_v80 main_v81 main_v82 main_v83 at h
  unfold Cert.Pre_finite_inputs.fn_part4 at h
  extract_lets -merge main_v84 main_v85 main_v86 main_cst_10 main_v87 main_v88 main_v89 main_v90 main_v91 main_v92 main_v93 main_cst_11 main_v94 main_v95 main_v96 main_v97 main_v98 main_v99 main_v100 main_v101 main_v102 main_cst_12 main_v103 main_v104 at h
  unfold Cert.Pre_finite_inputs.fn_part5 at h
  extract_lets -merge main_v105 main_v106 main_v107 main_v108 main_v109 main_cst_13 main_v110 main_v111 main_v112 main_v113 main_v114 main_v115 main_v116 main_v117 main_v118 main_cst_14 main_v119 main_v120 main_v121 main_v122 main_v123 main_v124 main_v125 main_cst_15 at h
  unfold Cert.Pre_finite_inputs.fn_part6 at h
  extract_lets -merge main_v126 main_v127 main_v128 main_v129 main_v130 main_v131 main_v132 main_v133 main_v134 main_cst_16 main_v135 main_v136 main_v137 main_v138 main_v139 main_v140 main_v141 main_cst_17 main_v142 main_v143 main_v144 main_v145 main_v146 main_v147 at h
  unfold Cert.Pre_finite_inputs.fn_part7 at h
  extract_lets -merge main_v148 main_v149 main_v150 main_cst_18 main_v151 main_v152 main_v153 main_v154 main_v155 main_v156 main_v157 main_cst_19 main_v158 main_v159 main_v160 main_v161 main_v162 main_v163 main_v164 main_v165 main_v166 main_cst_20 main_v167 main_v168 at h
  unfold Cert.Pre_finite_inputs.fn_part8 at h
  extract_lets -merge main_v169 main_v170 main_v171 main_v172 main_v173 main_cst_21 main_v174 main_v175 main_v176 main_v177 main_v178 main_v179 main_v180 main_v181 main_v182 main_cst_22 main_v183 main_v184 main_v185 main_v186 main_v187 main_v188 main_v189 main_cst_23 at h
  unfold Cert.Pre_finite_inputs.fn_part9 at h
  extract_lets -merge main_v190 main_v191 main_v192 main_v193 main_v194 main_v195 main_v196 main_v197 main_v198 main_cst_24 main_v199 main_v200 main_v201 main_v202 main_v203 main_v204 main_v205 main_cst_25 main_v206 main_v207 main_v208 main_v209 main_v210 main_v211 at h
  unfold Cert.Pre_finite_inputs.fn_part10 at h
  extract_lets -merge main_v212 main_v213 main_v214 main_cst_26 main_v215 main_v216 main_v217 main_v218 main_v219 main_v220 main_v221 main_cst_27 main_v222 main_v223 main_v224 main_v225 main_v226 main_v227 main_v228 main_v229 main_v230 main_cst_28 main_v231 main_v232 at h
  unfold Cert.Pre_finite_inputs.fn_part11 at h
  extract_lets -merge main_v233 main_v234 main_v235 main_v236 main_cst_29 main_v237 main_v238 main_v239 main_v240 main_cst_30 main_v241 main_v242 main_c_31 main_v243 main_v244 main_cst_32 main_v245 main_v246 main_c_33 main_v247 main_v248 main_cst_34 main_v249 main_v250 at h
  unfold Cert.Pre_finite_inputs.fn_part12 at h
  extract_lets -merge main_c_35 main_v251 main_v252 main_cst_36 main_v253 main_v254 main_c_37 main_v255 main_v256 main_cst_38 main_v257 main_v258 main_c_39 main_v259 main_v260 main_cst_40 main_v261 main_v262 main_c_41 main_v263 main_v264 main_cst_42 main_v265 main_v266 at h
  unfold Cert.Pre_finite_inputs.fn_part13 at h
  extract_lets -merge main_c_43 main_v267 main_v268 main_cst_44 main_v269 main_v270 main_c_45 main_v271 main_v272 main_cst_46 main_v273 main_v274 main_c_47 main_v275 main_v276 main_cst_48 main_v277 main_v278 main_c_49 main_v279 main_v280 main_cst_50 main_v281 main_v282 at h
  unfold Cert.Pre_finite_inputs.fn_part14 at h
  extract_lets -merge main_c_51 main_v283 main_v284 main_cst_52 main_v285 main_v286 main_c_53 main_v287 main_v288 main_cst_54 main_v289 main_v290 main_c_55 main_v291 main_v292 main_cst_56 main_v293 main_v294 main_c_57 main_v295 main_v296 main_cst_58 main_v297 main_v298 at h
  unfold Cert.Pre_finite_inputs.fn_part15 at h
  extract_lets -merge main_c_59 main_v299 main_v300 at h
  -- the arrays after each step and the divisor arrays, at the row (b, t)
  have a0 : ∀ c : Fin 16, X (ix3 b t c) = Lpc.iterR 0 (Lpc.rowOf X b t) c.val := fun c => (rowOf_apply X b t c).symm
  have e1 : main_v8 (ix3 b t (0 : Fin 1)) = Lpc.one - Lpc.iterR 0 (Lpc.rowOf X b t) 15 * Lpc.iterR 0 (Lpc.rowOf X b t) 15 :=
    den_first _ _ X _ b t a0
  have a1 : ∀ c : Fin 16, main_v18 (ix3 b t c) = Lpc.iterR 1 (Lpc.rowOf X b t) c.val :=
    fun c => step_first _ _ _ _ _ X _ b t a0 c
  have e2 : main_v24 (ix3 b t (0 : Fin 1)) = Lpc.one - Lpc.iterR 1 (Lpc.rowOf X b t) 14 * Lpc.iterR 1 (Lpc.rowOf X b t) 14 :=
    den_mid (w := 14) (k := 2) rfl (by omega) _ _ _ main_v18 _ b t a1
  have a2 : ∀ c : Fin 16, main_v34 (ix3 b t c) = Lpc.iterR 2 (Lpc.rowOf X b t) c.val :=
    fun c => step_mid (w := 14) (k := 2) rfl (by omega) _ _ _ _ _ _ main_v18 _ b t a1 c
  have e3 : main_v40 (ix3 b t (0 : Fin 1)) = Lpc.one - Lpc.iterR 2 (Lpc.rowOf X b t) 13 * Lpc.iterR 2 (Lpc.rowOf X b t) 13 :=
    den_mid (w := 13) (k := 3) rfl (by omega) _ _ _ main_v34 _ b t a2
  have a3 : ∀ c : Fin 16, main_v50 (ix3 b t c) = Lpc.iterR 3 (Lpc.rowOf X b t) c.val :=
    fun c => step_mid (w := 13) (k := 3) rfl (by omega) _ _ _ _ _ _ main_v34 _ b t a2 c
  have e4 : main_v56 (ix3 b t (0 : Fin 1)) = Lpc.one - Lpc.iterR 3 (Lpc.rowOf X b t) 12 * Lpc.iterR 3 (Lpc.rowOf X b t) 12 :=
    den_mid (w := 12) (k := 4) rfl (by omega) _ _ _ main_v50 _ b t a3
  have a4 : ∀ c : Fin 16, main_v66 (ix3 b t c) = Lpc.iterR 4 (Lpc.rowOf X b t) c.val :=
    fun c => step_mid (w := 12) (k := 4) rfl (by omega) _ _ _ _ _ _ main_v50 _ b t a3 c
  have e5 : main_v72 (ix3 b t (0 : Fin 1)) = Lpc.one - Lpc.iterR 4 (Lpc.rowOf X b t) 11 * Lpc.iterR 4 (Lpc.rowOf X b t) 11 :=
    den_mid (w := 11) (k := 5) rfl (by omega) _ _ _ main_v66 _ b t a4
  have a5 : ∀ c : Fin 16, main_v82 (ix3 b t c) = Lpc.iterR 5 (Lpc.rowOf X b t) c.val :=
    fun c => step_mid (w := 11) (k := 5) rfl (by omega) _ _ _ _ _ _ main_v66 _ b t a4 c
  have e6 : main_v88 (ix3 b t (0 : Fin 1)) = Lpc.one - Lpc.iterR 5 (Lpc.rowOf X b t) 10 * Lpc.iterR 5 (Lpc.rowOf X b t) 10 :=
    den_mid (w := 10) (k := 6) rfl (by omega) _ _ _ main_v82 _ b t a5
  have a6 : ∀ c : Fin 16, main_v98 (ix3 b t c) = Lpc.iterR 6 (Lpc.rowOf X b t) c.val :=
    fun c => step_mid (w := 10) (k := 6) rfl (by omega) _ _ _ _ _ _ main_v82 _ b t a5 c
  have e7 : main_v104 (ix3 b t (0 : Fin 1)) = Lpc.one - Lpc.iterR 6 (Lpc.rowOf X b t) 9 * Lpc.iterR 6 (Lpc.rowOf X b t) 9 :=
    den_mid (w := 9) (k := 7) rfl (by omega) _ _ _ main_v98 _ b t a6
  have a7 : ∀ c : Fin 16, main_v114 (ix3 b t c) = Lpc.iterR 7 (Lpc.rowOf X b t) c.val :=
    fun c => step_mid (w := 9) (k := 7) rfl (by omega) _ _ _ _ _ _ main_v98 _ b t a6 c
  have e8 : main_v120 (ix3 b t (0 : Fin 1)) = Lpc.one - Lpc.iterR 7 (Lpc.rowOf X b t) 8 * Lpc.iterR 7 (Lpc.rowOf X b t) 8 :=
    den_mid (w := 8) (k := 8) rfl (by omega) _ _ _ main_v114 _ b t a7
  have a8 : ∀ c : Fin 16, main_v130 (ix3 b t c) = Lpc.iterR 8 (Lpc.rowOf X b t) c.val :=
    fun c => step_mid (w := 8) (k := 8) rfl (by omega) _ _ _ _ _ _ main_v114 _ b t a7 c
  have e9 : main_v136 (ix3 b t (0 : Fin 1)) = Lpc.one - Lpc.iterR 8 (Lpc.rowOf X b t) 7 * Lpc.iterR 8 (Lpc.rowOf X b t) 7 :=
    den_mid (w := 7) (k := 9) rfl (by omega) _ _ _ main_v130 _ b t a8
  have a9 : ∀ c : Fin 16, main_v146 (ix3 b t c) = Lpc.iterR 9 (Lpc.rowOf X b t) c.val :=
    fun c => step_mid (w := 7) (k := 9) rfl (by omega) _ _ _ _ _ _ main_v130 _ b t a8 c
  have e10 : main_v152 (ix3 b t (0 : Fin 1)) = Lpc.one - Lpc.iterR 9 (Lpc.rowOf X b t) 6 * Lpc.iterR 9 (Lpc.rowOf X b t) 6 :=
    den_mid (w := 6) (k := 10) rfl (by omega) _ _ _ main_v146 _ b t a9
  have a10 : ∀ c : Fin 16, main_v162 (ix3 b t c) = Lpc.iterR 10 (Lpc.rowOf X b t) c.val :=
    fun c => step_mid (w := 6) (k := 10) rfl (by omega) _ _ _ _ _ _ main_v146 _ b t a9 c
  have e11 : main_v168 (ix3 b t (0 : Fin 1)) = Lpc.one - Lpc.iterR 10 (Lpc.rowOf X b t) 5 * Lpc.iterR 10 (Lpc.rowOf X b t) 5 :=
    den_mid (w := 5) (k := 11) rfl (by omega) _ _ _ main_v162 _ b t a10
  have a11 : ∀ c : Fin 16, main_v178 (ix3 b t c) = Lpc.iterR 11 (Lpc.rowOf X b t) c.val :=
    fun c => step_mid (w := 5) (k := 11) rfl (by omega) _ _ _ _ _ _ main_v162 _ b t a10 c
  have e12 : main_v184 (ix3 b t (0 : Fin 1)) = Lpc.one - Lpc.iterR 11 (Lpc.rowOf X b t) 4 * Lpc.iterR 11 (Lpc.rowOf X b t) 4 :=
    den_mid (w := 4) (k := 12) rfl (by omega) _ _ _ main_v178 _ b t a11
  have a12 : ∀ c : Fin 16, main_v194 (ix3 b t c) = Lpc.iterR 12 (Lpc.rowOf X b t) c.val :=
    fun c => step_mid (w := 4) (k := 12) rfl (by omega) _ _ _ _ _ _ main_v178 _ b t a11 c
  have e13 : main_v200 (ix3 b t (0 : Fin 1)) = Lpc.one - Lpc.iterR 12 (Lpc.rowOf X b t) 3 * Lpc.iterR 12 (Lpc.rowOf X b t) 3 :=
    den_mid (w := 3) (k := 13) rfl (by omega) _ _ _ main_v194 _ b t a12
  have a13 : ∀ c : Fin 16, main_v210 (ix3 b t c) = Lpc.iterR 13 (Lpc.rowOf X b t) c.val :=
    fun c => step_mid (w := 3) (k := 13) rfl (by omega) _ _ _ _ _ _ main_v194 _ b t a12 c
  have e14 : main_v216 (ix3 b t (0 : Fin 1)) = Lpc.one - Lpc.iterR 13 (Lpc.rowOf X b t) 2 * Lpc.iterR 13 (Lpc.rowOf X b t) 2 :=
    den_mid (w := 2) (k := 14) rfl (by omega) _ _ _ main_v210 _ b t a13
  have a14 : ∀ c : Fin 16, main_v226 (ix3 b t c) = Lpc.iterR 14 (Lpc.rowOf X b t) c.val :=
    fun c => step_mid (w := 2) (k := 14) rfl (by omega) _ _ _ _ _ _ main_v210 _ b t a13 c
  have e15 : main_v232 (ix3 b t (0 : Fin 1)) = Lpc.one - Lpc.iterR 14 (Lpc.rowOf X b t) 1 * Lpc.iterR 14 (Lpc.rowOf X b t) 1 :=
    den_mid (w := 1) (k := 15) rfl (by omega) _ _ _ main_v226 _ b t a14
  -- the chain of `and`s, from the last link back
  obtain ⟨h15, n15⟩ := and_all_ne _ _ _ main_v296 main_v232 h
  obtain ⟨h14, n14⟩ := and_all_ne _ _ _ main_v292 main_v216 h15
  obtain ⟨h13, n13⟩ := and_all_ne _ _ _ main_v288 main_v200 h14
  obtain ⟨h12, n12⟩ := and_all_ne _ _ _ main_v284 main_v184 h13
  obtain ⟨h11, n11⟩ := and_all_ne _ _ _ main_v280 main_v168 h12
  obtain ⟨h10, n10⟩ := and_all_ne _ _ _ main_v276 main_v152 h11
  obtain ⟨h9, n9⟩ := and_all_ne _ _ _ main_v272 main_v136 h10
  obtain ⟨h8, n8⟩ := and_all_ne _ _ _ main_v268 main_v120 h9
  obtain ⟨h7, n7⟩ := and_all_ne _ _ _ main_v264 main_v104 h8
  obtain ⟨h6, n6⟩ := and_all_ne _ _ _ main_v260 main_v88 h7
  obtain ⟨h5, n5⟩ := and_all_ne _ _ _ main_v256 main_v72 h6
  obtain ⟨h4, n4⟩ := and_all_ne _ _ _ main_v252 main_v56 h5
  obtain ⟨h3, n3⟩ := and_all_ne _ _ _ main_v248 main_v40 h4
  obtain ⟨h2, n2⟩ := and_all_ne _ _ _ main_v244 main_v24 h3
  obtain ⟨h1, n1⟩ := and_all_ne _ _ _ main_v3 main_v8 h2
  intro n hn
  interval_cases n
  · exact fun e => n1 _ (e1.trans e)
  · exact fun e => n2 _ (e2.trans e)
  · exact fun e => n3 _ (e3.trans e)
  · exact fun e => n4 _ (e4.trans e)
  · exact fun e => n5 _ (e5.trans e)
  · exact fun e => n6 _ (e6.trans e)
  · exact fun e => n7 _ (e7.trans e)
  · exact fun e => n8 _ (e8.trans e)
  · exact fun e => n9 _ (e9.trans e)
  · exact fun e => n10 _ (e10.trans e)
  · exact fun e => n11 _ (e11.trans e)
  · exact fun e => n12 _ (e12.trans e)
  · exact fun e => n13 _ (e13.trans e)
  · exact fun e => n14 _ (e14.trans e)
  · exact fun e => n15 _ (e15.trans e)

end LpcRef

end
-- ==== Proof.lean ====
/-
  The kernel and its reference both run, on every row of sixteen coefficients of a [64, 32768, 16] array, the fifteen
  steps of the Levinson step-down recursion: with `w` leading entries still to rewrite and `k` the entry after them,
  entry `c < w` becomes `(a_c - k · a_{w-1-c}) / (1 - k²)`.  The reference divides; the kernel multiplies by the
  reciprocal `1 / (1 - k²)`, computed once per row.  On the extended reals the quotient by a nonzero divisor IS the
  product with the divisor's inverse, whatever the numerator (infinite ones included), so with all fifteen divisors
  nonzero — the precondition, the reference's own domain — the two recursions agree entry by entry.  (At a zero
  divisor they do not: `0 · (1/0) = 0` while `0 / 0` is the bottom element.)
  The kernel's value: its body works on one block of 256 time steps, in a scratch tile with the coefficient axis in the
  middle; the tile's contents after each step are read column by column (Proof/KerBody), and the blocks tile the array
  (Proof/KerArr).  The reference's value: its generated run, each step's array read at a row (Proof/RefRow).  The
  divisors named by the precondition are the recursion's (Proof/PreDen).
-/
import proofs.«112433_j52664888984120_2_alg».proof.Defs
import proofs.«112433_j52664888984120_2_alg».proof.Proof.Gen.Kernel
import proofs.«112433_j52664888984120_2_alg».proof.Proof.Gen.Kernel.Skeleton
import proofs.«112433_j52664888984120_2_alg».proof.Proof.Gen.Kernel.Launch
import proofs.«112433_j52664888984120_2_alg».proof.Proof.Gen.Kernel.Points
import proofs.«112433_j52664888984120_2_alg».proof.Proof.Gen.Kernel.Frame
import proofs.«112433_j52664888984120_2_alg».proof.Proof.Gen.KernelIdeal
import proofs.«112433_j52664888984120_2_alg».proof.Proof.Gen.KernelIdeal.Skeleton
import proofs.«112433_j52664888984120_2_alg».proof.Proof.Gen.KernelIdeal.Launch
import proofs.«112433_j52664888984120_2_alg».proof.Proof.Gen.KernelIdeal.Points
import proofs.«112433_j52664888984120_2_alg».proof.Proof.Gen.KernelIdeal.Frame
import proofs.«112433_j52664888984120_2_alg».proof.Proof.Gen.ReferenceIdeal
import proofs.«112433_j52664888984120_2_alg».proof.Proof.Gen.Pre_finite_inputs
import proofs.«112433_j52664888984120_2_alg».proof.Proof.Gen.KernelIdeal.Value
import proofs.«112433_j52664888984120_2_alg».proof.Proof.Gen.ReferenceIdeal.Run
import proofs.«112433_j52664888984120_2_alg».proof.Proof.Spec
import proofs.«112433_j52664888984120_2_alg».proof.Proof.KerArr
import proofs.«112433_j52664888984120_2_alg».proof.Proof.RefRow
import proofs.«112433_j52664888984120_2_alg».proof.Proof.PreDen
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo

/-! Both runs are posted at ONE function of the argument array: entry `(b, t, ch)` is entry `ch` of the fifteen-step
    recursion of row `(b, t)`.  The kernel computes it in the reciprocal form (`Arr.G`, over `Lpc.iterK`), the reference in
    the quotient form (`Lpc.iterR`); with every divisor nonzero the two forms agree (`Lpc.iterK_eq_iterR`). -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at the reciprocal-form recursion of every row of the
    argument, the reference's at the quotient-form recursion of every row; the precondition keeps every divisor
    off zero, where the two forms agree. -/
theorem algebraic : Cert.algebraic_KernelIdeal_ReferenceIdeal := by
  intro m ρ m' ρ' hpre hagree
  refine ⟨fun c => Cert.KernelIdeal.Arr.G (m ((c.tc : Thread Cert.KernelIdeal.nD Cert.KernelIdeal.τ).loc Cert.KernelIdeal.main_arg0)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, t, ch, rfl⟩ : ∃ (b : Fin 64) (t : Fin 32768) (ch : Fin 16), i = ix3 b t ch := ⟨i 0, i 1, i 2, eq_ix3 i⟩
  refine (LpcRef.ref_read (launchContents m' c) b t ch).trans ?_
  show Lpc.iterR 15 (Lpc.rowOf (m' ((c.tc : Thread Cert.ReferenceIdeal.nD Cert.ReferenceIdeal.τ).loc Cert.ReferenceIdeal.main_arg0)) b t) ch.val
    = Lpc.iterK 15 (Lpc.rowOf (m ((c.tc : Thread Cert.KernelIdeal.nD Cert.KernelIdeal.τ).loc Cert.KernelIdeal.main_arg0)) b t) ch.val
  rw [hagree c, Lpc.iterK_eq_iterR _ (LpcRef.pre_den _ (hpre c) b t) 15 le_rfl]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
